-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x1024 : Shape := ⟨3, ![32, 16, 1024]⟩
abbrev S32x4096x1024 : Shape := ⟨3, ![32, 4096, 1024]⟩
abbrev S1024x1024 : Shape := ⟨2, ![1024, 1024]⟩
abbrev S1024 : Shape := ⟨1, ![1024]⟩
abbrev S_ : Shape := ⟨0, ![]⟩

class Facts : Prop where
  bcast_S_S32x16x1024 : S_.BroadcastsInDim S32x16x1024 (![] : Fin 0 → Fin S32x16x1024.rank)
  reducesTo_S32x16x1024_S_d0_1_2 : S32x16x1024.ReducesTo [0, 1, 2] S_
  h_S_ : 0 < S_.numel
  bcast_S_S32x4096x1024 : S_.BroadcastsInDim S32x4096x1024 (![] : Fin 0 → Fin S32x4096x1024.rank)
  reducesTo_S32x4096x1024_S_d0_1_2 : S32x4096x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S32x16x1024 .f32) (main_arg1 : FVec F S32x4096x1024 .f32) (main_arg2 : FVec F S32x4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S32x16x1024 .f32 := Host.absf main_arg0
  let main_cst : FVec F S_ .f32 := constant S_ .f32 0x7F800000#32
  let main_v1 : FVec F S32x16x1024 .f32 := broadcastInDim S32x16x1024 ![] bcast_S_S32x16x1024 main_cst
  let main_v2 : IVec S32x16x1024 1 := cmpf .olt main_v0 main_v1
  let main_c : IVec S_ 1 := constantI S_ 1 1#1
  let main_v3 : IVec S_ 1 := (fun x v => Host.reduce IntOp.andi x v reducesTo_S32x16x1024_S_d0_1_2 h_S_) main_v2 main_c
  let main_v4 : FVec F S32x4096x1024 .f32 := Host.absf main_arg1
  let main_cst_0 : FVec F S_ .f32 := constant S_ .f32 0x7F800000#32
  let main_v5 : FVec F S32x4096x1024 .f32 := broadcastInDim S32x4096x1024 ![] bcast_S_S32x4096x1024 main_cst_0
  let main_v6 : IVec S32x4096x1024 1 := cmpf .olt main_v4 main_v5
  let main_c_1 : IVec S_ 1 := constantI S_ 1 1#1
  let main_v7 : IVec S_ 1 := (fun x v => Host.reduce IntOp.andi x v reducesTo_S32x4096x1024_S_d0_1_2 h_S_) main_v6 main_c_1
  let main_v8 : IVec S_ 1 := andi main_v3 main_v7
  let main_v9 : FVec F S32x4096x1024 .f32 := Host.absf main_arg2
  let main_cst_2 : FVec F S_ .f32 := constant S_ .f32 0x7F800000#32
  let main_v10 : FVec F S32x4096x1024 .f32 := broadcastInDim S32x4096x1024 ![] bcast_S_S32x4096x1024 main_cst_2
  let main_v11 : IVec S32x4096x1024 1 := cmpf .olt main_v9 main_v10
  let main_c_3 : IVec S_ 1 := constantI S_ 1 1#1
  let main_v12 : IVec S_ 1 := (fun x v => Host.reduce IntOp.andi x v reducesTo_S32x4096x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S32x16x1024 : Shape := ⟨3, ![32, 16, 1024]⟩
abbrev S32x4096x1024 : Shape := ⟨3, ![32, 4096, 1024]⟩
abbrev S1024x1024 : Shape := ⟨2, ![1024, 1024]⟩
abbrev S1024 : Shape := ⟨1, ![1024]⟩
abbrev S1x1024 : Shape := ⟨2, ![1, 1024]⟩
abbrev S32x4112x1024 : Shape := ⟨3, ![32, 4112, 1024]⟩
abbrev S1x16x1024 : Shape := ⟨3, ![1, 16, 1024]⟩
abbrev S1x1024x1024 : Shape := ⟨3, ![1, 1024, 1024]⟩
abbrev S16x1024 : Shape := ⟨2, ![16, 1024]⟩
abbrev S16x1 : Shape := ⟨2, ![16, 1]⟩
abbrev S_ : Shape := ⟨0, ![]⟩
abbrev S16 : Shape := ⟨1, ![16]⟩
abbrev S16x16 : Shape := ⟨2, ![16, 16]⟩

abbrev nBuf : Space → Nat
  | .hbm => 15
  | .vmem => 22
  | .smem => 0
  | _ => 0

abbrev bufTy : (tb : Table) → Fin (tcTables nBuf tb) → BufTy
  | .hbm, ⟨0, _⟩ => ⟨S32x16x1024, .f32⟩
  | .hbm, ⟨1, _⟩ => ⟨S32x4096x1024, .f32⟩
  | .hbm, ⟨2, _⟩ => ⟨S32x4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S32x16x1024, .f32⟩
  | .hbm, ⟨13, _⟩ => ⟨S32x4112x1024, .f32⟩
  | .hbm, ⟨14, _⟩ => ⟨S32x4112x1024, .f32⟩
  | .local _ .vmem, ⟨0, _⟩ => ⟨S1x16x1024, .f32⟩
  | .local _ .vmem, ⟨1, _⟩ => ⟨S1x16x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x16x1024, .f32⟩
  | .local _ .vmem, ⟨13, _⟩ => ⟨S1x16x1024, .f32⟩
  | .local _ .vmem, ⟨14, _⟩ => ⟨S16x1024, .f32⟩
  | .local _ .vmem, ⟨15, _⟩ => ⟨S1x16x1024, .f32⟩
  | .local _ .vmem, ⟨16, _⟩ => ⟨S1x16x1024, .f32⟩
  | .local _ .vmem, ⟨17, _⟩ => ⟨S16x1, .f32⟩
  | .local _ .vmem, ⟨18, _⟩ => ⟨S16x1, .f32⟩
  | .local _ .vmem, ⟨19, _⟩ => ⟨S16x1024, .f32⟩
  | .local _ .vmem, ⟨20, _⟩ => ⟨S1x1024x1024, .f32⟩
  | .local _ .vmem, ⟨21, _⟩ => ⟨S1x1024x1024, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![32, 5], ![false, false]⟩

def k0_cond2 (i : grid0.Coords) : BitVec 1 :=
  let arg1 : BitVec 32 := BitVec.ofNat 32 (i 1).val
  let c4_i32 : BitVec 32 := 4#32
  let v3 : BitVec 1 := Scalar.cmpi .eq arg1 c4_i32
  let v_true : BitVec 1 := 1#1
  let v4 : BitVec 1 := Scalar.xori v3 v_true
  let v5 : BitVec 32 := Scalar.extui v4
  let c0_i32_1 : BitVec 32 := 0#32
  let v6 : BitVec 1 := Scalar.cmpi .ne v5 c0_i32_1
  v6

def k0_off1 (i : grid0.Coords) : Fin 3 → Nat :=
  let arg0 : BitVec 32 := BitVec.ofNat 32 (i 0).val
  let arg1 : BitVec 32 := BitVec.ofNat 32 (i 1).val
  let c1024_i32 : BitVec 32 := 1024#32
  let v17 : BitVec 32 := Scalar.muli arg1 c1024_i32
  let c0_i32_15 : BitVec 32 := 0#32
  ![arg0.toNat, v17.toNat, 0]
def k0_cond3 (i : grid0.Coords) : BitVec 1 :=
  let arg1 : BitVec 32 := BitVec.ofNat 32 (i 1).val
  let c4_i32 : BitVec 32 := 4#32
  let v3 : BitVec 1 := Scalar.cmpi .eq arg1 c4_i32
  let v7 : BitVec 32 := Scalar.extui v3
  let c0_i32_2 : BitVec 32 := 0#32
  let v8 : BitVec 1 := Scalar.cmpi .ne v7 c0_i32_2
  v8

def k0_off2 (i : grid0.Coords) : Fin 3 → Nat :=
  let arg0 : BitVec 32 := BitVec.ofNat 32 (i 0).val
  let c4096_i32 : BitVec 32 := 4096#32
  let c0_i32_3 : BitVec 32 := 0#32
  ![arg0.toNat, 4096, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S1024_S1x1024 : S1024.ShapeCasts S1x1024
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  broadcasts_S1x1024_S16x1024 : S1x1024.Broadcasts S16x1024
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  shapeCasts_S16x1024_S1x16x1024 : S16x1024.ShapeCasts S1x16x1024
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  shapeCasts_S1x1024x1024_S1024x1024 : S1x1024x1024.ShapeCasts S1024x1024
  reduces_S16x1024_S16 : S16x1024.Reduces [1] S16
  shapeCasts_S16_S16x1 : S16.ShapeCasts S16x1
  broadcasts_S16x1_S16x1024 : S16x1.Broadcasts S16x1024
  reduces_S16x16_S16 : S16x16.Reduces [1] S16
  broadcasts_S16x1_S16x16 : S16x1.Broadcasts S16x16
  dot_S16x1024_S1024x1024_S16x1024_1_1_0_0_n_n_wf : DotDims.WF S16x1024 S1024x1024 S16x1024 [1] [1] [0] [0] [] []
  dot_S16x1024_S1024x1024_S16x1024_1_0_0_1_n_n_wf : DotDims.WF S16x1024 S1024x1024 S16x1024 [1] [0] [0] [1] [] []
  dot_S16x1024_S16x1024_S16x16_1_1_0_0_n_n_wf : DotDims.WF S16x1024 S16x1024 S16x16 [1] [1] [0] [0] [] []
  dot_S16x16_S16x1024_S16x1024_1_0_0_1_n_n_wf : DotDims.WF S16x16 S16x1024 S16x1024 [1] [0] [0] [1] [] []
  hcc0_scratch8 : 14 + S_.numel ≤ 16
  hcc0_scratch9 : 15 + S_.numel ≤ 16
  hrank0 : 0 < grid0.rank
  k0_off1_inb : ∀ i : grid0.Coords, ∀ (k0_h2 : k0_cond2 i = 1#1), ∀ a, (k0_off1 i) a + S1x1024x1024.size a ≤ S32x4112x1024.size a
  k0_off2_inb : ∀ i : grid0.Coords, ∀ (k0_h3 : k0_cond3 i = 1#1), ∀ a, (k0_off2 i) a + S1x16x1024.size a ≤ S32x4112x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x1024.size a ≤ S32x16x1024.size a
  hwx0_0 : ∀ i : grid0.Coords, EltTy.bits .f32 = 32 ∨ (Rect.block (s := S32x16x1024) S1x16x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x1024.size a ≤ S32x4096x1024.size a
  hwx0_7 : ∀ i : grid0.Coords, EltTy.bits .f32 = 32 ∨ (Rect.block (s := S32x4096x1024) S1x1024x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x1024.size a ≤ S32x4096x1024.size a
  hwx0_8 : ∀ i : grid0.Coords, EltTy.bits .f32 = 32 ∨ (Rect.block (s := S32x4096x1024) S1x1024x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16x1024.size a ≤ S32x16x1024.size a
  hwx0_9 : ∀ i : grid0.Coords, EltTy.bits .f32 = 32 ∨ (Rect.block (s := S32x16x1024) S1x16x1024.size (cc0_transform_9 i) (hinb0_9 i)).WholeWords (EltTy.packing .f32)

variable [Facts₀]

abbrev cc0_scratch8 : DmaSems sig S_ := SemArray.consecutive 14 S_ hcc0_scratch8
abbrev cc0_scratch9 : DmaSems sig S_ := SemArray.consecutive 15 S_ hcc0_scratch9
def dot_S16x1024_S1024x1024_S16x1024_1_1_0_0_n_n : DotDims S16x1024 S1024x1024 S16x1024 where
  lhsContracting := [1]
  rhsContracting := [1]
  lhsNonContracting := [0]
  rhsNonContracting := [0]
  lhsBatch := []
  rhsBatch := []
  wf := dot_S16x1024_S1024x1024_S16x1024_1_1_0_0_n_n_wf
def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf
def dot_S16x1024_S16x1024_S16x16_1_1_0_0_n_n : DotDims S16x1024 S16x1024 S16x16 where
  lhsContracting := [1]
  rhsContracting := [1]
  lhsNonContracting := [0]
  rhsNonContracting := [0]
  lhsBatch := []
  rhsBatch := []
  wf := dot_S16x1024_S16x1024_S16x16_1_1_0_0_n_n_wf
def dot_S16x16_S16x1024_S16x1024_1_0_0_1_n_n : DotDims S16x16 S16x1024 S16x1024 where
  lhsContracting := [1]
  rhsContracting := [0]
  lhsNonContracting := [0]
  rhsNonContracting := [1]
  lhsBatch := []
  rhsBatch := []
  wf := dot_S16x16_S16x1024_S16x1024_1_0_0_1_n_n_wf

abbrev win0_0 : Pipeline.Window sig grid0 :=
  Pipeline.Window.ofSpec (Memref.whole main_arg0) S1x16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S1x1024x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S1x1024x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_0) S1x16x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond3 i == 1#1) | ⟨_ + 10, h⟩ => absurd h (Nat.not_lt.2 (Nat.le_add_left _ _))

class Facts : Prop extends Facts₀ where

variable [Facts]
-- ==== ReferenceIdeal.lean ====
abbrev S32x16x1024 : Shape := ⟨3, ![32, 16, 1024]⟩
abbrev S32x4096x1024 : Shape := ⟨3, ![32, 4096, 1024]⟩
abbrev S1024x1024 : Shape := ⟨2, ![1024, 1024]⟩
abbrev S1024 : Shape := ⟨1, ![1024]⟩
abbrev S1x1x1024 : Shape := ⟨3, ![1, 1, 1024]⟩
abbrev S32x4112x1024 : Shape := ⟨3, ![32, 4112, 1024]⟩
abbrev S_ : Shape := ⟨0, ![]⟩
abbrev S32x16x4112 : Shape := ⟨3, ![32, 16, 4112]⟩
abbrev S32x16 : Shape := ⟨2, ![32, 16]⟩
abbrev S32x16x1 : Shape := ⟨3, ![32, 16, 1]⟩

abbrev nBuf : Space → Nat
  | .hbm => 45
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S32x4096x1024, .f32⟩
  | .hbm, ⟨2, _⟩ => ⟨S32x4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S32x16x1024, .f32⟩
  | .hbm, ⟨10, _⟩ => ⟨S1x1x1024, .f32⟩
  | .hbm, ⟨11, _⟩ => ⟨S32x16x1024, .f32⟩
  | .hbm, ⟨12, _⟩ => ⟨S32x16x1024, .f32⟩
  | .hbm, ⟨13, _⟩ => ⟨S32x16x1024, .f32⟩
  | .hbm, ⟨14, _⟩ => ⟨S1x1x1024, .f32⟩
  | .hbm, ⟨15, _⟩ => ⟨S32x16x1024, .f32⟩
  | .hbm, ⟨16, _⟩ => ⟨S32x16x1024, .f32⟩
  | .hbm, ⟨17, _⟩ => ⟨S32x16x1024, .f32⟩
  | .hbm, ⟨18, _⟩ => ⟨S1x1x1024, .f32⟩
  | .hbm, ⟨19, _⟩ => ⟨S32x16x1024, .f32⟩
  | .hbm, ⟨20, _⟩ => ⟨S32x16x1024, .f32⟩
  | .hbm, ⟨21, _⟩ => ⟨S32x4112x1024, .f32⟩
  | .hbm, ⟨22, _⟩ => ⟨S32x4112x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32x16x4112, .f32⟩
  | .hbm, ⟨28, _⟩ => ⟨S32x16x4112, .f32⟩
  | .hbm, ⟨29, _⟩ => ⟨S32x16x4112, .f32⟩
  | .hbm, ⟨30, _⟩ => ⟨S_, .f32⟩
  | .hbm, ⟨31, _⟩ => ⟨S32x16, .f32⟩
  | .hbm, ⟨32, _⟩ => ⟨S_, .f32⟩
  | .hbm, ⟨33, _⟩ => ⟨S32x16, .f32⟩
  | .hbm, ⟨34, _⟩ => ⟨S32x16, .f32⟩
  | .hbm, ⟨35, _⟩ => ⟨S32x16x1, .f32⟩
  | .hbm, ⟨36, _⟩ => ⟨S32x16x4112, .f32⟩
  | .hbm, ⟨37, _⟩ => ⟨S32x16x4112, .f32⟩
  | .hbm, ⟨38, _⟩ => ⟨S32x16x4112, .f32⟩
  | .hbm, ⟨39, _⟩ => ⟨S_, .f32⟩
  | .hbm, ⟨40, _⟩ => ⟨S32x16, .f32⟩
  | .hbm, ⟨41, _⟩ => ⟨S32x16x1, .f32⟩
  | .hbm, ⟨42, _⟩ => ⟨S32x16x4112, .f32⟩
  | .hbm, ⟨43, _⟩ => ⟨S32x16x4112, .f32⟩
  | .hbm, ⟨44, _⟩ => ⟨S32x16x1024, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x16x1024_0_1_2 : S1x1x1024.BroadcastsInDim S32x16x1024 (![0, 1, 2] : Fin 3 → Fin S32x16x1024.rank)
  concatenates_S32x4096x1024_S32x16x1024_S32x4112x1024_d1 : Shape.Concatenates [S32x4096x1024, S32x16x1024] S32x4112x1024 1
  bcast_S_S32x16x4112 : S_.BroadcastsInDim S32x16x4112 (![] : Fin 0 → Fin S32x16x4112.rank)
  reducesTo_S32x16x4112_S32x16_d2 : S32x16x4112.ReducesTo [2] S32x16
  h_S_ : 0 < S_.numel
  bcast_S_S32x16 : S_.BroadcastsInDim S32x16 (![] : Fin 0 → Fin S32x16.rank)
  bcast_S32x16_S32x16x1_0_1 : S32x16.BroadcastsInDim S32x16x1 (![0, 1] : Fin 2 → Fin S32x16x1.rank)
  bcast_S32x16x1_S32x16x4112_0_1_2 : S32x16x1.BroadcastsInDim S32x16x4112 (![0, 1, 2] : Fin 3 → Fin S32x16x4112.rank)
  dot_S32x16x1024_S1024x1024_S32x16x1024_2_1_01_0_n_n_wf : DotDims.WF S32x16x1024 S1024x1024 S32x16x1024 [2] [1] [0, 1] [0] [] []
  dot_S32x16x1024_S32x4112x1024_S32x16x4112_2_2_1_1_0_0_wf : DotDims.WF S32x16x1024 S32x4112x1024 S32x16x4112 [2] [2] [1] [1] [0] [0]
  dot_S32x16x4112_S32x4112x1024_S32x16x1024_2_1_1_2_0_0_wf : DotDims.WF S32x16x4112 S32x4112x1024 S32x16x1024 [2] [1] [1] [2] [0] [0]

variable [Facts₀]

def dot_S32x16x1024_S1024x1024_S32x16x1024_2_1_01_0_n_n : DotDims S32x16x1024 S1024x1024 S32x16x1024 where
  lhsContracting := [2]
  rhsContracting := [1]
  lhsNonContracting := [0, 1]
  rhsNonContracting := [0]
  lhsBatch := []
  rhsBatch := []
  wf := dot_S32x16x1024_S1024x1024_S32x16x1024_2_1_01_0_n_n_wf
def dot_S32x16x1024_S32x4112x1024_S32x16x4112_2_2_1_1_0_0 : DotDims S32x16x1024 S32x4112x1024 S32x16x4112 where
  lhsContracting := [2]
  rhsContracting := [2]
  lhsNonContracting := [1]
  rhsNonContracting := [1]
  lhsBatch := [0]
  rhsBatch := [0]
  wf := dot_S32x16x1024_S32x4112x1024_S32x16x4112_2_2_1_1_0_0_wf
def dot_S32x16x4112_S32x4112x1024_S32x16x1024_2_1_1_2_0_0 : DotDims S32x16x4112 S32x4112x1024 S32x16x1024 where
  lhsContracting := [2]
  rhsContracting := [1]
  lhsNonContracting := [1]
  rhsNonContracting := [2]
  lhsBatch := [0]
  rhsBatch := [0]
  wf := dot_S32x16x4112_S32x4112x1024_S32x16x1024_2_1_1_2_0_0_wf

class Facts : Prop extends Facts₀ where

variable [Facts]
-- ==== Proof.FBaseK.lean ====
/-
  What the three runs of the kernel body and the frame share: the algebra the body's own transfers need, @main up
  to the region, each input window's block found in its staging buffer, the three conditions of the body decided
  over the grid (point t is tile t mod 5 of batch t / 5), where the output window is idle, and the names of the
  staging buffers, the scratch buffers, the two result arrays left in HBM and the kernel's two DMA semaphores.
-/
import proofs.«147685_j44616120271538_2_alg».proof.Proof.Gen.Kernel.Frame
import proofs.«147685_j44616120271538_2_alg».proof.Proof.Gen.Kernel.Skeleton
import Idealize.ShloMosaic.Lib.Pipeline.FrameBody
import Idealize.ShloMosaic.Lib.Pipeline.Routed
import Idealize.ShloMosaic.Lib.Ring
import Idealize.ShloMosaic.Lib.Tactic

set_option maxRecDepth 16384

noncomputable section

namespace Cert.Kernel.FX

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## @main up to the region -/

/-- @main up to the region: the three reshapes of the biases, then the region. -/
theorem hmain (𝒱₀ : Variants) : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

/-! ## Each input window's block -/

/-- Input window 0's current staging buffer holds its block at every point, fetched there or not. -/
theorem before0_of {c : Dev nD} (dat : Dat τ (Elt F) Unit ℕ (Pipeline.UC sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (Pipeline.UC sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (Pipeline.UC sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (Pipeline.UC sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (Pipeline.UC sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (Pipeline.UC sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (Pipeline.UC sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before7_of {c : Dev nD} (dat : Dat τ (Elt F) Unit ℕ (Pipeline.UC sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before8_of {c : Dev nD} (dat : Dat τ (Elt F) Unit ℕ (Pipeline.UC sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions, over the grid -/

/-- The first tile of a batch (tile 0). -/
abbrev cond0 (i : grid0.Coords) : Prop := (Scalar.cmpi .ne (Scalar.extui (Scalar.cmpi .eq (BitVec.ofNat 32 (i 1).val) 0#32)) 0#32) = 1#1
/-- A cache tile (tiles 0 to 3). -/
abbrev cond1 (i : grid0.Coords) : Prop := k0_cond2 i = 1#1
/-- The tile of the new rows (tile 4). -/
abbrev cond2 (i : grid0.Coords) : Prop := k0_cond3 i = 1#1

theorem hcond0 : ∀ t : Fin cfg0.N, cond0 (grid0.coords t) ↔ t.val % 5 = 0 :=
  (by decide +kernel : ∀ t : Fin grid0.N, cond0 (grid0.coords t) ↔ t.val % 5 = 0)
theorem hcond1 : ∀ t : Fin cfg0.N, cond1 (grid0.coords t) ↔ ¬ t.val % 5 = 4 :=
  (by decide +kernel : ∀ t : Fin grid0.N, cond1 (grid0.coords t) ↔ ¬ t.val % 5 = 4)
theorem hcond2 : ∀ t : Fin cfg0.N, cond2 (grid0.coords t) ↔ t.val % 5 = 4 :=
  (by decide +kernel : ∀ t : Fin grid0.N, cond2 (grid0.coords t) ↔ t.val % 5 = 4)

/-- The grid coordinates of point t: batch t / 5, tile t mod 5. -/
theorem coords0 : ∀ t : Fin cfg0.N, (grid0.coords t 0).val = t.val / 5 :=
  (by decide +kernel : ∀ t : Fin grid0.N, (grid0.coords t 0).val = t.val / 5)
theorem coords1 : ∀ t : Fin cfg0.N, (grid0.coords t 1).val = t.val % 5 :=
  (by decide +kernel : ∀ t : Fin grid0.N, (grid0.coords t 1).val = t.val % 5)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel

theorem idle9 : ∀ t : Fin cfg0.N, ¬cond2 (grid0.coords t) → cfg0.idle 9 (grid0.coords t) = true := by decide +kernel
theorem noFlush9 : ∀ t : Fin cfg0.N, ¬cond2 (grid0.coords t) → (cfg0.win 9).flush t = false := by decide +kernel
theorem live9 : ∀ t : Fin cfg0.N, cond2 (grid0.coords t) → cfg0.idle 9 (grid0.coords t) = false := by decide +kernel

/-! ## Names -/

abbrev ms0 (t : Fin cfg0.N) : Memref sig .tc .vmem S1x16x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x16x1024 .f32 := win0_9.stage (cfg0.slots t 9)
abbrev hs9 (t : Fin cfg0.N) : (ms9 t).IsWhole := hstage0_9 ((cfg0.slots t 9).cast nbuf0_9)

abbrev sc0 : Memref sig .tc .vmem S16x1024 .f32 := Memref.whole cc0_scratch0
abbrev sc1 : Memref sig .tc .vmem S1x16x1024 .f32 := Memref.whole cc0_scratch1
abbrev sc2 : Memref sig .tc .vmem S1x16x1024 .f32 := Memref.whole cc0_scratch2
abbrev sc3 : Memref sig .tc .vmem S16x1 .f32 := Memref.whole cc0_scratch3
abbrev sc4 : Memref sig .tc .vmem S16x1 .f32 := Memref.whole cc0_scratch4
abbrev sc5 : Memref sig .tc .vmem S16x1024 .f32 := Memref.whole cc0_scratch5
abbrev sc6 : Memref sig .tc .vmem S1x1024x1024 .f32 := Memref.whole cc0_scratch6
abbrev sc7 : Memref sig .tc .vmem S1x1024x1024 .f32 := Memref.whole cc0_scratch7

/-- The keys' result array, left in HBM. -/
abbrev hbK : Memref sig .tc .hbm S32x4112x1024 .f32 := Memref.whole main_v3_1
/-- The values' result array, left in HBM. -/
abbrev hbV : Memref sig .tc .hbm S32x4112x1024 .f32 := Memref.whole main_v3_2
abbrev HbBuf (c : Dev nD) {sp : Space} {S : Shape} {e : EltTy} (M : Memref sig .tc sp S e) : Type := Buf (Elt F) (M.view.loc (c : Thread nD τ))
/-- A buffer held whole at f. -/
abbrev hbPt (c : Dev nD) {sp : Space} {S : Shape} {e : EltTy} (M : Memref sig .tc sp S e) (f : HbBuf (F := F) c M) : sProp 𝕄 :=
  M.view.loc (c : Thread nD τ) ↦{fullShare} f

/-- The kernel's own two DMA semaphores. -/
abbrev osem0 : Fin 2 → SemLoc sig := fun j => (![SemLoc.dma 14, SemLoc.dma 15] : Fin 2 → SemLoc sig) j
theorem ownSemFacts0 : Pipeline.OwnSemFacts spec0 osem0 := by decide
theorem ownSems0_eq (c : Dev nD) :
    (Pipeline.ownSems0 (Ix := Unit) (Name := ℕ) (U := Pipeline.UC sig nD τ) (Lvl := ℕ) (Val := Elt F) (τ := τ) osem0 c : sProp 𝕄)
      = iprop(semVal ((c : Thread nD τ), SemLoc.dma 14) 0 ∗ semVal ((c : Thread nD τ), SemLoc.dma 15) 0) := by
  rw [Pipeline.ownSems0_eq_of_list c osem0 [0, 1] (by decide) (by decide)]; rfl

/-- The two result arrays the body writes by its own transfers. -/
def R0 : Finset (Ref sig .tc) := {main_v3_1, main_v3_2}
theorem R0_sub : R0 ⊆ Pipeline.restRefs sig spec0 := by decide
theorem routed0_eq (c : Dev nD) (W : (b : Ref sig .tc) → Buf (Elt F) ((c.tc : Thread nD τ).loc b)) :
    (Pipeline.routed R0 c W : sProp 𝕄) = iprop(hbPt c hbK (W main_v3_1) ∗ hbPt c hbV (W main_v3_2)) := by
  unfold Pipeline.routed
  rw [BI.bigSep_eq_bigSepL_of_eq [main_v3_1, main_v3_2] (by decide) (by decide)]; rfl

end Cert.Kernel.FX

end
-- ==== Proof.KStateK.lean ====
/-
  What the kernel keeps in its scratch buffers from one grid point to the next, as a record, and the three ways
  a grid point changes it.

  Grid point (b, kv) of batch b works on key/value tile kv.  At kv = 0 the three projections of the batch's x rows
  are computed and kept (the query rows q, the new key rows kn, the new value rows vn) and the running maximum m,
  the running denominator l and the running numerator acc are reset to −∞, 0, 0.  At kv < 4 the tile of 1024 cache
  rows is folded into (m, l, acc) by the online-softmax step and copied to the pass-through buffers kp, vp.  At
  kv = 4 the 16 new rows are folded in the same way and the output block acc / l is formed.
-/
import proofs.«147685_j44616120271538_2_alg».proof.Proof.Gen.Kernel.Skeleton

noncomputable section

namespace Cert.Kernel.KState

open Idealize.ShloMosaic Cert.Kernel Cert.Kernel.Gen

variable {F : FTy → Type} [FloatOps F]

/-- The scratch buffers' contents: q, kn, vn, m, l, acc and the two pass-through tiles. -/
structure Scr (F : FTy → Type) where
  /-- the projected query rows (scratch 0) -/
  q : FVec F S16x1024 .f32
  /-- the projected new key rows (scratch 1) -/
  kn : FVec F S1x16x1024 .f32
  /-- the projected new value rows (scratch 2) -/
  vn : FVec F S1x16x1024 .f32
  /-- the running maximum (scratch 3) -/
  m : FVec F S16x1 .f32
  /-- the running denominator (scratch 4) -/
  l : FVec F S16x1 .f32
  /-- the running numerator (scratch 5) -/
  acc : FVec F S16x1024 .f32
  /-- the key tile on its way out (scratch 6) -/
  kp : FVec F S1x1024x1024 .f32
  /-- the value tile on its way out (scratch 7) -/
  vp : FVec F S1x1024x1024 .f32

/-- The first tile's reset: the three projections of the x block, and (m, l, acc) = (−∞, 0, 0). -/
def stepInit (st : Scr F) (xb : FVec F S1x16x1024 .f32) (wq : FVec F S1024x1024 .f32) (bq : FVec F S1x1024 .f32)
    (wk : FVec F S1024x1024 .f32) (bk : FVec F S1x1024 .f32) (wv : FVec F S1024x1024 .f32) (bv : FVec F S1x1024 .f32) : Scr F :=
  { st with q := k0_pay12 xb wq bq, kn := k0_pay13 xb wk bk, vn := k0_pay14 xb wv bv,
            m := k0_pay1, l := k0_pay2, acc := k0_pay3 }

/-- A cache tile folded in: scores against the tile's key rows, the new maximum, the rescaled sums. -/
def stepTile (st : Scr F) (kc vc : FVec F S1x1024x1024 .f32) : Scr F :=
  { st with
    kp := k0_pay15 kc, vp := k0_pay16 vc,
    l := k0_pay5 (k0_pay18 kc st.q) (k0_pay20 kc st.q st.m) (k0_pay21 kc st.q st.m) st.l,
    acc := k0_pay6 (k0_pay17 vc) (k0_pay18 kc st.q) (k0_pay20 kc st.q st.m) (k0_pay21 kc st.q st.m) st.acc,
    m := k0_pay7 (k0_pay19 kc st.q st.m) }

/-- The 16 new rows folded in. -/
def stepLast (st : Scr F) : Scr F :=
  { st with
    l := k0_pay26 st.kn st.q st.m st.l,
    acc := k0_pay8 (k0_pay27 st.kn st.vn st.q st.m st.acc),
    m := k0_pay9 (k0_pay23 st.kn st.q st.m) }

/-- The output block the last step forms: acc / l of the state it leaves. -/
def outBlock (st : Scr F) : FVec F S1x16x1024 .f32 := k0_pay10 (stepLast st).acc (stepLast st).l

end Cert.Kernel.KState

end
-- ==== Proof.FStepsK.lean ====
/-
  The slots of the two result arrays that the body's own transfers fill, and what a result array holds once a slot
  has been filled.  Tile kv < 4 of batch b fills rows 1024·kv … 1024·kv + 1023 of batch b; the tile of the new rows
  fills rows 4096 … 4111 of batch b.
-/
import proofs.«147685_j44616120271538_2_alg».proof.Proof.FBaseK
import proofs.«147685_j44616120271538_2_alg».proof.Proof.KStateK
import Idealize.ShloMosaic.Lib.Pipeline.Value

noncomputable section

namespace Cert.Kernel.FX

open Cert.Kernel Cert.Kernel.Gen Cert.Kernel.KState
open Idealize.ShloMosaic Idealize.ShloMosaic.TcCoe
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The slot of a cache tile in a result array. -/
abbrev slot1 (i : grid0.Coords) (h : cond1 i) (A : Memref sig .tc .hbm S32x4112x1024 .f32) : Memref sig .tc .hbm S1x1024x1024 .f32 :=
  A.slice (Rect.unit (s := S32x4112x1024) (k0_off1 i) S1x1024x1024.size (k0_off1_inb i h)) (fun _ => rfl)
/-- The slot of the new rows in a result array. -/
abbrev slot2 (i : grid0.Coords) (h : cond2 i) (A : Memref sig .tc .hbm S32x4112x1024 .f32) : Memref sig .tc .hbm S1x16x1024 .f32 :=
  A.slice (Rect.unit (s := S32x4112x1024) (k0_off2 i) S1x16x1024.size (k0_off2_inb i h)) (fun _ => rfl)

/-- A result array with a cache tile's slot filled by P. -/
def put1 (i : grid0.Coords) (h : cond1 i) (A : Memref sig .tc .hbm S32x4112x1024 .f32)
    (f : BufTy.Contents (Elt F) (slot1 i h A).view.ty) (P : Vec F S1x1024x1024 .f32) : BufTy.Contents (Elt F) (slot1 i h A).view.ty :=
  View.write (Elt F) (slot1 i h A).view f P Finset.univ
/-- A result array with the new rows' slot filled by P. -/
def put2 (i : grid0.Coords) (h : cond2 i) (A : Memref sig .tc .hbm S32x4112x1024 .f32)
    (f : BufTy.Contents (Elt F) (slot2 i h A).view.ty) (P : Vec F S1x16x1024 .f32) : BufTy.Contents (Elt F) (slot2 i h A).view.ty :=
  View.write (Elt F) (slot2 i h A).view f P Finset.univ

/-- What the scratch buffers hold after the first tile of a batch: the projections, and the first tile folded into
    (−∞, 0, 0).  (Whatever the buffers held before: every one of them is overwritten.) -/
def stepFirst (xb : FVec F S1x16x1024 .f32) (wq : FVec F S1024x1024 .f32) (bq : FVec F S1x1024 .f32)
    (wk : FVec F S1024x1024 .f32) (bk : FVec F S1x1024 .f32) (wv : FVec F S1024x1024 .f32) (bv : FVec F S1x1024 .f32)
    (kc vc : FVec F S1x1024x1024 .f32) : Scr F :=
  stepTile (stepInit ⟨k0_pay3, k0_pay13 xb wk bk, k0_pay13 xb wk bk, k0_pay1, k0_pay1, k0_pay3, kc, vc⟩ xb wq bq wk bk wv bv) kc vc

/-- The first tile's state does not depend on what the scratch buffers held before. -/
theorem stepFirst_eq (j : Scr F) (xb : FVec F S1x16x1024 .f32) (wq : FVec F S1024x1024 .f32) (bq : FVec F S1x1024 .f32)
    (wk : FVec F S1024x1024 .f32) (bk : FVec F S1x1024 .f32) (wv : FVec F S1024x1024 .f32) (bv : FVec F S1x1024 .f32)
    (kc vc : FVec F S1x1024x1024 .f32) :
    stepFirst xb wq bq wk bk wv bv kc vc = stepTile (stepInit j xb wq bq wk bk wv bv) kc vc := rfl

/-- Reading back what one store through the whole buffer left gives its payload, whatever the buffer held. -/
theorem read_writes_unit {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩), View.canon_unit_zero h]

/-- The same when that store came last, after others. -/
theorem read_writes_cons_unit {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

end Cert.Kernel.FX

end
-- ==== Proof.FStatesK.lean ====
/-
  What the body's invariant tracks from point to point: the scratch buffers' contents and the two result arrays'
  contents, by recursion on the grid point.  Point t is tile t mod 5 of batch t / 5: tile 0 resets and folds the first
  cache tile in, tiles 1 to 3 fold the next cache tiles in, each of them filling its slot of the two result arrays;
  tile 4 folds the new rows in and fills the arrays' tail slot.
-/
import proofs.«147685_j44616120271538_2_alg».proof.Proof.FStepsK

noncomputable section

namespace Cert.Kernel.FX

open Cert.Kernel Cert.Kernel.Gen Cert.Kernel.KState
open Idealize.ShloMosaic Idealize.ShloMosaic.TcCoe
open Idealize.SL Idealize.SL.Sem

variable {F : FTy → Type} [FloatOps F]

variable (m : (ℓ : Loc nD τ sig) → Buf (Elt F) ℓ)

/-- The scratch buffers' and the two result arrays' contents between two points. -/
structure PSt (F : FTy → Type) (c : Dev nD) where
  /-- the scratch buffers -/
  scr : Scr F
  /-- the keys' result array -/
  k : HbBuf (F := F) c hbK
  /-- the values' result array -/
  v : HbBuf (F := F) c hbV

/-- Scratch contents nobody reads (before the first point every scratch buffer holds anything). -/
def noScr : Scr F :=
  ⟨fun _ => Scalar.ofBits .f32 0#32, fun _ => Scalar.ofBits .f32 0#32, fun _ => Scalar.ofBits .f32 0#32, fun _ => Scalar.ofBits .f32 0#32,
   fun _ => Scalar.ofBits .f32 0#32, fun _ => Scalar.ofBits .f32 0#32, fun _ => Scalar.ofBits .f32 0#32, fun _ => Scalar.ofBits .f32 0#32⟩

/-- One point's effect. -/
def stepAt (c : Dev nD) (t : Fin cfg0.N) (p : PSt F c) : PSt F c :=
  if h1 : cond1 (grid0.coords t) then
    if h0 : cond0 (grid0.coords t) then
      ⟨stepFirst (iblk m c 0 t) (iblk m c 1 t) (iblk m c 2 t) (iblk m c 3 t) (iblk m c 4 t) (iblk m c 5 t) (iblk m c 6 t) (iblk m c 7 t) (iblk m c 8 t),
       put1 (grid0.coords t) h1 hbK p.k (stepFirst (iblk m c 0 t) (iblk m c 1 t) (iblk m c 2 t) (iblk m c 3 t) (iblk m c 4 t) (iblk m c 5 t) (iblk m c 6 t) (iblk m c 7 t) (iblk m c 8 t)).kp,
       put1 (grid0.coords t) h1 hbV p.v (stepFirst (iblk m c 0 t) (iblk m c 1 t) (iblk m c 2 t) (iblk m c 3 t) (iblk m c 4 t) (iblk m c 5 t) (iblk m c 6 t) (iblk m c 7 t) (iblk m c 8 t)).vp⟩
    else
      ⟨stepTile p.scr (iblk m c 7 t) (iblk m c 8 t),
       put1 (grid0.coords t) h1 hbK p.k (stepTile p.scr (iblk m c 7 t) (iblk m c 8 t)).kp,
       put1 (grid0.coords t) h1 hbV p.v (stepTile p.scr (iblk m c 7 t) (iblk m c 8 t)).vp⟩
  else if h2 : cond2 (grid0.coords t) then
    ⟨stepLast p.scr, put2 (grid0.coords t) h2 hbK p.k p.scr.kn, put2 (grid0.coords t) h2 hbV p.v p.scr.vn⟩
  else p

/-- The contents before point n (after point n - 1): the result arrays start as the region finds them. -/
def stAt (c : Dev nD) : (n : ℕ) → n ≤ cfg0.N → PSt F c
  | 0, _ => ⟨noScr, V m c main_v3_1, V m c main_v3_2⟩
  | n + 1, h => stepAt m c ⟨n, h⟩ (stAt c n (Nat.le_of_lt h))

theorem stAt_succ (c : Dev nD) (n : ℕ) (h : n + 1 ≤ cfg0.N) :
    stAt m c (n + 1) h = stepAt m c ⟨n, h⟩ (stAt m c n (Nat.le_of_lt h)) := rfl

/-- The output block the last tile of a batch forms (at the other points the window is idle: nothing is claimed). -/
def outAt (c : Dev nD) (t : Fin cfg0.N) : Vec F S1x16x1024 .f32 :=
  outBlock (stAt m c t.val (Nat.le_of_lt t.isLt)).scr

end Cert.Kernel.FX

end
-- ==== Proof.FRunAK.lean ====
/-
  The kernel body run at the first tile of a batch (tile 0).
-/
import proofs.«147685_j44616120271538_2_alg».proof.Proof.FStepsK

set_option maxRecDepth 16384

noncomputable section

namespace Cert.Kernel.FX

open Cert.Kernel Cert.Kernel.Gen Cert.Kernel.KState
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-- A buffer held at contents equal to others is held at those. -/
theorem pt_of_eqA {ℓ : Loc nD τ sig} {f g : Buf (Elt F) ℓ} (h : f = g) : ((ℓ ↦{fullShare} f : sProp 𝕄)) ⊢ (ℓ ↦{fullShare} g) := by
  subst h; exact .rfl

set_option maxHeartbeats 4000000 in
/-- The body at the first tile of a batch: the three projections are stored, (m, l, acc) reset, and the tile folded in and passed through to the result arrays.  The inputs' staging buffers are handed back as they were; the scratch buffers end at the next
    state; each result array ends with this tile's slot filled; both semaphores are back at zero. -/
theorem runA (c : Dev nD) (i : grid0.Coords) (arg2 : Memref sig .tc .vmem S1x16x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1x1024x1024 .f32) (harg10 : arg10.IsWhole) (arg11 : Memref sig .tc .vmem S1x16x1024 .f32) (harg11 : arg11.IsWhole) (arg14 : Memref sig .tc .vmem S16x1024 .f32) (harg14 : arg14.IsWhole) (arg15 : Memref sig .tc .vmem S1x16x1024 .f32) (harg15 : arg15.IsWhole) (arg16 : Memref sig .tc .vmem S1x16x1024 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1024 .f32) (harg19 : arg19.IsWhole) (arg20 : Memref sig .tc .vmem S1x1024x1024 .f32) (harg20 : arg20.IsWhole) (arg21 : Memref sig .tc .vmem S1x1024x1024 .f32) (harg21 : arg21.IsWhole)
    (hc0 : cond0 i) (hc1 : cond1 i) (hc2 : ¬cond2 i) (x0 : Vec F S1x16x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (x7 : Vec F S1x1024x1024 .f32) (x8 : Vec F S1x1024x1024 .f32) (xi9 : Vec F S1x16x1024 .f32)
    (fK : HbBuf (F := F) c hbK) (fV : HbBuf (F := F) c hbV) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ owns (c : Thread nD τ) arg11 fullShare xi9
        ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ semVal ((c : Thread nD τ), SemLoc.dma 14) 0 ∗ semVal ((c : Thread nD τ), SemLoc.dma 15) 0
        ∗ hbPt c hbK fK ∗ hbPt c hbV fV ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare xi9
            ∗ owns (c : Thread nD τ) arg14 fullShare (stepFirst x0 x1 x2 x3 x4 x5 x6 x7 x8).q ∗ owns (c : Thread nD τ) arg15 fullShare (stepFirst x0 x1 x2 x3 x4 x5 x6 x7 x8).kn ∗ owns (c : Thread nD τ) arg16 fullShare (stepFirst x0 x1 x2 x3 x4 x5 x6 x7 x8).vn ∗ owns (c : Thread nD τ) arg17 fullShare (stepFirst x0 x1 x2 x3 x4 x5 x6 x7 x8).m ∗ owns (c : Thread nD τ) arg18 fullShare (stepFirst x0 x1 x2 x3 x4 x5 x6 x7 x8).l ∗ owns (c : Thread nD τ) arg19 fullShare (stepFirst x0 x1 x2 x3 x4 x5 x6 x7 x8).acc ∗ owns (c : Thread nD τ) arg20 fullShare (stepFirst x0 x1 x2 x3 x4 x5 x6 x7 x8).kp ∗ owns (c : Thread nD τ) arg21 fullShare (stepFirst x0 x1 x2 x3 x4 x5 x6 x7 x8).vp
            ∗ semVal ((c : Thread nD τ), SemLoc.dma 14) 0 ∗ semVal ((c : Thread nD τ), SemLoc.dma 15) 0
            ∗ hbPt c hbK (put1 i hc1 hbK fK (stepFirst x0 x1 x2 x3 x4 x5 x6 x7 x8).kp) ∗ hbPt c hbV (put1 i hc1 hbV fV (stepFirst x0 x1 x2 x3 x4 x5 x6 x7 x8).vp) ∗ (∃ W', owes (c : Thread nD τ) 0 W')) -∗ K ⟨⟩))
      ⊢ wp frame (wpE (defs₀ (F := F)) Variants.none c none) Set.univ (cc0_kernel i arg2 harg2 arg3 harg3 arg4 harg4 arg5 harg5 arg6 harg6 arg7 harg7 arg8 harg8 arg9 harg9 arg10 harg10 arg11 harg11 (Memref.whole main_v3_1) (Memref.isWhole_whole _) (Memref.whole main_v3_2) (Memref.isWhole_whole _) arg14 harg14 arg15 harg15 arg16 harg16 arg17 harg17 arg18 harg18 arg19 harg19 arg20 harg20 arg21 harg21 cc0_scratch8 cc0_scratch9) K := by
  simp only [cc0_kernel_eq_skeleton, k0_part1_eq_skeleton, k0_part2_eq_skeleton, k0_part3_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%e0, %g0, -, HS0⟩, ⟨%e1, %g1, -, HS1⟩, ⟨%e2, %g2, -, HS2⟩, ⟨%e3, %g3, -, HS3⟩, ⟨%e4, %g4, -, HS4⟩, ⟨%e5, %g5, -, HS5⟩, ⟨%e6, %g6, -, HS6⟩, ⟨%e7, %g7, -, HS7⟩, Hq0, Hq1, HK, HV, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  obtain rfl := harg11.eq_unread hf9
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _; isplitr; swap; · iexact HS0
    ipureintro
    sl_unfold_words
    refine (read_writes_unit _ _ hz2 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS1]
  · iexists _; isplitr; swap; · iexact HS1
    ipureintro
    sl_unfold_words
    refine (read_writes_unit _ _ hz3 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS2]
  · iexists _; isplitr; swap; · iexact HS2
    ipureintro
    sl_unfold_words
    refine (read_writes_unit _ _ hz3 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS3]
  · iexists _; isplitr; swap; · iexact HS3
    ipureintro
    sl_unfold_words
    refine (read_writes_cons_unit _ _ hz2 _ _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS4]
  · iexists _; isplitr; swap; · iexact HS4
    ipureintro
    sl_unfold_words
    refine (read_writes_cons_unit _ _ hz2 _ _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS5]
  · iexists _; isplitr; swap; · iexact HS5
    ipureintro
    sl_unfold_words
    refine (read_writes_cons_unit _ _ hz2 _ _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS6]
  · iexists _; isplitr; swap; · iexact HS6
    ipureintro
    sl_unfold_words
    refine (read_writes_unit _ _ hz3 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS7]
  · iexists _; isplitr; swap; · iexact HS7
    ipureintro
    sl_unfold_words
    refine (read_writes_unit _ _ hz3 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [Hq0]; · iexact Hq0
  isplitl [Hq1]; · iexact Hq1
  isplitl [HK]
  · ihave HK' := (pt_of_eqA (g := put1 i hc1 hbK fK (stepFirst x0 x1 x2 x3 x4 x5 x6 x7 x8).kp) (by
      sl_unfold_words
      simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
      rfl)) $$ HK
    iexact HK'
  isplitl [HV]
  · ihave HV' := (pt_of_eqA (g := put1 i hc1 hbV fV (stepFirst x0 x1 x2 x3 x4 x5 x6 x7 x8).vp) (by
      sl_unfold_words
      simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
      rfl)) $$ HV
    iexact HV'
  iexists _; iexact HW

end Cert.Kernel.FX

end
-- ==== Proof.FRunBK.lean ====
/-
  The kernel body run at a later cache tile of a batch (tiles 1, 2, 3).
-/
import proofs.«147685_j44616120271538_2_alg».proof.Proof.FStepsK

set_option maxRecDepth 16384

noncomputable section

namespace Cert.Kernel.FX

open Cert.Kernel Cert.Kernel.Gen Cert.Kernel.KState
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-- A buffer held at contents equal to others is held at those. -/
theorem pt_of_eqB {ℓ : Loc nD τ sig} {f g : Buf (Elt F) ℓ} (h : f = g) : ((ℓ ↦{fullShare} f : sProp 𝕄)) ⊢ (ℓ ↦{fullShare} g) := by
  subst h; exact .rfl

set_option maxHeartbeats 4000000 in
/-- The body at a later cache tile: folded into (m, l, acc) and passed through to the result arrays.  The inputs' staging buffers are handed back as they were; the scratch buffers end at the next
    state; each result array ends with this tile's slot filled; both semaphores are back at zero. -/
theorem runB (c : Dev nD) (i : grid0.Coords) (arg2 : Memref sig .tc .vmem S1x16x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1x1024x1024 .f32) (harg10 : arg10.IsWhole) (arg11 : Memref sig .tc .vmem S1x16x1024 .f32) (harg11 : arg11.IsWhole) (arg14 : Memref sig .tc .vmem S16x1024 .f32) (harg14 : arg14.IsWhole) (arg15 : Memref sig .tc .vmem S1x16x1024 .f32) (harg15 : arg15.IsWhole) (arg16 : Memref sig .tc .vmem S1x16x1024 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1024 .f32) (harg19 : arg19.IsWhole) (arg20 : Memref sig .tc .vmem S1x1024x1024 .f32) (harg20 : arg20.IsWhole) (arg21 : Memref sig .tc .vmem S1x1024x1024 .f32) (harg21 : arg21.IsWhole)
    (hc0 : ¬cond0 i) (hc1 : cond1 i) (hc2 : ¬cond2 i) (x0 : Vec F S1x16x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (x7 : Vec F S1x1024x1024 .f32) (x8 : Vec F S1x1024x1024 .f32) (xi9 : Vec F S1x16x1024 .f32) (st : Scr F)
    (fK : HbBuf (F := F) c hbK) (fV : HbBuf (F := F) c hbV) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ owns (c : Thread nD τ) arg11 fullShare xi9
        ∗ owns (c : Thread nD τ) arg14 fullShare st.q ∗ owns (c : Thread nD τ) arg15 fullShare st.kn ∗ owns (c : Thread nD τ) arg16 fullShare st.vn ∗ owns (c : Thread nD τ) arg17 fullShare st.m ∗ owns (c : Thread nD τ) arg18 fullShare st.l ∗ owns (c : Thread nD τ) arg19 fullShare st.acc ∗ owns (c : Thread nD τ) arg20 fullShare st.kp ∗ owns (c : Thread nD τ) arg21 fullShare st.vp
        ∗ semVal ((c : Thread nD τ), SemLoc.dma 14) 0 ∗ semVal ((c : Thread nD τ), SemLoc.dma 15) 0
        ∗ hbPt c hbK fK ∗ hbPt c hbV fV ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare xi9
            ∗ owns (c : Thread nD τ) arg14 fullShare (stepTile st x7 x8).q ∗ owns (c : Thread nD τ) arg15 fullShare (stepTile st x7 x8).kn ∗ owns (c : Thread nD τ) arg16 fullShare (stepTile st x7 x8).vn ∗ owns (c : Thread nD τ) arg17 fullShare (stepTile st x7 x8).m ∗ owns (c : Thread nD τ) arg18 fullShare (stepTile st x7 x8).l ∗ owns (c : Thread nD τ) arg19 fullShare (stepTile st x7 x8).acc ∗ owns (c : Thread nD τ) arg20 fullShare (stepTile st x7 x8).kp ∗ owns (c : Thread nD τ) arg21 fullShare (stepTile st x7 x8).vp
            ∗ semVal ((c : Thread nD τ), SemLoc.dma 14) 0 ∗ semVal ((c : Thread nD τ), SemLoc.dma 15) 0
            ∗ hbPt c hbK (put1 i hc1 hbK fK (stepTile st x7 x8).kp) ∗ hbPt c hbV (put1 i hc1 hbV fV (stepTile st x7 x8).vp) ∗ (∃ W', owes (c : Thread nD τ) 0 W')) -∗ K ⟨⟩))
      ⊢ wp frame (wpE (defs₀ (F := F)) Variants.none c none) Set.univ (cc0_kernel i arg2 harg2 arg3 harg3 arg4 harg4 arg5 harg5 arg6 harg6 arg7 harg7 arg8 harg8 arg9 harg9 arg10 harg10 arg11 harg11 (Memref.whole main_v3_1) (Memref.isWhole_whole _) (Memref.whole main_v3_2) (Memref.isWhole_whole _) arg14 harg14 arg15 harg15 arg16 harg16 arg17 harg17 arg18 harg18 arg19 harg19 arg20 harg20 arg21 harg21 cc0_scratch8 cc0_scratch9) K := by
  simp only [cc0_kernel_eq_skeleton, k0_part1_eq_skeleton, k0_part2_eq_skeleton, k0_part3_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%g0, %hg0, HS0⟩, ⟨%g1, %hg1, HS1⟩, ⟨%g2, %hg2, HS2⟩, ⟨%g3, %hg3, HS3⟩, ⟨%g4, %hg4, HS4⟩, ⟨%g5, %hg5, HS5⟩, ⟨%g6, %hg6, HS6⟩, ⟨%g7, %hg7, HS7⟩, Hq0, Hq1, HK, HV, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  obtain rfl := harg11.eq_unread hf9
  obtain rfl := harg14.eq_unread hg0; obtain rfl := harg15.eq_unread hg1; obtain rfl := harg16.eq_unread hg2; obtain rfl := harg17.eq_unread hg3; obtain rfl := harg18.eq_unread hg4; obtain rfl := harg19.eq_unread hg5; obtain rfl := harg20.eq_unread hg6; obtain rfl := harg21.eq_unread hg7
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _; isplitr; · ipureintro; exact harg14.read_unread _
    iexact HS0
  isplitl [HS1]
  · iexists _; isplitr; · ipureintro; exact harg15.read_unread _
    iexact HS1
  isplitl [HS2]
  · iexists _; isplitr; · ipureintro; exact harg16.read_unread _
    iexact HS2
  isplitl [HS3]
  · iexists _; isplitr; swap; · iexact HS3
    ipureintro
    sl_unfold_words
    refine (read_writes_unit _ _ hz2 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS4]
  · iexists _; isplitr; swap; · iexact HS4
    ipureintro
    sl_unfold_words
    refine (read_writes_unit _ _ hz2 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS5]
  · iexists _; isplitr; swap; · iexact HS5
    ipureintro
    sl_unfold_words
    refine (read_writes_unit _ _ hz2 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS6]
  · iexists _; isplitr; swap; · iexact HS6
    ipureintro
    sl_unfold_words
    refine (read_writes_unit _ _ hz3 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS7]
  · iexists _; isplitr; swap; · iexact HS7
    ipureintro
    sl_unfold_words
    refine (read_writes_unit _ _ hz3 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [Hq0]; · iexact Hq0
  isplitl [Hq1]; · iexact Hq1
  isplitl [HK]
  · ihave HK' := (pt_of_eqB (g := put1 i hc1 hbK fK (stepTile st x7 x8).kp) (by
      sl_unfold_words
      simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
      rfl)) $$ HK
    iexact HK'
  isplitl [HV]
  · ihave HV' := (pt_of_eqB (g := put1 i hc1 hbV fV (stepTile st x7 x8).vp) (by
      sl_unfold_words
      simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
      rfl)) $$ HV
    iexact HV'
  iexists _; iexact HW

end Cert.Kernel.FX

end
-- ==== Proof.FRunCK.lean ====
/-
  The kernel body run at the tile of the 16 new rows (tile 4).
-/
import proofs.«147685_j44616120271538_2_alg».proof.Proof.FStepsK

set_option maxRecDepth 16384

noncomputable section

namespace Cert.Kernel.FX

open Cert.Kernel Cert.Kernel.Gen Cert.Kernel.KState
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-- A buffer held at contents equal to others is held at those. -/
theorem pt_of_eqC {ℓ : Loc nD τ sig} {f g : Buf (Elt F) ℓ} (h : f = g) : ((ℓ ↦{fullShare} f : sProp 𝕄)) ⊢ (ℓ ↦{fullShare} g) := by
  subst h; exact .rfl

set_option maxHeartbeats 4000000 in
/-- The body at the tile of the 16 new rows: copied out to the tail of the result arrays while it is folded in (each of the two row blocks is lent to its copy at half its share and read at the other half), and the output block formed.  The inputs' staging buffers are handed back as they were; the scratch buffers end at the next
    state; each result array ends with this tile's slot filled; both semaphores are back at zero. -/
theorem runC (c : Dev nD) (i : grid0.Coords) (arg2 : Memref sig .tc .vmem S1x16x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1x1024x1024 .f32) (harg10 : arg10.IsWhole) (arg11 : Memref sig .tc .vmem S1x16x1024 .f32) (harg11 : arg11.IsWhole) (arg14 : Memref sig .tc .vmem S16x1024 .f32) (harg14 : arg14.IsWhole) (arg15 : Memref sig .tc .vmem S1x16x1024 .f32) (harg15 : arg15.IsWhole) (arg16 : Memref sig .tc .vmem S1x16x1024 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1024 .f32) (harg19 : arg19.IsWhole) (arg20 : Memref sig .tc .vmem S1x1024x1024 .f32) (harg20 : arg20.IsWhole) (arg21 : Memref sig .tc .vmem S1x1024x1024 .f32) (harg21 : arg21.IsWhole)
    (hc0 : ¬cond0 i) (hc1 : ¬cond1 i) (hc2 : cond2 i) (x0 : Vec F S1x16x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (x7 : Vec F S1x1024x1024 .f32) (x8 : Vec F S1x1024x1024 .f32) (st : Scr F)
    (fK : HbBuf (F := F) c hbK) (fV : HbBuf (F := F) c hbV) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ (∃ d, owns (c : Thread nD τ) arg11 fullShare d)
        ∗ owns (c : Thread nD τ) arg14 fullShare st.q ∗ owns (c : Thread nD τ) arg15 fullShare st.kn ∗ owns (c : Thread nD τ) arg16 fullShare st.vn ∗ owns (c : Thread nD τ) arg17 fullShare st.m ∗ owns (c : Thread nD τ) arg18 fullShare st.l ∗ owns (c : Thread nD τ) arg19 fullShare st.acc ∗ owns (c : Thread nD τ) arg20 fullShare st.kp ∗ owns (c : Thread nD τ) arg21 fullShare st.vp
        ∗ semVal ((c : Thread nD τ), SemLoc.dma 14) 0 ∗ semVal ((c : Thread nD τ), SemLoc.dma 15) 0
        ∗ hbPt c hbK fK ∗ hbPt c hbV fV ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare (outBlock st)
            ∗ owns (c : Thread nD τ) arg14 fullShare (stepLast st).q ∗ owns (c : Thread nD τ) arg15 fullShare (stepLast st).kn ∗ owns (c : Thread nD τ) arg16 fullShare (stepLast st).vn ∗ owns (c : Thread nD τ) arg17 fullShare (stepLast st).m ∗ owns (c : Thread nD τ) arg18 fullShare (stepLast st).l ∗ owns (c : Thread nD τ) arg19 fullShare (stepLast st).acc ∗ owns (c : Thread nD τ) arg20 fullShare (stepLast st).kp ∗ owns (c : Thread nD τ) arg21 fullShare (stepLast st).vp
            ∗ semVal ((c : Thread nD τ), SemLoc.dma 14) 0 ∗ semVal ((c : Thread nD τ), SemLoc.dma 15) 0
            ∗ hbPt c hbK (put2 i hc2 hbK fK st.kn) ∗ hbPt c hbV (put2 i hc2 hbV fV st.vn) ∗ (∃ W', owes (c : Thread nD τ) 0 W')) -∗ K ⟨⟩))
      ⊢ wp frame (wpE (defs₀ (F := F)) Variants.none c none) Set.univ (cc0_kernel i arg2 harg2 arg3 harg3 arg4 harg4 arg5 harg5 arg6 harg6 arg7 harg7 arg8 harg8 arg9 harg9 arg10 harg10 arg11 harg11 (Memref.whole main_v3_1) (Memref.isWhole_whole _) (Memref.whole main_v3_2) (Memref.isWhole_whole _) arg14 harg14 arg15 harg15 arg16 harg16 arg17 harg17 arg18 harg18 arg19 harg19 arg20 harg20 arg21 harg21 cc0_scratch8 cc0_scratch9) K := by
  simp only [cc0_kernel_eq_skeleton, k0_part1_eq_skeleton, k0_part2_eq_skeleton, k0_part3_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩,
    ⟨%g0, %hg0, HS0⟩, ⟨%g1, %hg1, HS1⟩, ⟨%g2, %hg2, HS2⟩, ⟨%g3, %hg3, HS3⟩, ⟨%g4, %hg4, HS4⟩, ⟨%g5, %hg5, HS5⟩, ⟨%g6, %hg6, HS6⟩, ⟨%g7, %hg7, HS7⟩, Hq0, Hq1, HK, HV, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  obtain rfl := harg14.eq_unread hg0; obtain rfl := harg15.eq_unread hg1; obtain rfl := harg16.eq_unread hg2; obtain rfl := harg17.eq_unread hg3; obtain rfl := harg18.eq_unread hg4; obtain rfl := harg19.eq_unread hg5; obtain rfl := harg20.eq_unread hg6; obtain rfl := harg21.eq_unread hg7
  ihave HS1' := (pointsTo_share (PosShare.mem_left_op_right fullShare)).1 $$ HS1
  icases HS1' with ⟨HS1l, HS1r⟩
  ihave HS2' := (pointsTo_share (PosShare.mem_left_op_right fullShare)).1 $$ HS2
  icases HS2' with ⟨HS2l, HS2r⟩
  sl_exec (disch := first | exact hc0 | exact hc1 | exact hc2)
  sl_step
  ihave HS1 := (pointsTo_share (PosShare.mem_left_op_right fullShare)).2 $$ [HS1l HS1r]
  · isplitl [HS1l] <;> iassumption
  ihave HS2 := (pointsTo_share (PosShare.mem_left_op_right fullShare)).2 $$ [HS2l HS2r]
  · isplitl [HS2l] <;> iassumption
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    sl_unfold_words
    refine (read_writes_unit _ _ hz3 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS0]
  · iexists _; isplitr; · ipureintro; exact harg14.read_unread _
    iexact HS0
  isplitl [HS1]
  · iexists _; isplitr; · ipureintro; exact harg15.read_unread _
    iexact HS1
  isplitl [HS2]
  · iexists _; isplitr; · ipureintro; exact harg16.read_unread _
    iexact HS2
  isplitl [HS3]
  · iexists _; isplitr; swap; · iexact HS3
    ipureintro
    sl_unfold_words
    refine (read_writes_unit _ _ hz2 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS4]
  · iexists _; isplitr; swap; · iexact HS4
    ipureintro
    sl_unfold_words
    refine (read_writes_unit _ _ hz2 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS5]
  · iexists _; isplitr; swap; · iexact HS5
    ipureintro
    sl_unfold_words
    refine (read_writes_unit _ _ hz2 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS6]
  · iexists _; isplitr; · ipureintro; exact harg20.read_unread _
    iexact HS6
  isplitl [HS7]
  · iexists _; isplitr; · ipureintro; exact harg21.read_unread _
    iexact HS7
  isplitl [Hq0]; · iexact Hq0
  isplitl [Hq1]; · iexact Hq1
  isplitl [HK]
  · ihave HK' := (pt_of_eqC (g := put2 i hc2 hbK fK st.kn) (by
      sl_unfold_words
      simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
      rfl)) $$ HK
    iexact HK'
  isplitl [HV]
  · ihave HV' := (pt_of_eqC (g := put2 i hc2 hbV fV st.vn) (by
      sl_unfold_words
      simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
      rfl)) $$ HV
    iexact HV'
  iexists _; iexact HW

end Cert.Kernel.FX

end
-- ==== Proof.FFrameK.lean ====
/-
  The frame run of the kernel: the proof data (what each window's staging buffer holds after the body at each point;
  the invariant: the scratch buffers, the two result arrays and the kernel's two semaphores at what the points so far
  left), the body obligation at every point from the three runs, and the run to the end, where every input array
  is unchanged, the output array holds what the points wrote back and the two result arrays hold their final contents.
-/
import proofs.«147685_j44616120271538_2_alg».proof.Proof.FStatesK
import proofs.«147685_j44616120271538_2_alg».proof.Proof.FRunAK
import proofs.«147685_j44616120271538_2_alg».proof.Proof.FRunBK
import proofs.«147685_j44616120271538_2_alg».proof.Proof.FRunCK

set_option maxRecDepth 16384

noncomputable section

namespace Cert.Kernel.FX

open Cert.Kernel Cert.Kernel.Gen Cert.Kernel.KState
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## The invariant -/

/-- The scratch buffers at the contents s. -/
def scrOwn (c : Dev nD) (s : Scr F) : sProp 𝕄 :=
  iprop(owns (c : Thread nD τ) sc0 fullShare s.q ∗ owns (c : Thread nD τ) sc1 fullShare s.kn ∗ owns (c : Thread nD τ) sc2 fullShare s.vn ∗ owns (c : Thread nD τ) sc3 fullShare s.m ∗ owns (c : Thread nD τ) sc4 fullShare s.l ∗ owns (c : Thread nD τ) sc5 fullShare s.acc ∗ owns (c : Thread nD τ) sc6 fullShare s.kp ∗ owns (c : Thread nD τ) sc7 fullShare s.vp)

/-- The scratch buffers at anything. -/
def scrAny (c : Dev nD) : sProp 𝕄 :=
  iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d))

/-- Between two points: the result arrays and the scratch buffers at the tracked contents, the semaphores at zero. -/
def PhiT (c : Dev nD) (p : PSt F c) : sProp 𝕄 :=
  iprop((hbPt c hbK p.k ∗ hbPt c hbV p.v) ∗ (semVal ((c : Thread nD τ), SemLoc.dma 14) 0 ∗ semVal ((c : Thread nD τ), SemLoc.dma 15) 0)
    ∗ scrOwn c p.scr ∗ ∃ r, prngReg c r)

/-- What the launch hands the region and takes back, conjunct by conjunct. -/
theorem Ends_eq (c : Dev nD) (W : (b : Ref sig .tc) → Buf (Elt F) ((c.tc : Thread nD τ).loc b)) :
    (Pipeline.Ends spec0 osem0 R0 c W : sProp 𝕄)
      = iprop((hbPt c hbK (W main_v3_1) ∗ hbPt c hbV (W main_v3_2)) ∗ (semVal ((c : Thread nD τ), SemLoc.dma 14) 0 ∗ semVal ((c : Thread nD τ), SemLoc.dma 15) 0)
          ∗ scrAny c ∗ ∃ r, prngReg c r) := by
  unfold Pipeline.Ends scrAny
  rw [routed0_eq, ownSems0_eq, scopedRest0_eq]; simp only [sc0, sc1, sc2, sc3, sc4, sc5, sc6, sc7, owns_whole]; try rfl

/-- The invariant before point n: before the first point what the launch hands over, afterwards the tracked contents. -/
def PhiX (c : Dev nD) : (n : ℕ) → n ≤ cfg0.N → sProp 𝕄
  | 0, _ => Pipeline.Ends spec0 osem0 R0 c (V m c)
  | n + 1, h => PhiT c (stAt m c (n + 1) h)

theorem PhiX_zero (c : Dev nD) (n : ℕ) (h : n ≤ cfg0.N) (hz : n = 0) : PhiX m c n h = Pipeline.Ends spec0 osem0 R0 c (V m c) := by
  subst hz; rfl
theorem PhiX_succ (c : Dev nD) (n : ℕ) (h : n + 1 ≤ cfg0.N) : PhiX m c (n + 1) h = PhiT c (stAt m c (n + 1) h) := rfl
theorem PhiX_pos (c : Dev nD) (n : ℕ) (h : n ≤ cfg0.N) (hz : n ≠ 0) : PhiX m c n h = PhiT c (stAt m c n h) := by
  cases n with
  | zero => exact absurd rfl hz
  | succ n => rfl

/-- The contents after point t are one step from those before it. -/
theorem stAt_next (c : Dev nD) (t : Fin cfg0.N) :
    stAt m c (t.val + 1) t.isLt = stepAt m c t (stAt m c t.val (Nat.le_of_lt t.isLt)) := rfl

/-- Before the first point the result arrays are as the region finds them. -/
theorem stAt_zero_k (c : Dev nD) (n : ℕ) (h : n ≤ cfg0.N) (hz : n = 0) : (stAt m c n h).k = V m c main_v3_1 := by
  subst hz; rfl
theorem stAt_zero_v (c : Dev nD) (n : ℕ) (h : n ≤ cfg0.N) (hz : n = 0) : (stAt m c n h).v = V m c main_v3_2 := by
  subst hz; rfl

/-! ## The proof data -/

/-- The proof data on core c. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiX m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiX m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 16000000 in
/-- The body at any point: which of the three runs applies is decided by t mod 5; the invariant hands the run the scratch
    buffers (at anything before the first tile of a batch, which overwrites them all), the result arrays and the
    semaphores, and takes them back at the next tracked contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = PhiX m c (t.val + 1) t.isLt from rfl, PhiX_succ, stAt_next]
  unfold Dat.owesAt Pipeline.owesWithin
  rw [show (dats m 0 c).owed t.castSucc = 0 from rfl, show (dats m 0 c).owed t.succ = 0 from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  have hN : t.val < 160 := lt_of_lt_of_eq t.isLt (show cfg0.N = 160 from N_0)
  by_cases h4 : t.val % 5 = 4
  · -- the tile of the new rows
    have hc0 : ¬cond0 (grid0.coords t) := fun h => by have := (hcond0 t).mp h; omega
    have hc1 : ¬cond1 (grid0.coords t) := fun h => (hcond1 t).mp h h4
    have hc2 : cond2 (grid0.coords t) := (hcond2 t).mpr h4
    have hstep : ∀ p : PSt F c, stepAt m c t p = ⟨stepLast p.scr, put2 (grid0.coords t) hc2 hbK p.k p.scr.kn, put2 (grid0.coords t) hc2 hbV p.v p.scr.vn⟩ := fun p => by
      unfold stepAt; rw [dif_neg hc1, dif_pos hc2]
    rw [hstep]
    rw [show (dats m 0 c).leavesExact 9 t = owns (c : Thread nD τ) (ms9 t) fullShare ((dats m 0 c).after 9 t) from by
      unfold Dat.leavesExact; rw [live9 t hc2], after9]
    unfold outAt
    have hz : t.val ≠ 0 := by omega
    rw [Phi_castSucc m c t, PhiX_pos m c _ _ hz]
    unfold PhiT scrOwn
    iintro ⟨⟨⟨HK, HV⟩, ⟨Hq0, Hq1⟩, ⟨HS0, HS1, HS2, HS3, HS4, HS5, HS6, HS7⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (stAt m c t.val (Nat.le_of_lt t.isLt)).scr _ _ W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [Hq0]; · iexact Hq0
    isplitl [Hq1]; · iexact Hq1
    isplitl [HK]; · iexact HK
    isplitl [HV]; · iexact HV
    isplitl [HW]; · iexact HW
    iintro ⟨H0, H1, H2, H3, H4, H5, H6, H7, H8, H9, HS0, HS1, HS2, HS3, HS4, HS5, HS6, HS7, Hq0, Hq1, HK, HV, ⟨%W', HW'⟩⟩
    isplitl [HK HV Hq0 Hq1 HS0 HS1 HS2 HS3 HS4 HS5 HS6 HS7 Hg]
    · isplitl [HK HV]
      · isplitl [HK]; · iexact HK
        iexact HV
      isplitl [Hq0 Hq1]
      · isplitl [Hq0]; · iexact Hq0
        iexact Hq1
      isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hg
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hc1 : cond1 (grid0.coords t) := (hcond1 t).mpr h4
    have hc2 : ¬cond2 (grid0.coords t) := fun h => h4 ((hcond2 t).mp h)
    rw [Dat.leavesExact_idle (dats m 0 c) 9 t (idle9 t hc2) (noFlush9 t hc2)]
    by_cases h0 : t.val % 5 = 0
    · -- the first tile of a batch
      have hc0 : cond0 (grid0.coords t) := (hcond0 t).mpr h0
      have hstep : ∀ p : PSt F c, stepAt m c t p = ⟨stepFirst (iblk m c 0 t) (iblk m c 1 t) (iblk m c 2 t) (iblk m c 3 t) (iblk m c 4 t) (iblk m c 5 t) (iblk m c 6 t) (iblk m c 7 t) (iblk m c 8 t),
          put1 (grid0.coords t) hc1 hbK p.k (stepFirst (iblk m c 0 t) (iblk m c 1 t) (iblk m c 2 t) (iblk m c 3 t) (iblk m c 4 t) (iblk m c 5 t) (iblk m c 6 t) (iblk m c 7 t) (iblk m c 8 t)).kp,
          put1 (grid0.coords t) hc1 hbV p.v (stepFirst (iblk m c 0 t) (iblk m c 1 t) (iblk m c 2 t) (iblk m c 3 t) (iblk m c 4 t) (iblk m c 5 t) (iblk m c 6 t) (iblk m c 7 t) (iblk m c 8 t)).vp⟩ := fun p => by
        unfold stepAt; rw [dif_pos hc1, dif_pos hc0]
      rw [hstep]
      unfold PhiT scrOwn
      by_cases hz : t.val = 0
      · rw [Phi_castSucc m c t, PhiX_zero m c _ _ hz, Ends_eq, stAt_zero_k m c _ _ hz, stAt_zero_v m c _ _ hz]
        unfold scrAny
        iintro ⟨⟨⟨HK, HV⟩, ⟨Hq0, Hq1⟩, ⟨HS0, HS1, HS2, HS3, HS4, HS5, HS6, HS7⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) _ _ _ W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [Hq0]; · iexact Hq0
        isplitl [Hq1]; · iexact Hq1
        isplitl [HK]; · iexact HK
        isplitl [HV]; · iexact HV
        isplitl [HW]; · iexact HW
        iintro ⟨H0, H1, H2, H3, H4, H5, H6, H7, H8, H9, HS0, HS1, HS2, HS3, HS4, HS5, HS6, HS7, Hq0, Hq1, HK, HV, ⟨%W', HW'⟩⟩
        isplitl [HK HV Hq0 Hq1 HS0 HS1 HS2 HS3 HS4 HS5 HS6 HS7 Hg]
        · isplitl [HK HV]
          · isplitl [HK]; · iexact HK
            iexact HV
          isplitl [Hq0 Hq1]
          · isplitl [Hq0]; · iexact Hq0
            iexact Hq1
          isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HS7
          iexact Hg
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
      · rw [Phi_castSucc m c t, PhiX_pos m c _ _ hz]
        unfold PhiT scrOwn
        iintro ⟨⟨⟨HK, HV⟩, ⟨Hq0, Hq1⟩, ⟨HS0, HS1, HS2, HS3, HS4, HS5, HS6, HS7⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) _ _ _ W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HS5]; · iexists _; iexact HS5
        isplitl [HS6]; · iexists _; iexact HS6
        isplitl [HS7]; · iexists _; iexact HS7
        isplitl [Hq0]; · iexact Hq0
        isplitl [Hq1]; · iexact Hq1
        isplitl [HK]; · iexact HK
        isplitl [HV]; · iexact HV
        isplitl [HW]; · iexact HW
        iintro ⟨H0, H1, H2, H3, H4, H5, H6, H7, H8, H9, HS0, HS1, HS2, HS3, HS4, HS5, HS6, HS7, Hq0, Hq1, HK, HV, ⟨%W', HW'⟩⟩
        isplitl [HK HV Hq0 Hq1 HS0 HS1 HS2 HS3 HS4 HS5 HS6 HS7 Hg]
        · isplitl [HK HV]
          · isplitl [HK]; · iexact HK
            iexact HV
          isplitl [Hq0 Hq1]
          · isplitl [Hq0]; · iexact Hq0
            iexact Hq1
          isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HS7
          iexact Hg
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
    · -- a later cache tile
      have hc0 : ¬cond0 (grid0.coords t) := fun h => h0 ((hcond0 t).mp h)
      have hstep : ∀ p : PSt F c, stepAt m c t p = ⟨stepTile p.scr (iblk m c 7 t) (iblk m c 8 t),
          put1 (grid0.coords t) hc1 hbK p.k (stepTile p.scr (iblk m c 7 t) (iblk m c 8 t)).kp,
          put1 (grid0.coords t) hc1 hbV p.v (stepTile p.scr (iblk m c 7 t) (iblk m c 8 t)).vp⟩ := fun p => by
        unfold stepAt; rw [dif_pos hc1, dif_neg hc0]
      rw [hstep]
      have hz : t.val ≠ 0 := by omega
      rw [Phi_castSucc m c t, PhiX_pos m c _ _ hz]
      unfold PhiT scrOwn
      iintro ⟨⟨⟨HK, HV⟩, ⟨Hq0, Hq1⟩, ⟨HS0, HS1, HS2, HS3, HS4, HS5, HS6, HS7⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) _ (stAt m c t.val (Nat.le_of_lt t.isLt)).scr _ _ W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [Hq0]; · iexact Hq0
      isplitl [Hq1]; · iexact Hq1
      isplitl [HK]; · iexact HK
      isplitl [HV]; · iexact HV
      isplitl [HW]; · iexact HW
      iintro ⟨H0, H1, H2, H3, H4, H5, H6, H7, H8, H9, HS0, HS1, HS2, HS3, HS4, HS5, HS6, HS7, Hq0, Hq1, HK, HV, ⟨%W', HW'⟩⟩
      isplitl [HK HV Hq0 Hq1 HS0 HS1 HS2 HS3 HS4 HS5 HS6 HS7 Hg]
      · isplitl [HK HV]
        · isplitl [HK]; · iexact HK
          iexact HV
        isplitl [Hq0 Hq1]
        · isplitl [Hq0]; · iexact Hq0
          iexact Hq1
        isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        iexact Hg
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The ends -/

/-- The final contents of the unscoped buffers: the two result arrays at what the last point left, the others as found. -/
def Yfin (c : Dev nD) : (b : Ref sig .tc) → Buf (Elt F) ((c.tc : Thread nD τ).loc b) :=
  Function.update (Function.update (V m c) main_v3_1 (stAt m c cfg0.N le_rfl).k) main_v3_2 (stAt m c cfg0.N le_rfl).v

theorem Yfin_k (c : Dev nD) : Yfin m c main_v3_1 = (stAt m c cfg0.N le_rfl).k := by
  unfold Yfin; rw [Function.update_of_ne (by decide), Function.update_self]
theorem Yfin_v (c : Dev nD) : Yfin m c main_v3_2 = (stAt m c cfg0.N le_rfl).v := by
  unfold Yfin; rw [Function.update_self]

theorem hin (c : Dev nD) : Pipeline.Ends spec0 osem0 R0 c (V m c) ⊢ (dats m 0 c).Φ 0 := by
  rw [show (dats m 0 c).Φ 0 = PhiX m c 0 (Nat.zero_le _) from rfl, PhiX_zero m c 0 _ rfl]
  try exact Idealize.SL.BI.Entails.refl _

theorem hout (c : Dev nD) : (dats m 0 c).Φ (Fin.last cfg0.N) ⊢ Pipeline.Ends spec0 osem0 R0 c (Yfin m c) := by
  rw [show (dats m 0 c).Φ (Fin.last cfg0.N) = PhiX m c cfg0.N le_rfl from rfl,
    PhiX_pos m c _ _ (by rw [show cfg0.N = 160 from N_0]; omega), Ends_eq, Yfin_k, Yfin_v]
  unfold PhiT scrOwn scrAny
  iintro ⟨HKV, Hq, ⟨HS0, HS1, HS2, HS3, HS4, HS5, HS6, HS7⟩, Hg⟩
  isplitl [HKV]; · iexact HKV
  isplitl [Hq]; · iexact Hq
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7
  iexact Hg

/-! ## The run -/

set_option backward.isDefEq.respectTransparency.types false in
/-- Every weakly fair execution of @main terminates; at the end every window's array holds what the library computes
    from the proof data, the two result arrays hold their final contents, every other unscoped buffer is as found. -/
theorem run_main : θ_run defs (onTc (τ := τ) (main (F := F))) (s₀ m ρ) (Pipeline.RoutedPost cfgs (dats m) 0 R0 (V m) (Yfin m)) :=
  Pipeline.θ_run_frame_routed cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hmain m Variants.none) (hA := A_eq m)
    (R := R0) (hR := R0_sub) (Y := Yfin m) (hin := hin m) (hout := hout m)

end Cert.Kernel.FX

end
-- ==== Proof.FClaimK.lean ====
/-
  What the frame run gives: every argument array ends as it was launched; the output array ends at what the
  write-backs left, the two result arrays at what the last point left in them.
-/
import proofs.«147685_j44616120271538_2_alg».proof.Proof.FFrameK

noncomputable section

namespace Cert.Kernel.FX

open Cert.Kernel Cert.Kernel.Gen Cert.Kernel.KState
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The run with its results named: the output array, the two result arrays, and the nine arguments unchanged. -/
theorem run_values : θ_run defs (onTc (τ := τ) (main (F := F))) ⟨m, fun _ => 0, ρ⟩ (fun r => ∀ c : Dev nD,
      r.2.mem ((c.tc : Thread nD τ).loc main_v3_0) = (dats m 0 c).arrAt 9 cfg0.N
      ∧ r.2.mem ((c.tc : Thread nD τ).loc main_v3_1) = (stAt m c cfg0.N le_rfl).k
      ∧ r.2.mem ((c.tc : Thread nD τ).loc main_v3_2) = (stAt m c cfg0.N le_rfl).v
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1 9,
      ((h c).2.1 main_v3_1 (by unfold R0; decide)).trans (Yfin_k m c),
      ((h c).2.1 main_v3_2 (by unfold R0; decide)).trans (Yfin_v m c),
      ((h c).1 0).trans (((dats m 0 c).arrAt_in 0 rfl _).trans ((A_eq m c 0).trans (V_main_arg0 m c))),
      ((h c).1 7).trans (((dats m 0 c).arrAt_in 7 rfl _).trans ((A_eq m c 7).trans (V_main_arg1 m c))),
      ((h c).1 8).trans (((dats m 0 c).arrAt_in 8 rfl _).trans ((A_eq m c 8).trans (V_main_arg2 m c))),
      ((h c).1 1).trans (((dats m 0 c).arrAt_in 1 rfl _).trans ((A_eq m c 1).trans (V_main_arg3 m c))),
      ((h c).2.2 main_arg4 (Finset.mem_sdiff.mpr ⟨Pipeline.mem_restRefs_of main_arg4 (by decide) (by decide), by unfold R0; decide⟩)).trans (V_main_arg4 m c),
      ((h c).1 3).trans (((dats m 0 c).arrAt_in 3 rfl _).trans ((A_eq m c 3).trans (V_main_arg5 m c))),
      ((h c).2.2 main_arg6 (Finset.mem_sdiff.mpr ⟨Pipeline.mem_restRefs_of main_arg6 (by decide) (by decide), by unfold R0; decide⟩)).trans (V_main_arg6 m c),
      ((h c).1 5).trans (((dats m 0 c).arrAt_in 5 rfl _).trans ((A_eq m c 5).trans (V_main_arg7 m c))),
      ((h c).2.2 main_arg8 (Finset.mem_sdiff.mpr ⟨Pipeline.mem_restRefs_of main_arg8 (by decide) (by decide), by unfold R0; decide⟩)).trans (V_main_arg8 m c)⟩) (run_main m ρ)

/-- The frame: the run ends and every argument array is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2.2.2) (run_values m ρ)

end Cert.Kernel.FX

end
-- ==== Proof.FBase.lean ====
/-
  What the three runs of the kernel body and the frame share: the algebra the body's own transfers need, @main up
  to the region, each input window's block found in its staging buffer, the three conditions of the body decided
  over the grid (point t is tile t mod 5 of batch t / 5), where the output window is idle, and the names of the
  staging buffers, the scratch buffers, the two result arrays left in HBM and the kernel's two DMA semaphores.
-/
import proofs.«147685_j44616120271538_2_alg».proof.Proof.Gen.KernelIdeal.Frame
import proofs.«147685_j44616120271538_2_alg».proof.Proof.Gen.KernelIdeal.Skeleton
import Idealize.ShloMosaic.Lib.Pipeline.FrameBody
import Idealize.ShloMosaic.Lib.Pipeline.Routed
import Idealize.ShloMosaic.Lib.Ring
import Idealize.ShloMosaic.Lib.Tactic

set_option maxRecDepth 16384

noncomputable section

namespace Cert.KernelIdeal.FX

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## @main up to the region -/

/-- @main up to the region: the three reshapes of the biases, then the region. -/
theorem hmain (𝒱₀ : Variants) : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

/-! ## Each input window's block -/

/-- Input window 0's current staging buffer holds its block at every point, fetched there or not. -/
theorem before0_of {c : Dev nD} (dat : Dat τ (Elt F) Unit ℕ (Pipeline.UC sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (Pipeline.UC sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (Pipeline.UC sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (Pipeline.UC sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (Pipeline.UC sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (Pipeline.UC sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (Pipeline.UC sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before7_of {c : Dev nD} (dat : Dat τ (Elt F) Unit ℕ (Pipeline.UC sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before8_of {c : Dev nD} (dat : Dat τ (Elt F) Unit ℕ (Pipeline.UC sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions, over the grid -/

/-- The first tile of a batch (tile 0). -/
abbrev cond0 (i : grid0.Coords) : Prop := (Scalar.cmpi .ne (Scalar.extui (Scalar.cmpi .eq (BitVec.ofNat 32 (i 1).val) 0#32)) 0#32) = 1#1
/-- A cache tile (tiles 0 to 3). -/
abbrev cond1 (i : grid0.Coords) : Prop := k0_cond2 i = 1#1
/-- The tile of the new rows (tile 4). -/
abbrev cond2 (i : grid0.Coords) : Prop := k0_cond3 i = 1#1

theorem hcond0 : ∀ t : Fin cfg0.N, cond0 (grid0.coords t) ↔ t.val % 5 = 0 :=
  (by decide +kernel : ∀ t : Fin grid0.N, cond0 (grid0.coords t) ↔ t.val % 5 = 0)
theorem hcond1 : ∀ t : Fin cfg0.N, cond1 (grid0.coords t) ↔ ¬ t.val % 5 = 4 :=
  (by decide +kernel : ∀ t : Fin grid0.N, cond1 (grid0.coords t) ↔ ¬ t.val % 5 = 4)
theorem hcond2 : ∀ t : Fin cfg0.N, cond2 (grid0.coords t) ↔ t.val % 5 = 4 :=
  (by decide +kernel : ∀ t : Fin grid0.N, cond2 (grid0.coords t) ↔ t.val % 5 = 4)

/-- The grid coordinates of point t: batch t / 5, tile t mod 5. -/
theorem coords0 : ∀ t : Fin cfg0.N, (grid0.coords t 0).val = t.val / 5 :=
  (by decide +kernel : ∀ t : Fin grid0.N, (grid0.coords t 0).val = t.val / 5)
theorem coords1 : ∀ t : Fin cfg0.N, (grid0.coords t 1).val = t.val % 5 :=
  (by decide +kernel : ∀ t : Fin grid0.N, (grid0.coords t 1).val = t.val % 5)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel

theorem idle9 : ∀ t : Fin cfg0.N, ¬cond2 (grid0.coords t) → cfg0.idle 9 (grid0.coords t) = true := by decide +kernel
theorem noFlush9 : ∀ t : Fin cfg0.N, ¬cond2 (grid0.coords t) → (cfg0.win 9).flush t = false := by decide +kernel
theorem live9 : ∀ t : Fin cfg0.N, cond2 (grid0.coords t) → cfg0.idle 9 (grid0.coords t) = false := by decide +kernel

/-! ## Names -/

abbrev ms0 (t : Fin cfg0.N) : Memref sig .tc .vmem S1x16x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x16x1024 .f32 := win0_9.stage (cfg0.slots t 9)
abbrev hs9 (t : Fin cfg0.N) : (ms9 t).IsWhole := hstage0_9 ((cfg0.slots t 9).cast nbuf0_9)

abbrev sc0 : Memref sig .tc .vmem S16x1024 .f32 := Memref.whole cc0_scratch0
abbrev sc1 : Memref sig .tc .vmem S1x16x1024 .f32 := Memref.whole cc0_scratch1
abbrev sc2 : Memref sig .tc .vmem S1x16x1024 .f32 := Memref.whole cc0_scratch2
abbrev sc3 : Memref sig .tc .vmem S16x1 .f32 := Memref.whole cc0_scratch3
abbrev sc4 : Memref sig .tc .vmem S16x1 .f32 := Memref.whole cc0_scratch4
abbrev sc5 : Memref sig .tc .vmem S16x1024 .f32 := Memref.whole cc0_scratch5
abbrev sc6 : Memref sig .tc .vmem S1x1024x1024 .f32 := Memref.whole cc0_scratch6
abbrev sc7 : Memref sig .tc .vmem S1x1024x1024 .f32 := Memref.whole cc0_scratch7

/-- The keys' result array, left in HBM. -/
abbrev hbK : Memref sig .tc .hbm S32x4112x1024 .f32 := Memref.whole main_v3_1
/-- The values' result array, left in HBM. -/
abbrev hbV : Memref sig .tc .hbm S32x4112x1024 .f32 := Memref.whole main_v3_2
abbrev HbBuf (c : Dev nD) {sp : Space} {S : Shape} {e : EltTy} (M : Memref sig .tc sp S e) : Type := Buf (Elt F) (M.view.loc (c : Thread nD τ))
/-- A buffer held whole at f. -/
abbrev hbPt (c : Dev nD) {sp : Space} {S : Shape} {e : EltTy} (M : Memref sig .tc sp S e) (f : HbBuf (F := F) c M) : sProp 𝕄 :=
  M.view.loc (c : Thread nD τ) ↦{fullShare} f

/-- The kernel's own two DMA semaphores. -/
abbrev osem0 : Fin 2 → SemLoc sig := fun j => (![SemLoc.dma 14, SemLoc.dma 15] : Fin 2 → SemLoc sig) j
theorem ownSemFacts0 : Pipeline.OwnSemFacts spec0 osem0 := by decide
theorem ownSems0_eq (c : Dev nD) :
    (Pipeline.ownSems0 (Ix := Unit) (Name := ℕ) (U := Pipeline.UC sig nD τ) (Lvl := ℕ) (Val := Elt F) (τ := τ) osem0 c : sProp 𝕄)
      = iprop(semVal ((c : Thread nD τ), SemLoc.dma 14) 0 ∗ semVal ((c : Thread nD τ), SemLoc.dma 15) 0) := by
  rw [Pipeline.ownSems0_eq_of_list c osem0 [0, 1] (by decide) (by decide)]; rfl

/-- The two result arrays the body writes by its own transfers. -/
def R0 : Finset (Ref sig .tc) := {main_v3_1, main_v3_2}
theorem R0_sub : R0 ⊆ Pipeline.restRefs sig spec0 := by decide
theorem routed0_eq (c : Dev nD) (W : (b : Ref sig .tc) → Buf (Elt F) ((c.tc : Thread nD τ).loc b)) :
    (Pipeline.routed R0 c W : sProp 𝕄) = iprop(hbPt c hbK (W main_v3_1) ∗ hbPt c hbV (W main_v3_2)) := by
  unfold Pipeline.routed
  rw [BI.bigSep_eq_bigSepL_of_eq [main_v3_1, main_v3_2] (by decide) (by decide)]; rfl

end Cert.KernelIdeal.FX

end
-- ==== Proof.KState.lean ====
/-
  What the kernel keeps in its scratch buffers from one grid point to the next, as a record, and the three ways
  a grid point changes it.

  Grid point (b, kv) of batch b works on key/value tile kv.  At kv = 0 the three projections of the batch's x rows
  are computed and kept (the query rows q, the new key rows kn, the new value rows vn) and the running maximum m,
  the running denominator l and the running numerator acc are reset to −∞, 0, 0.  At kv < 4 the tile of 1024 cache
  rows is folded into (m, l, acc) by the online-softmax step and copied to the pass-through buffers kp, vp.  At
  kv = 4 the 16 new rows are folded in the same way and the output block acc / l is formed.
-/
import proofs.«147685_j44616120271538_2_alg».proof.Proof.Gen.KernelIdeal.Skeleton

noncomputable section

namespace Cert.KernelIdeal.KState

open Idealize.ShloMosaic Cert.KernelIdeal Cert.KernelIdeal.Gen

variable {F : FTy → Type} [FloatOps F]

/-- The scratch buffers' contents: q, kn, vn, m, l, acc and the two pass-through tiles. -/
structure Scr (F : FTy → Type) where
  /-- the projected query rows (scratch 0) -/
  q : FVec F S16x1024 .f32
  /-- the projected new key rows (scratch 1) -/
  kn : FVec F S1x16x1024 .f32
  /-- the projected new value rows (scratch 2) -/
  vn : FVec F S1x16x1024 .f32
  /-- the running maximum (scratch 3) -/
  m : FVec F S16x1 .f32
  /-- the running denominator (scratch 4) -/
  l : FVec F S16x1 .f32
  /-- the running numerator (scratch 5) -/
  acc : FVec F S16x1024 .f32
  /-- the key tile on its way out (scratch 6) -/
  kp : FVec F S1x1024x1024 .f32
  /-- the value tile on its way out (scratch 7) -/
  vp : FVec F S1x1024x1024 .f32

/-- The first tile's reset: the three projections of the x block, and (m, l, acc) = (−∞, 0, 0). -/
def stepInit (st : Scr F) (xb : FVec F S1x16x1024 .f32) (wq : FVec F S1024x1024 .f32) (bq : FVec F S1x1024 .f32)
    (wk : FVec F S1024x1024 .f32) (bk : FVec F S1x1024 .f32) (wv : FVec F S1024x1024 .f32) (bv : FVec F S1x1024 .f32) : Scr F :=
  { st with q := k0_pay12 xb wq bq, kn := k0_pay13 xb wk bk, vn := k0_pay14 xb wv bv,
            m := k0_pay1, l := k0_pay2, acc := k0_pay3 }

/-- A cache tile folded in: scores against the tile's key rows, the new maximum, the rescaled sums. -/
def stepTile (st : Scr F) (kc vc : FVec F S1x1024x1024 .f32) : Scr F :=
  { st with
    kp := k0_pay15 kc, vp := k0_pay16 vc,
    l := k0_pay5 (k0_pay18 kc st.q) (k0_pay20 kc st.q st.m) (k0_pay21 kc st.q st.m) st.l,
    acc := k0_pay6 (k0_pay17 vc) (k0_pay18 kc st.q) (k0_pay20 kc st.q st.m) (k0_pay21 kc st.q st.m) st.acc,
    m := k0_pay7 (k0_pay19 kc st.q st.m) }

/-- The 16 new rows folded in. -/
def stepLast (st : Scr F) : Scr F :=
  { st with
    l := k0_pay26 st.kn st.q st.m st.l,
    acc := k0_pay8 (k0_pay27 st.kn st.vn st.q st.m st.acc),
    m := k0_pay9 (k0_pay23 st.kn st.q st.m) }

/-- The output block the last step forms: acc / l of the state it leaves. -/
def outBlock (st : Scr F) : FVec F S1x16x1024 .f32 := k0_pay10 (stepLast st).acc (stepLast st).l

end Cert.KernelIdeal.KState

end
-- ==== Proof.FSteps.lean ====
/-
  The slots of the two result arrays that the body's own transfers fill, and what a result array holds once a slot
  has been filled.  Tile kv < 4 of batch b fills rows 1024·kv … 1024·kv + 1023 of batch b; the tile of the new rows
  fills rows 4096 … 4111 of batch b.
-/
import proofs.«147685_j44616120271538_2_alg».proof.Proof.FBase
import proofs.«147685_j44616120271538_2_alg».proof.Proof.KState
import Idealize.ShloMosaic.Lib.Pipeline.Value

noncomputable section

namespace Cert.KernelIdeal.FX

open Cert.KernelIdeal Cert.KernelIdeal.Gen Cert.KernelIdeal.KState
open Idealize.ShloMosaic Idealize.ShloMosaic.TcCoe
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The slot of a cache tile in a result array. -/
abbrev slot1 (i : grid0.Coords) (h : cond1 i) (A : Memref sig .tc .hbm S32x4112x1024 .f32) : Memref sig .tc .hbm S1x1024x1024 .f32 :=
  A.slice (Rect.unit (s := S32x4112x1024) (k0_off1 i) S1x1024x1024.size (k0_off1_inb i h)) (fun _ => rfl)
/-- The slot of the new rows in a result array. -/
abbrev slot2 (i : grid0.Coords) (h : cond2 i) (A : Memref sig .tc .hbm S32x4112x1024 .f32) : Memref sig .tc .hbm S1x16x1024 .f32 :=
  A.slice (Rect.unit (s := S32x4112x1024) (k0_off2 i) S1x16x1024.size (k0_off2_inb i h)) (fun _ => rfl)

/-- A result array with a cache tile's slot filled by P. -/
def put1 (i : grid0.Coords) (h : cond1 i) (A : Memref sig .tc .hbm S32x4112x1024 .f32)
    (f : BufTy.Contents (Elt F) (slot1 i h A).view.ty) (P : Vec F S1x1024x1024 .f32) : BufTy.Contents (Elt F) (slot1 i h A).view.ty :=
  View.write (Elt F) (slot1 i h A).view f P Finset.univ
/-- A result array with the new rows' slot filled by P. -/
def put2 (i : grid0.Coords) (h : cond2 i) (A : Memref sig .tc .hbm S32x4112x1024 .f32)
    (f : BufTy.Contents (Elt F) (slot2 i h A).view.ty) (P : Vec F S1x16x1024 .f32) : BufTy.Contents (Elt F) (slot2 i h A).view.ty :=
  View.write (Elt F) (slot2 i h A).view f P Finset.univ

/-- What the scratch buffers hold after the first tile of a batch: the projections, and the first tile folded into
    (−∞, 0, 0).  (Whatever the buffers held before: every one of them is overwritten.) -/
def stepFirst (xb : FVec F S1x16x1024 .f32) (wq : FVec F S1024x1024 .f32) (bq : FVec F S1x1024 .f32)
    (wk : FVec F S1024x1024 .f32) (bk : FVec F S1x1024 .f32) (wv : FVec F S1024x1024 .f32) (bv : FVec F S1x1024 .f32)
    (kc vc : FVec F S1x1024x1024 .f32) : Scr F :=
  stepTile (stepInit ⟨k0_pay3, k0_pay13 xb wk bk, k0_pay13 xb wk bk, k0_pay1, k0_pay1, k0_pay3, kc, vc⟩ xb wq bq wk bk wv bv) kc vc

/-- The first tile's state does not depend on what the scratch buffers held before. -/
theorem stepFirst_eq (j : Scr F) (xb : FVec F S1x16x1024 .f32) (wq : FVec F S1024x1024 .f32) (bq : FVec F S1x1024 .f32)
    (wk : FVec F S1024x1024 .f32) (bk : FVec F S1x1024 .f32) (wv : FVec F S1024x1024 .f32) (bv : FVec F S1x1024 .f32)
    (kc vc : FVec F S1x1024x1024 .f32) :
    stepFirst xb wq bq wk bk wv bv kc vc = stepTile (stepInit j xb wq bq wk bk wv bv) kc vc := rfl

/-- Reading back what one store through the whole buffer left gives its payload, whatever the buffer held. -/
theorem read_writes_unit {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩), View.canon_unit_zero h]

/-- The same when that store came last, after others. -/
theorem read_writes_cons_unit {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

end Cert.KernelIdeal.FX

end
-- ==== Proof.FStates.lean ====
/-
  What the body's invariant tracks from point to point: the scratch buffers' contents and the two result arrays'
  contents, by recursion on the grid point.  Point t is tile t mod 5 of batch t / 5: tile 0 resets and folds the first
  cache tile in, tiles 1 to 3 fold the next cache tiles in, each of them filling its slot of the two result arrays;
  tile 4 folds the new rows in and fills the arrays' tail slot.
-/
import proofs.«147685_j44616120271538_2_alg».proof.Proof.FSteps

noncomputable section

namespace Cert.KernelIdeal.FX

open Cert.KernelIdeal Cert.KernelIdeal.Gen Cert.KernelIdeal.KState
open Idealize.ShloMosaic Idealize.ShloMosaic.TcCoe
open Idealize.SL Idealize.SL.Sem

variable {F : FTy → Type} [FloatOps F]

variable (m : (ℓ : Loc nD τ sig) → Buf (Elt F) ℓ)

/-- The scratch buffers' and the two result arrays' contents between two points. -/
structure PSt (F : FTy → Type) (c : Dev nD) where
  /-- the scratch buffers -/
  scr : Scr F
  /-- the keys' result array -/
  k : HbBuf (F := F) c hbK
  /-- the values' result array -/
  v : HbBuf (F := F) c hbV

/-- Scratch contents nobody reads (before the first point every scratch buffer holds anything). -/
def noScr : Scr F :=
  ⟨fun _ => Scalar.ofBits .f32 0#32, fun _ => Scalar.ofBits .f32 0#32, fun _ => Scalar.ofBits .f32 0#32, fun _ => Scalar.ofBits .f32 0#32,
   fun _ => Scalar.ofBits .f32 0#32, fun _ => Scalar.ofBits .f32 0#32, fun _ => Scalar.ofBits .f32 0#32, fun _ => Scalar.ofBits .f32 0#32⟩

/-- One point's effect. -/
def stepAt (c : Dev nD) (t : Fin cfg0.N) (p : PSt F c) : PSt F c :=
  if h1 : cond1 (grid0.coords t) then
    if h0 : cond0 (grid0.coords t) then
      ⟨stepFirst (iblk m c 0 t) (iblk m c 1 t) (iblk m c 2 t) (iblk m c 3 t) (iblk m c 4 t) (iblk m c 5 t) (iblk m c 6 t) (iblk m c 7 t) (iblk m c 8 t),
       put1 (grid0.coords t) h1 hbK p.k (stepFirst (iblk m c 0 t) (iblk m c 1 t) (iblk m c 2 t) (iblk m c 3 t) (iblk m c 4 t) (iblk m c 5 t) (iblk m c 6 t) (iblk m c 7 t) (iblk m c 8 t)).kp,
       put1 (grid0.coords t) h1 hbV p.v (stepFirst (iblk m c 0 t) (iblk m c 1 t) (iblk m c 2 t) (iblk m c 3 t) (iblk m c 4 t) (iblk m c 5 t) (iblk m c 6 t) (iblk m c 7 t) (iblk m c 8 t)).vp⟩
    else
      ⟨stepTile p.scr (iblk m c 7 t) (iblk m c 8 t),
       put1 (grid0.coords t) h1 hbK p.k (stepTile p.scr (iblk m c 7 t) (iblk m c 8 t)).kp,
       put1 (grid0.coords t) h1 hbV p.v (stepTile p.scr (iblk m c 7 t) (iblk m c 8 t)).vp⟩
  else if h2 : cond2 (grid0.coords t) then
    ⟨stepLast p.scr, put2 (grid0.coords t) h2 hbK p.k p.scr.kn, put2 (grid0.coords t) h2 hbV p.v p.scr.vn⟩
  else p

/-- The contents before point n (after point n - 1): the result arrays start as the region finds them. -/
def stAt (c : Dev nD) : (n : ℕ) → n ≤ cfg0.N → PSt F c
  | 0, _ => ⟨noScr, V m c main_v3_1, V m c main_v3_2⟩
  | n + 1, h => stepAt m c ⟨n, h⟩ (stAt c n (Nat.le_of_lt h))

theorem stAt_succ (c : Dev nD) (n : ℕ) (h : n + 1 ≤ cfg0.N) :
    stAt m c (n + 1) h = stepAt m c ⟨n, h⟩ (stAt m c n (Nat.le_of_lt h)) := rfl

/-- The output block the last tile of a batch forms (at the other points the window is idle: nothing is claimed). -/
def outAt (c : Dev nD) (t : Fin cfg0.N) : Vec F S1x16x1024 .f32 :=
  outBlock (stAt m c t.val (Nat.le_of_lt t.isLt)).scr

end Cert.KernelIdeal.FX

end
-- ==== Proof.FRunA.lean ====
/-
  The kernel body run at the first tile of a batch (tile 0).
-/
import proofs.«147685_j44616120271538_2_alg».proof.Proof.FSteps

set_option maxRecDepth 16384

noncomputable section

namespace Cert.KernelIdeal.FX

open Cert.KernelIdeal Cert.KernelIdeal.Gen Cert.KernelIdeal.KState
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-- A buffer held at contents equal to others is held at those. -/
theorem pt_of_eqA {ℓ : Loc nD τ sig} {f g : Buf (Elt F) ℓ} (h : f = g) : ((ℓ ↦{fullShare} f : sProp 𝕄)) ⊢ (ℓ ↦{fullShare} g) := by
  subst h; exact .rfl

set_option maxHeartbeats 4000000 in
/-- The body at the first tile of a batch: the three projections are stored, (m, l, acc) reset, and the tile folded in and passed through to the result arrays.  The inputs' staging buffers are handed back as they were; the scratch buffers end at the next
    state; each result array ends with this tile's slot filled; both semaphores are back at zero. -/
theorem runA (c : Dev nD) (i : grid0.Coords) (arg2 : Memref sig .tc .vmem S1x16x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1x1024x1024 .f32) (harg10 : arg10.IsWhole) (arg11 : Memref sig .tc .vmem S1x16x1024 .f32) (harg11 : arg11.IsWhole) (arg14 : Memref sig .tc .vmem S16x1024 .f32) (harg14 : arg14.IsWhole) (arg15 : Memref sig .tc .vmem S1x16x1024 .f32) (harg15 : arg15.IsWhole) (arg16 : Memref sig .tc .vmem S1x16x1024 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1024 .f32) (harg19 : arg19.IsWhole) (arg20 : Memref sig .tc .vmem S1x1024x1024 .f32) (harg20 : arg20.IsWhole) (arg21 : Memref sig .tc .vmem S1x1024x1024 .f32) (harg21 : arg21.IsWhole)
    (hc0 : cond0 i) (hc1 : cond1 i) (hc2 : ¬cond2 i) (x0 : Vec F S1x16x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (x7 : Vec F S1x1024x1024 .f32) (x8 : Vec F S1x1024x1024 .f32) (xi9 : Vec F S1x16x1024 .f32)
    (fK : HbBuf (F := F) c hbK) (fV : HbBuf (F := F) c hbV) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ owns (c : Thread nD τ) arg11 fullShare xi9
        ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ semVal ((c : Thread nD τ), SemLoc.dma 14) 0 ∗ semVal ((c : Thread nD τ), SemLoc.dma 15) 0
        ∗ hbPt c hbK fK ∗ hbPt c hbV fV ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare xi9
            ∗ owns (c : Thread nD τ) arg14 fullShare (stepFirst x0 x1 x2 x3 x4 x5 x6 x7 x8).q ∗ owns (c : Thread nD τ) arg15 fullShare (stepFirst x0 x1 x2 x3 x4 x5 x6 x7 x8).kn ∗ owns (c : Thread nD τ) arg16 fullShare (stepFirst x0 x1 x2 x3 x4 x5 x6 x7 x8).vn ∗ owns (c : Thread nD τ) arg17 fullShare (stepFirst x0 x1 x2 x3 x4 x5 x6 x7 x8).m ∗ owns (c : Thread nD τ) arg18 fullShare (stepFirst x0 x1 x2 x3 x4 x5 x6 x7 x8).l ∗ owns (c : Thread nD τ) arg19 fullShare (stepFirst x0 x1 x2 x3 x4 x5 x6 x7 x8).acc ∗ owns (c : Thread nD τ) arg20 fullShare (stepFirst x0 x1 x2 x3 x4 x5 x6 x7 x8).kp ∗ owns (c : Thread nD τ) arg21 fullShare (stepFirst x0 x1 x2 x3 x4 x5 x6 x7 x8).vp
            ∗ semVal ((c : Thread nD τ), SemLoc.dma 14) 0 ∗ semVal ((c : Thread nD τ), SemLoc.dma 15) 0
            ∗ hbPt c hbK (put1 i hc1 hbK fK (stepFirst x0 x1 x2 x3 x4 x5 x6 x7 x8).kp) ∗ hbPt c hbV (put1 i hc1 hbV fV (stepFirst x0 x1 x2 x3 x4 x5 x6 x7 x8).vp) ∗ (∃ W', owes (c : Thread nD τ) 0 W')) -∗ K ⟨⟩))
      ⊢ wp frame (wpE (defs₀ (F := F)) Variants.none c none) Set.univ (cc0_kernel i arg2 harg2 arg3 harg3 arg4 harg4 arg5 harg5 arg6 harg6 arg7 harg7 arg8 harg8 arg9 harg9 arg10 harg10 arg11 harg11 (Memref.whole main_v3_1) (Memref.isWhole_whole _) (Memref.whole main_v3_2) (Memref.isWhole_whole _) arg14 harg14 arg15 harg15 arg16 harg16 arg17 harg17 arg18 harg18 arg19 harg19 arg20 harg20 arg21 harg21 cc0_scratch8 cc0_scratch9) K := by
  simp only [cc0_kernel_eq_skeleton, k0_part1_eq_skeleton, k0_part2_eq_skeleton, k0_part3_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%e0, %g0, -, HS0⟩, ⟨%e1, %g1, -, HS1⟩, ⟨%e2, %g2, -, HS2⟩, ⟨%e3, %g3, -, HS3⟩, ⟨%e4, %g4, -, HS4⟩, ⟨%e5, %g5, -, HS5⟩, ⟨%e6, %g6, -, HS6⟩, ⟨%e7, %g7, -, HS7⟩, Hq0, Hq1, HK, HV, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  obtain rfl := harg11.eq_unread hf9
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _; isplitr; swap; · iexact HS0
    ipureintro
    sl_unfold_words
    refine (read_writes_unit _ _ hz2 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS1]
  · iexists _; isplitr; swap; · iexact HS1
    ipureintro
    sl_unfold_words
    refine (read_writes_unit _ _ hz3 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS2]
  · iexists _; isplitr; swap; · iexact HS2
    ipureintro
    sl_unfold_words
    refine (read_writes_unit _ _ hz3 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS3]
  · iexists _; isplitr; swap; · iexact HS3
    ipureintro
    sl_unfold_words
    refine (read_writes_cons_unit _ _ hz2 _ _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS4]
  · iexists _; isplitr; swap; · iexact HS4
    ipureintro
    sl_unfold_words
    refine (read_writes_cons_unit _ _ hz2 _ _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS5]
  · iexists _; isplitr; swap; · iexact HS5
    ipureintro
    sl_unfold_words
    refine (read_writes_cons_unit _ _ hz2 _ _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS6]
  · iexists _; isplitr; swap; · iexact HS6
    ipureintro
    sl_unfold_words
    refine (read_writes_unit _ _ hz3 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS7]
  · iexists _; isplitr; swap; · iexact HS7
    ipureintro
    sl_unfold_words
    refine (read_writes_unit _ _ hz3 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [Hq0]; · iexact Hq0
  isplitl [Hq1]; · iexact Hq1
  isplitl [HK]
  · ihave HK' := (pt_of_eqA (g := put1 i hc1 hbK fK (stepFirst x0 x1 x2 x3 x4 x5 x6 x7 x8).kp) (by
      sl_unfold_words
      simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
      rfl)) $$ HK
    iexact HK'
  isplitl [HV]
  · ihave HV' := (pt_of_eqA (g := put1 i hc1 hbV fV (stepFirst x0 x1 x2 x3 x4 x5 x6 x7 x8).vp) (by
      sl_unfold_words
      simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
      rfl)) $$ HV
    iexact HV'
  iexists _; iexact HW

end Cert.KernelIdeal.FX

end
-- ==== Proof.FRunB.lean ====
/-
  The kernel body run at a later cache tile of a batch (tiles 1, 2, 3).
-/
import proofs.«147685_j44616120271538_2_alg».proof.Proof.FSteps

set_option maxRecDepth 16384

noncomputable section

namespace Cert.KernelIdeal.FX

open Cert.KernelIdeal Cert.KernelIdeal.Gen Cert.KernelIdeal.KState
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-- A buffer held at contents equal to others is held at those. -/
theorem pt_of_eqB {ℓ : Loc nD τ sig} {f g : Buf (Elt F) ℓ} (h : f = g) : ((ℓ ↦{fullShare} f : sProp 𝕄)) ⊢ (ℓ ↦{fullShare} g) := by
  subst h; exact .rfl

set_option maxHeartbeats 4000000 in
/-- The body at a later cache tile: folded into (m, l, acc) and passed through to the result arrays.  The inputs' staging buffers are handed back as they were; the scratch buffers end at the next
    state; each result array ends with this tile's slot filled; both semaphores are back at zero. -/
theorem runB (c : Dev nD) (i : grid0.Coords) (arg2 : Memref sig .tc .vmem S1x16x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1x1024x1024 .f32) (harg10 : arg10.IsWhole) (arg11 : Memref sig .tc .vmem S1x16x1024 .f32) (harg11 : arg11.IsWhole) (arg14 : Memref sig .tc .vmem S16x1024 .f32) (harg14 : arg14.IsWhole) (arg15 : Memref sig .tc .vmem S1x16x1024 .f32) (harg15 : arg15.IsWhole) (arg16 : Memref sig .tc .vmem S1x16x1024 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1024 .f32) (harg19 : arg19.IsWhole) (arg20 : Memref sig .tc .vmem S1x1024x1024 .f32) (harg20 : arg20.IsWhole) (arg21 : Memref sig .tc .vmem S1x1024x1024 .f32) (harg21 : arg21.IsWhole)
    (hc0 : ¬cond0 i) (hc1 : cond1 i) (hc2 : ¬cond2 i) (x0 : Vec F S1x16x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (x7 : Vec F S1x1024x1024 .f32) (x8 : Vec F S1x1024x1024 .f32) (xi9 : Vec F S1x16x1024 .f32) (st : Scr F)
    (fK : HbBuf (F := F) c hbK) (fV : HbBuf (F := F) c hbV) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ owns (c : Thread nD τ) arg11 fullShare xi9
        ∗ owns (c : Thread nD τ) arg14 fullShare st.q ∗ owns (c : Thread nD τ) arg15 fullShare st.kn ∗ owns (c : Thread nD τ) arg16 fullShare st.vn ∗ owns (c : Thread nD τ) arg17 fullShare st.m ∗ owns (c : Thread nD τ) arg18 fullShare st.l ∗ owns (c : Thread nD τ) arg19 fullShare st.acc ∗ owns (c : Thread nD τ) arg20 fullShare st.kp ∗ owns (c : Thread nD τ) arg21 fullShare st.vp
        ∗ semVal ((c : Thread nD τ), SemLoc.dma 14) 0 ∗ semVal ((c : Thread nD τ), SemLoc.dma 15) 0
        ∗ hbPt c hbK fK ∗ hbPt c hbV fV ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare xi9
            ∗ owns (c : Thread nD τ) arg14 fullShare (stepTile st x7 x8).q ∗ owns (c : Thread nD τ) arg15 fullShare (stepTile st x7 x8).kn ∗ owns (c : Thread nD τ) arg16 fullShare (stepTile st x7 x8).vn ∗ owns (c : Thread nD τ) arg17 fullShare (stepTile st x7 x8).m ∗ owns (c : Thread nD τ) arg18 fullShare (stepTile st x7 x8).l ∗ owns (c : Thread nD τ) arg19 fullShare (stepTile st x7 x8).acc ∗ owns (c : Thread nD τ) arg20 fullShare (stepTile st x7 x8).kp ∗ owns (c : Thread nD τ) arg21 fullShare (stepTile st x7 x8).vp
            ∗ semVal ((c : Thread nD τ), SemLoc.dma 14) 0 ∗ semVal ((c : Thread nD τ), SemLoc.dma 15) 0
            ∗ hbPt c hbK (put1 i hc1 hbK fK (stepTile st x7 x8).kp) ∗ hbPt c hbV (put1 i hc1 hbV fV (stepTile st x7 x8).vp) ∗ (∃ W', owes (c : Thread nD τ) 0 W')) -∗ K ⟨⟩))
      ⊢ wp frame (wpE (defs₀ (F := F)) Variants.none c none) Set.univ (cc0_kernel i arg2 harg2 arg3 harg3 arg4 harg4 arg5 harg5 arg6 harg6 arg7 harg7 arg8 harg8 arg9 harg9 arg10 harg10 arg11 harg11 (Memref.whole main_v3_1) (Memref.isWhole_whole _) (Memref.whole main_v3_2) (Memref.isWhole_whole _) arg14 harg14 arg15 harg15 arg16 harg16 arg17 harg17 arg18 harg18 arg19 harg19 arg20 harg20 arg21 harg21 cc0_scratch8 cc0_scratch9) K := by
  simp only [cc0_kernel_eq_skeleton, k0_part1_eq_skeleton, k0_part2_eq_skeleton, k0_part3_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%g0, %hg0, HS0⟩, ⟨%g1, %hg1, HS1⟩, ⟨%g2, %hg2, HS2⟩, ⟨%g3, %hg3, HS3⟩, ⟨%g4, %hg4, HS4⟩, ⟨%g5, %hg5, HS5⟩, ⟨%g6, %hg6, HS6⟩, ⟨%g7, %hg7, HS7⟩, Hq0, Hq1, HK, HV, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  obtain rfl := harg11.eq_unread hf9
  obtain rfl := harg14.eq_unread hg0; obtain rfl := harg15.eq_unread hg1; obtain rfl := harg16.eq_unread hg2; obtain rfl := harg17.eq_unread hg3; obtain rfl := harg18.eq_unread hg4; obtain rfl := harg19.eq_unread hg5; obtain rfl := harg20.eq_unread hg6; obtain rfl := harg21.eq_unread hg7
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _; isplitr; · ipureintro; exact harg14.read_unread _
    iexact HS0
  isplitl [HS1]
  · iexists _; isplitr; · ipureintro; exact harg15.read_unread _
    iexact HS1
  isplitl [HS2]
  · iexists _; isplitr; · ipureintro; exact harg16.read_unread _
    iexact HS2
  isplitl [HS3]
  · iexists _; isplitr; swap; · iexact HS3
    ipureintro
    sl_unfold_words
    refine (read_writes_unit _ _ hz2 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS4]
  · iexists _; isplitr; swap; · iexact HS4
    ipureintro
    sl_unfold_words
    refine (read_writes_unit _ _ hz2 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS5]
  · iexists _; isplitr; swap; · iexact HS5
    ipureintro
    sl_unfold_words
    refine (read_writes_unit _ _ hz2 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS6]
  · iexists _; isplitr; swap; · iexact HS6
    ipureintro
    sl_unfold_words
    refine (read_writes_unit _ _ hz3 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS7]
  · iexists _; isplitr; swap; · iexact HS7
    ipureintro
    sl_unfold_words
    refine (read_writes_unit _ _ hz3 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [Hq0]; · iexact Hq0
  isplitl [Hq1]; · iexact Hq1
  isplitl [HK]
  · ihave HK' := (pt_of_eqB (g := put1 i hc1 hbK fK (stepTile st x7 x8).kp) (by
      sl_unfold_words
      simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
      rfl)) $$ HK
    iexact HK'
  isplitl [HV]
  · ihave HV' := (pt_of_eqB (g := put1 i hc1 hbV fV (stepTile st x7 x8).vp) (by
      sl_unfold_words
      simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
      rfl)) $$ HV
    iexact HV'
  iexists _; iexact HW

end Cert.KernelIdeal.FX

end
-- ==== Proof.FRunC.lean ====
/-
  The kernel body run at the tile of the 16 new rows (tile 4).
-/
import proofs.«147685_j44616120271538_2_alg».proof.Proof.FSteps

set_option maxRecDepth 16384

noncomputable section

namespace Cert.KernelIdeal.FX

open Cert.KernelIdeal Cert.KernelIdeal.Gen Cert.KernelIdeal.KState
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-- A buffer held at contents equal to others is held at those. -/
theorem pt_of_eqC {ℓ : Loc nD τ sig} {f g : Buf (Elt F) ℓ} (h : f = g) : ((ℓ ↦{fullShare} f : sProp 𝕄)) ⊢ (ℓ ↦{fullShare} g) := by
  subst h; exact .rfl

set_option maxHeartbeats 4000000 in
/-- The body at the tile of the 16 new rows: copied out to the tail of the result arrays while it is folded in (each of the two row blocks is lent to its copy at half its share and read at the other half), and the output block formed.  The inputs' staging buffers are handed back as they were; the scratch buffers end at the next
    state; each result array ends with this tile's slot filled; both semaphores are back at zero. -/
theorem runC (c : Dev nD) (i : grid0.Coords) (arg2 : Memref sig .tc .vmem S1x16x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1x1024x1024 .f32) (harg10 : arg10.IsWhole) (arg11 : Memref sig .tc .vmem S1x16x1024 .f32) (harg11 : arg11.IsWhole) (arg14 : Memref sig .tc .vmem S16x1024 .f32) (harg14 : arg14.IsWhole) (arg15 : Memref sig .tc .vmem S1x16x1024 .f32) (harg15 : arg15.IsWhole) (arg16 : Memref sig .tc .vmem S1x16x1024 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1024 .f32) (harg19 : arg19.IsWhole) (arg20 : Memref sig .tc .vmem S1x1024x1024 .f32) (harg20 : arg20.IsWhole) (arg21 : Memref sig .tc .vmem S1x1024x1024 .f32) (harg21 : arg21.IsWhole)
    (hc0 : ¬cond0 i) (hc1 : ¬cond1 i) (hc2 : cond2 i) (x0 : Vec F S1x16x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (x7 : Vec F S1x1024x1024 .f32) (x8 : Vec F S1x1024x1024 .f32) (st : Scr F)
    (fK : HbBuf (F := F) c hbK) (fV : HbBuf (F := F) c hbV) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ (∃ d, owns (c : Thread nD τ) arg11 fullShare d)
        ∗ owns (c : Thread nD τ) arg14 fullShare st.q ∗ owns (c : Thread nD τ) arg15 fullShare st.kn ∗ owns (c : Thread nD τ) arg16 fullShare st.vn ∗ owns (c : Thread nD τ) arg17 fullShare st.m ∗ owns (c : Thread nD τ) arg18 fullShare st.l ∗ owns (c : Thread nD τ) arg19 fullShare st.acc ∗ owns (c : Thread nD τ) arg20 fullShare st.kp ∗ owns (c : Thread nD τ) arg21 fullShare st.vp
        ∗ semVal ((c : Thread nD τ), SemLoc.dma 14) 0 ∗ semVal ((c : Thread nD τ), SemLoc.dma 15) 0
        ∗ hbPt c hbK fK ∗ hbPt c hbV fV ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare (outBlock st)
            ∗ owns (c : Thread nD τ) arg14 fullShare (stepLast st).q ∗ owns (c : Thread nD τ) arg15 fullShare (stepLast st).kn ∗ owns (c : Thread nD τ) arg16 fullShare (stepLast st).vn ∗ owns (c : Thread nD τ) arg17 fullShare (stepLast st).m ∗ owns (c : Thread nD τ) arg18 fullShare (stepLast st).l ∗ owns (c : Thread nD τ) arg19 fullShare (stepLast st).acc ∗ owns (c : Thread nD τ) arg20 fullShare (stepLast st).kp ∗ owns (c : Thread nD τ) arg21 fullShare (stepLast st).vp
            ∗ semVal ((c : Thread nD τ), SemLoc.dma 14) 0 ∗ semVal ((c : Thread nD τ), SemLoc.dma 15) 0
            ∗ hbPt c hbK (put2 i hc2 hbK fK st.kn) ∗ hbPt c hbV (put2 i hc2 hbV fV st.vn) ∗ (∃ W', owes (c : Thread nD τ) 0 W')) -∗ K ⟨⟩))
      ⊢ wp frame (wpE (defs₀ (F := F)) Variants.none c none) Set.univ (cc0_kernel i arg2 harg2 arg3 harg3 arg4 harg4 arg5 harg5 arg6 harg6 arg7 harg7 arg8 harg8 arg9 harg9 arg10 harg10 arg11 harg11 (Memref.whole main_v3_1) (Memref.isWhole_whole _) (Memref.whole main_v3_2) (Memref.isWhole_whole _) arg14 harg14 arg15 harg15 arg16 harg16 arg17 harg17 arg18 harg18 arg19 harg19 arg20 harg20 arg21 harg21 cc0_scratch8 cc0_scratch9) K := by
  simp only [cc0_kernel_eq_skeleton, k0_part1_eq_skeleton, k0_part2_eq_skeleton, k0_part3_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩,
    ⟨%g0, %hg0, HS0⟩, ⟨%g1, %hg1, HS1⟩, ⟨%g2, %hg2, HS2⟩, ⟨%g3, %hg3, HS3⟩, ⟨%g4, %hg4, HS4⟩, ⟨%g5, %hg5, HS5⟩, ⟨%g6, %hg6, HS6⟩, ⟨%g7, %hg7, HS7⟩, Hq0, Hq1, HK, HV, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  obtain rfl := harg14.eq_unread hg0; obtain rfl := harg15.eq_unread hg1; obtain rfl := harg16.eq_unread hg2; obtain rfl := harg17.eq_unread hg3; obtain rfl := harg18.eq_unread hg4; obtain rfl := harg19.eq_unread hg5; obtain rfl := harg20.eq_unread hg6; obtain rfl := harg21.eq_unread hg7
  ihave HS1' := (pointsTo_share (PosShare.mem_left_op_right fullShare)).1 $$ HS1
  icases HS1' with ⟨HS1l, HS1r⟩
  ihave HS2' := (pointsTo_share (PosShare.mem_left_op_right fullShare)).1 $$ HS2
  icases HS2' with ⟨HS2l, HS2r⟩
  sl_exec (disch := first | exact hc0 | exact hc1 | exact hc2)
  sl_step
  ihave HS1 := (pointsTo_share (PosShare.mem_left_op_right fullShare)).2 $$ [HS1l HS1r]
  · isplitl [HS1l] <;> iassumption
  ihave HS2 := (pointsTo_share (PosShare.mem_left_op_right fullShare)).2 $$ [HS2l HS2r]
  · isplitl [HS2l] <;> iassumption
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    sl_unfold_words
    refine (read_writes_unit _ _ hz3 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS0]
  · iexists _; isplitr; · ipureintro; exact harg14.read_unread _
    iexact HS0
  isplitl [HS1]
  · iexists _; isplitr; · ipureintro; exact harg15.read_unread _
    iexact HS1
  isplitl [HS2]
  · iexists _; isplitr; · ipureintro; exact harg16.read_unread _
    iexact HS2
  isplitl [HS3]
  · iexists _; isplitr; swap; · iexact HS3
    ipureintro
    sl_unfold_words
    refine (read_writes_unit _ _ hz2 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS4]
  · iexists _; isplitr; swap; · iexact HS4
    ipureintro
    sl_unfold_words
    refine (read_writes_unit _ _ hz2 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS5]
  · iexists _; isplitr; swap; · iexact HS5
    ipureintro
    sl_unfold_words
    refine (read_writes_unit _ _ hz2 _ _).trans ?_
    simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
    rfl
  isplitl [HS6]
  · iexists _; isplitr; · ipureintro; exact harg20.read_unread _
    iexact HS6
  isplitl [HS7]
  · iexists _; isplitr; · ipureintro; exact harg21.read_unread _
    iexact HS7
  isplitl [Hq0]; · iexact Hq0
  isplitl [Hq1]; · iexact Hq1
  isplitl [HK]
  · ihave HK' := (pt_of_eqC (g := put2 i hc2 hbK fK st.kn) (by
      sl_unfold_words
      simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
      rfl)) $$ HK
    iexact HK'
  isplitl [HV]
  · ihave HV' := (pt_of_eqC (g := put2 i hc2 hbV fV st.vn) (by
      sl_unfold_words
      simp only [ReadAs.apply_same, View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread, harg19.read_unread, harg20.read_unread, harg21.read_unread, View.ld_unit_zero (S := S1x16x1024) hz3, View.ld_unit_zero (S := S1024x1024) hz2, View.ld_unit_zero (S := S1x1024) hz2, View.ld_unit_zero (S := S1x1024x1024) hz3, View.ld_unit_zero (S := S16x1024) hz2, View.ld_unit_zero (S := S16x1) hz2, View.readCov_unit_zero (S := S16x1024) _ hz2, View.readCov_unit_zero (S := S16x1) _ hz2, View.readCov_unit_zero (S := S1x16x1024) _ hz3, View.readCov_unit_zero (S := S1x1024x1024) _ hz3, read_writes_unit (S := S1x1024x1024) _ _ hz3]
      rfl)) $$ HV
    iexact HV'
  iexists _; iexact HW

end Cert.KernelIdeal.FX

end
-- ==== Proof.FFrame.lean ====
/-
  The frame run of the kernel: the proof data (what each window's staging buffer holds after the body at each point;
  the invariant: the scratch buffers, the two result arrays and the kernel's two semaphores at what the points so far
  left), the body obligation at every point from the three runs, and the run to the end, where every input array
  is unchanged, the output array holds what the points wrote back and the two result arrays hold their final contents.
-/
import proofs.«147685_j44616120271538_2_alg».proof.Proof.FStates
import proofs.«147685_j44616120271538_2_alg».proof.Proof.FRunA
import proofs.«147685_j44616120271538_2_alg».proof.Proof.FRunB
import proofs.«147685_j44616120271538_2_alg».proof.Proof.FRunC

set_option maxRecDepth 16384

noncomputable section

namespace Cert.KernelIdeal.FX

open Cert.KernelIdeal Cert.KernelIdeal.Gen Cert.KernelIdeal.KState
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## The invariant -/

/-- The scratch buffers at the contents s. -/
def scrOwn (c : Dev nD) (s : Scr F) : sProp 𝕄 :=
  iprop(owns (c : Thread nD τ) sc0 fullShare s.q ∗ owns (c : Thread nD τ) sc1 fullShare s.kn ∗ owns (c : Thread nD τ) sc2 fullShare s.vn ∗ owns (c : Thread nD τ) sc3 fullShare s.m ∗ owns (c : Thread nD τ) sc4 fullShare s.l ∗ owns (c : Thread nD τ) sc5 fullShare s.acc ∗ owns (c : Thread nD τ) sc6 fullShare s.kp ∗ owns (c : Thread nD τ) sc7 fullShare s.vp)

/-- The scratch buffers at anything. -/
def scrAny (c : Dev nD) : sProp 𝕄 :=
  iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d))

/-- Between two points: the result arrays and the scratch buffers at the tracked contents, the semaphores at zero. -/
def PhiT (c : Dev nD) (p : PSt F c) : sProp 𝕄 :=
  iprop((hbPt c hbK p.k ∗ hbPt c hbV p.v) ∗ (semVal ((c : Thread nD τ), SemLoc.dma 14) 0 ∗ semVal ((c : Thread nD τ), SemLoc.dma 15) 0)
    ∗ scrOwn c p.scr ∗ ∃ r, prngReg c r)

/-- What the launch hands the region and takes back, conjunct by conjunct. -/
theorem Ends_eq (c : Dev nD) (W : (b : Ref sig .tc) → Buf (Elt F) ((c.tc : Thread nD τ).loc b)) :
    (Pipeline.Ends spec0 osem0 R0 c W : sProp 𝕄)
      = iprop((hbPt c hbK (W main_v3_1) ∗ hbPt c hbV (W main_v3_2)) ∗ (semVal ((c : Thread nD τ), SemLoc.dma 14) 0 ∗ semVal ((c : Thread nD τ), SemLoc.dma 15) 0)
          ∗ scrAny c ∗ ∃ r, prngReg c r) := by
  unfold Pipeline.Ends scrAny
  rw [routed0_eq, ownSems0_eq, scopedRest0_eq]; simp only [sc0, sc1, sc2, sc3, sc4, sc5, sc6, sc7, owns_whole]; try rfl

/-- The invariant before point n: before the first point what the launch hands over, afterwards the tracked contents. -/
def PhiX (c : Dev nD) : (n : ℕ) → n ≤ cfg0.N → sProp 𝕄
  | 0, _ => Pipeline.Ends spec0 osem0 R0 c (V m c)
  | n + 1, h => PhiT c (stAt m c (n + 1) h)

theorem PhiX_zero (c : Dev nD) (n : ℕ) (h : n ≤ cfg0.N) (hz : n = 0) : PhiX m c n h = Pipeline.Ends spec0 osem0 R0 c (V m c) := by
  subst hz; rfl
theorem PhiX_succ (c : Dev nD) (n : ℕ) (h : n + 1 ≤ cfg0.N) : PhiX m c (n + 1) h = PhiT c (stAt m c (n + 1) h) := rfl
theorem PhiX_pos (c : Dev nD) (n : ℕ) (h : n ≤ cfg0.N) (hz : n ≠ 0) : PhiX m c n h = PhiT c (stAt m c n h) := by
  cases n with
  | zero => exact absurd rfl hz
  | succ n => rfl

/-- The contents after point t are one step from those before it. -/
theorem stAt_next (c : Dev nD) (t : Fin cfg0.N) :
    stAt m c (t.val + 1) t.isLt = stepAt m c t (stAt m c t.val (Nat.le_of_lt t.isLt)) := rfl

/-- Before the first point the result arrays are as the region finds them. -/
theorem stAt_zero_k (c : Dev nD) (n : ℕ) (h : n ≤ cfg0.N) (hz : n = 0) : (stAt m c n h).k = V m c main_v3_1 := by
  subst hz; rfl
theorem stAt_zero_v (c : Dev nD) (n : ℕ) (h : n ≤ cfg0.N) (hz : n = 0) : (stAt m c n h).v = V m c main_v3_2 := by
  subst hz; rfl

/-! ## The proof data -/

/-- The proof data on core c. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiX m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiX m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 16000000 in
/-- The body at any point: which of the three runs applies is decided by t mod 5; the invariant hands the run the scratch
    buffers (at anything before the first tile of a batch, which overwrites them all), the result arrays and the
    semaphores, and takes them back at the next tracked contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = PhiX m c (t.val + 1) t.isLt from rfl, PhiX_succ, stAt_next]
  unfold Dat.owesAt Pipeline.owesWithin
  rw [show (dats m 0 c).owed t.castSucc = 0 from rfl, show (dats m 0 c).owed t.succ = 0 from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  have hN : t.val < 160 := lt_of_lt_of_eq t.isLt (show cfg0.N = 160 from N_0)
  by_cases h4 : t.val % 5 = 4
  · -- the tile of the new rows
    have hc0 : ¬cond0 (grid0.coords t) := fun h => by have := (hcond0 t).mp h; omega
    have hc1 : ¬cond1 (grid0.coords t) := fun h => (hcond1 t).mp h h4
    have hc2 : cond2 (grid0.coords t) := (hcond2 t).mpr h4
    have hstep : ∀ p : PSt F c, stepAt m c t p = ⟨stepLast p.scr, put2 (grid0.coords t) hc2 hbK p.k p.scr.kn, put2 (grid0.coords t) hc2 hbV p.v p.scr.vn⟩ := fun p => by
      unfold stepAt; rw [dif_neg hc1, dif_pos hc2]
    rw [hstep]
    rw [show (dats m 0 c).leavesExact 9 t = owns (c : Thread nD τ) (ms9 t) fullShare ((dats m 0 c).after 9 t) from by
      unfold Dat.leavesExact; rw [live9 t hc2], after9]
    unfold outAt
    have hz : t.val ≠ 0 := by omega
    rw [Phi_castSucc m c t, PhiX_pos m c _ _ hz]
    unfold PhiT scrOwn
    iintro ⟨⟨⟨HK, HV⟩, ⟨Hq0, Hq1⟩, ⟨HS0, HS1, HS2, HS3, HS4, HS5, HS6, HS7⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (stAt m c t.val (Nat.le_of_lt t.isLt)).scr _ _ W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [Hq0]; · iexact Hq0
    isplitl [Hq1]; · iexact Hq1
    isplitl [HK]; · iexact HK
    isplitl [HV]; · iexact HV
    isplitl [HW]; · iexact HW
    iintro ⟨H0, H1, H2, H3, H4, H5, H6, H7, H8, H9, HS0, HS1, HS2, HS3, HS4, HS5, HS6, HS7, Hq0, Hq1, HK, HV, ⟨%W', HW'⟩⟩
    isplitl [HK HV Hq0 Hq1 HS0 HS1 HS2 HS3 HS4 HS5 HS6 HS7 Hg]
    · isplitl [HK HV]
      · isplitl [HK]; · iexact HK
        iexact HV
      isplitl [Hq0 Hq1]
      · isplitl [Hq0]; · iexact Hq0
        iexact Hq1
      isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hg
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hc1 : cond1 (grid0.coords t) := (hcond1 t).mpr h4
    have hc2 : ¬cond2 (grid0.coords t) := fun h => h4 ((hcond2 t).mp h)
    rw [Dat.leavesExact_idle (dats m 0 c) 9 t (idle9 t hc2) (noFlush9 t hc2)]
    by_cases h0 : t.val % 5 = 0
    · -- the first tile of a batch
      have hc0 : cond0 (grid0.coords t) := (hcond0 t).mpr h0
      have hstep : ∀ p : PSt F c, stepAt m c t p = ⟨stepFirst (iblk m c 0 t) (iblk m c 1 t) (iblk m c 2 t) (iblk m c 3 t) (iblk m c 4 t) (iblk m c 5 t) (iblk m c 6 t) (iblk m c 7 t) (iblk m c 8 t),
          put1 (grid0.coords t) hc1 hbK p.k (stepFirst (iblk m c 0 t) (iblk m c 1 t) (iblk m c 2 t) (iblk m c 3 t) (iblk m c 4 t) (iblk m c 5 t) (iblk m c 6 t) (iblk m c 7 t) (iblk m c 8 t)).kp,
          put1 (grid0.coords t) hc1 hbV p.v (stepFirst (iblk m c 0 t) (iblk m c 1 t) (iblk m c 2 t) (iblk m c 3 t) (iblk m c 4 t) (iblk m c 5 t) (iblk m c 6 t) (iblk m c 7 t) (iblk m c 8 t)).vp⟩ := fun p => by
        unfold stepAt; rw [dif_pos hc1, dif_pos hc0]
      rw [hstep]
      unfold PhiT scrOwn
      by_cases hz : t.val = 0
      · rw [Phi_castSucc m c t, PhiX_zero m c _ _ hz, Ends_eq, stAt_zero_k m c _ _ hz, stAt_zero_v m c _ _ hz]
        unfold scrAny
        iintro ⟨⟨⟨HK, HV⟩, ⟨Hq0, Hq1⟩, ⟨HS0, HS1, HS2, HS3, HS4, HS5, HS6, HS7⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) _ _ _ W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [Hq0]; · iexact Hq0
        isplitl [Hq1]; · iexact Hq1
        isplitl [HK]; · iexact HK
        isplitl [HV]; · iexact HV
        isplitl [HW]; · iexact HW
        iintro ⟨H0, H1, H2, H3, H4, H5, H6, H7, H8, H9, HS0, HS1, HS2, HS3, HS4, HS5, HS6, HS7, Hq0, Hq1, HK, HV, ⟨%W', HW'⟩⟩
        isplitl [HK HV Hq0 Hq1 HS0 HS1 HS2 HS3 HS4 HS5 HS6 HS7 Hg]
        · isplitl [HK HV]
          · isplitl [HK]; · iexact HK
            iexact HV
          isplitl [Hq0 Hq1]
          · isplitl [Hq0]; · iexact Hq0
            iexact Hq1
          isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HS7
          iexact Hg
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
      · rw [Phi_castSucc m c t, PhiX_pos m c _ _ hz]
        unfold PhiT scrOwn
        iintro ⟨⟨⟨HK, HV⟩, ⟨Hq0, Hq1⟩, ⟨HS0, HS1, HS2, HS3, HS4, HS5, HS6, HS7⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) _ _ _ W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HS5]; · iexists _; iexact HS5
        isplitl [HS6]; · iexists _; iexact HS6
        isplitl [HS7]; · iexists _; iexact HS7
        isplitl [Hq0]; · iexact Hq0
        isplitl [Hq1]; · iexact Hq1
        isplitl [HK]; · iexact HK
        isplitl [HV]; · iexact HV
        isplitl [HW]; · iexact HW
        iintro ⟨H0, H1, H2, H3, H4, H5, H6, H7, H8, H9, HS0, HS1, HS2, HS3, HS4, HS5, HS6, HS7, Hq0, Hq1, HK, HV, ⟨%W', HW'⟩⟩
        isplitl [HK HV Hq0 Hq1 HS0 HS1 HS2 HS3 HS4 HS5 HS6 HS7 Hg]
        · isplitl [HK HV]
          · isplitl [HK]; · iexact HK
            iexact HV
          isplitl [Hq0 Hq1]
          · isplitl [Hq0]; · iexact Hq0
            iexact Hq1
          isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HS7
          iexact Hg
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
    · -- a later cache tile
      have hc0 : ¬cond0 (grid0.coords t) := fun h => h0 ((hcond0 t).mp h)
      have hstep : ∀ p : PSt F c, stepAt m c t p = ⟨stepTile p.scr (iblk m c 7 t) (iblk m c 8 t),
          put1 (grid0.coords t) hc1 hbK p.k (stepTile p.scr (iblk m c 7 t) (iblk m c 8 t)).kp,
          put1 (grid0.coords t) hc1 hbV p.v (stepTile p.scr (iblk m c 7 t) (iblk m c 8 t)).vp⟩ := fun p => by
        unfold stepAt; rw [dif_pos hc1, dif_neg hc0]
      rw [hstep]
      have hz : t.val ≠ 0 := by omega
      rw [Phi_castSucc m c t, PhiX_pos m c _ _ hz]
      unfold PhiT scrOwn
      iintro ⟨⟨⟨HK, HV⟩, ⟨Hq0, Hq1⟩, ⟨HS0, HS1, HS2, HS3, HS4, HS5, HS6, HS7⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) _ (stAt m c t.val (Nat.le_of_lt t.isLt)).scr _ _ W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [Hq0]; · iexact Hq0
      isplitl [Hq1]; · iexact Hq1
      isplitl [HK]; · iexact HK
      isplitl [HV]; · iexact HV
      isplitl [HW]; · iexact HW
      iintro ⟨H0, H1, H2, H3, H4, H5, H6, H7, H8, H9, HS0, HS1, HS2, HS3, HS4, HS5, HS6, HS7, Hq0, Hq1, HK, HV, ⟨%W', HW'⟩⟩
      isplitl [HK HV Hq0 Hq1 HS0 HS1 HS2 HS3 HS4 HS5 HS6 HS7 Hg]
      · isplitl [HK HV]
        · isplitl [HK]; · iexact HK
          iexact HV
        isplitl [Hq0 Hq1]
        · isplitl [Hq0]; · iexact Hq0
          iexact Hq1
        isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        iexact Hg
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The ends -/

/-- The final contents of the unscoped buffers: the two result arrays at what the last point left, the others as found. -/
def Yfin (c : Dev nD) : (b : Ref sig .tc) → Buf (Elt F) ((c.tc : Thread nD τ).loc b) :=
  Function.update (Function.update (V m c) main_v3_1 (stAt m c cfg0.N le_rfl).k) main_v3_2 (stAt m c cfg0.N le_rfl).v

theorem Yfin_k (c : Dev nD) : Yfin m c main_v3_1 = (stAt m c cfg0.N le_rfl).k := by
  unfold Yfin; rw [Function.update_of_ne (by decide), Function.update_self]
theorem Yfin_v (c : Dev nD) : Yfin m c main_v3_2 = (stAt m c cfg0.N le_rfl).v := by
  unfold Yfin; rw [Function.update_self]

theorem hin (c : Dev nD) : Pipeline.Ends spec0 osem0 R0 c (V m c) ⊢ (dats m 0 c).Φ 0 := by
  rw [show (dats m 0 c).Φ 0 = PhiX m c 0 (Nat.zero_le _) from rfl, PhiX_zero m c 0 _ rfl]
  try exact Idealize.SL.BI.Entails.refl _

theorem hout (c : Dev nD) : (dats m 0 c).Φ (Fin.last cfg0.N) ⊢ Pipeline.Ends spec0 osem0 R0 c (Yfin m c) := by
  rw [show (dats m 0 c).Φ (Fin.last cfg0.N) = PhiX m c cfg0.N le_rfl from rfl,
    PhiX_pos m c _ _ (by rw [show cfg0.N = 160 from N_0]; omega), Ends_eq, Yfin_k, Yfin_v]
  unfold PhiT scrOwn scrAny
  iintro ⟨HKV, Hq, ⟨HS0, HS1, HS2, HS3, HS4, HS5, HS6, HS7⟩, Hg⟩
  isplitl [HKV]; · iexact HKV
  isplitl [Hq]; · iexact Hq
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7
  iexact Hg

/-! ## The run -/

set_option backward.isDefEq.respectTransparency.types false in
/-- Every weakly fair execution of @main terminates; at the end every window's array holds what the library computes
    from the proof data, the two result arrays hold their final contents, every other unscoped buffer is as found. -/
theorem run_main : θ_run defs (onTc (τ := τ) (main (F := F))) (s₀ m ρ) (Pipeline.RoutedPost cfgs (dats m) 0 R0 (V m) (Yfin m)) :=
  Pipeline.θ_run_frame_routed cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hmain m Variants.none) (hA := A_eq m)
    (R := R0) (hR := R0_sub) (Y := Yfin m) (hin := hin m) (hout := hout m)

end Cert.KernelIdeal.FX

end
-- ==== Proof.FClaim.lean ====
/-
  What the frame run gives: every argument array ends as it was launched; the output array ends at what the
  write-backs left, the two result arrays at what the last point left in them.
-/
import proofs.«147685_j44616120271538_2_alg».proof.Proof.FFrame

noncomputable section

namespace Cert.KernelIdeal.FX

open Cert.KernelIdeal Cert.KernelIdeal.Gen Cert.KernelIdeal.KState
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The run with its results named: the output array, the two result arrays, and the nine arguments unchanged. -/
theorem run_values : θ_run defs (onTc (τ := τ) (main (F := F))) ⟨m, fun _ => 0, ρ⟩ (fun r => ∀ c : Dev nD,
      r.2.mem ((c.tc : Thread nD τ).loc main_v3_0) = (dats m 0 c).arrAt 9 cfg0.N
      ∧ r.2.mem ((c.tc : Thread nD τ).loc main_v3_1) = (stAt m c cfg0.N le_rfl).k
      ∧ r.2.mem ((c.tc : Thread nD τ).loc main_v3_2) = (stAt m c cfg0.N le_rfl).v
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1 9,
      ((h c).2.1 main_v3_1 (by unfold R0; decide)).trans (Yfin_k m c),
      ((h c).2.1 main_v3_2 (by unfold R0; decide)).trans (Yfin_v m c),
      ((h c).1 0).trans (((dats m 0 c).arrAt_in 0 rfl _).trans ((A_eq m c 0).trans (V_main_arg0 m c))),
      ((h c).1 7).trans (((dats m 0 c).arrAt_in 7 rfl _).trans ((A_eq m c 7).trans (V_main_arg1 m c))),
      ((h c).1 8).trans (((dats m 0 c).arrAt_in 8 rfl _).trans ((A_eq m c 8).trans (V_main_arg2 m c))),
      ((h c).1 1).trans (((dats m 0 c).arrAt_in 1 rfl _).trans ((A_eq m c 1).trans (V_main_arg3 m c))),
      ((h c).2.2 main_arg4 (Finset.mem_sdiff.mpr ⟨Pipeline.mem_restRefs_of main_arg4 (by decide) (by decide), by unfold R0; decide⟩)).trans (V_main_arg4 m c),
      ((h c).1 3).trans (((dats m 0 c).arrAt_in 3 rfl _).trans ((A_eq m c 3).trans (V_main_arg5 m c))),
      ((h c).2.2 main_arg6 (Finset.mem_sdiff.mpr ⟨Pipeline.mem_restRefs_of main_arg6 (by decide) (by decide), by unfold R0; decide⟩)).trans (V_main_arg6 m c),
      ((h c).1 5).trans (((dats m 0 c).arrAt_in 5 rfl _).trans ((A_eq m c 5).trans (V_main_arg7 m c))),
      ((h c).2.2 main_arg8 (Finset.mem_sdiff.mpr ⟨Pipeline.mem_restRefs_of main_arg8 (by decide) (by decide), by unfold R0; decide⟩)).trans (V_main_arg8 m c)⟩) (run_main m ρ)

/-- The frame: the run ends and every argument array is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2.2.2) (run_values m ρ)

end Cert.KernelIdeal.FX

end
-- ==== Proof.LibRowSoftmax.lean ====
/-
  A row softmax on the extended reals, written the way a program computes it, and a row in which only a run of
  lanes carries scores.

  The maximum of a row is taken from −∞ (twice over: the reduction starts at −∞ and its result is joined with −∞
  once more); the softmax at lane j is exp (r j − max) over the sum, taken from 0, of exp (r k − max).  A row of N
  lanes in which only the lanes lo ≤ j < lo + n carry scores, every other lane holding −∞, is `mrow lo n r`.
-/
import Idealize.ShloMosaic.PureOps.Ideal.Laws

noncomputable section

namespace Cert.LibRowSoftmax

open Idealize.ShloMosaic

/-- A row's maximum, taken from −∞ and joined with −∞ once more. -/
def rowMax {n : ℕ} (r : Fin n → EReal) : EReal := max ⊥ ((Finset.univ : Finset (Fin n)).fold max ⊥ r)

/-- A row's softmax at lane j: exp (r j − max) over the sum, from 0, of exp (r k − max). -/
def rowSoft {n : ℕ} (r : Fin n → EReal) (j : Fin n) : EReal :=
  Ideal.div (Ideal.exp (r j - rowMax r)) (0 + ∑ k : Fin n, Ideal.exp (r k - rowMax r))

/-- A row of N lanes of which only the lanes lo ≤ j < lo + n carry scores; every other lane holds −∞. -/
def mrow {N : ℕ} (lo n : ℕ) (r : Fin N → EReal) (j : Fin N) : EReal :=
  if lo ≤ j.val ∧ j.val < lo + n then r j else ⊥

end Cert.LibRowSoftmax

end
-- ==== Proof.Spec.lean ====
/-
  The attention layer both programs compute, as plain functions of coordinates on the extended reals.

  A linear layer sends row (b, s) of x to  Σ_d x(b,s,d) · W(e,d) + bias(e).  The keys and the values are the cache's
  4096 rows followed by the 16 freshly projected rows.  The score of query row s against key row t is
  (Σ_d Q(b,s,d) · K(b,t,d)) · c, a row of 4112 scores goes through the softmax, and the output row is the
  weighted sum of the value rows.
-/
import Idealize.ShloMosaic.PureOps.Ideal
import Idealize.ShloMosaic.Lib.ValueIdx
import proofs.«147685_j44616120271538_2_alg».proof.Proof.LibRowSoftmax

noncomputable section

namespace Cert.Attn

open Idealize.ShloMosaic Idealize.ShloMosaic.ValueIdx Cert.LibRowSoftmax

/-- A three-axis array of extended reals. -/
abbrev A3 (a b c : ℕ) : Type := (⟨3, ![a, b, c]⟩ : Shape).Idx → EReal
/-- A matrix of extended reals. -/
abbrev A2 (a b : ℕ) : Type := (⟨2, ![a, b]⟩ : Shape).Idx → EReal
/-- A vector of extended reals. -/
abbrev A1 (a : ℕ) : Type := (⟨1, ![a]⟩ : Shape).Idx → EReal

/-- Coordinates of one batch's rows: batch, row, feature. -/
abbrev Rows (n : ℕ) : Type := Fin 32 → Fin n → Fin 1024 → EReal

/-- The linear layer: Σ_d x(b,s,d) · W(e,d) + bias(e). -/
def proj (x : A3 32 16 1024) (W : A2 1024 1024) (bias : A1 1024) : Rows 16 :=
  fun b s e => (∑ d : Fin 1024, x (ix3 b s d) * W (ix2 e d)) + bias (ix1 e)

/-- The cache's 4096 rows followed by the 16 new rows. -/
def cat (cache : A3 32 4096 1024) (new : Rows 16) : Rows 4112 :=
  fun b t d => if h : t.val < 4096 then cache (ix3 b ⟨t.val, h⟩ d) else new b ⟨t.val - 4096, by omega⟩ d

/-- The score of query row s against key row t, scaled by c. -/
def score (c : EReal) (Q : Rows 16) (K : Rows 4112) (b : Fin 32) (s : Fin 16) (t : Fin 4112) : EReal :=
  (∑ d : Fin 1024, Q b s d * K b t d) * c

/-- The attention output: the softmax of a row of scores against the value rows. -/
def attn (c : EReal) (Q : Rows 16) (K V : Rows 4112) : Rows 16 :=
  fun b s d => ∑ t : Fin 4112, rowSoft (score c Q K b s) t * V b t d

/-- The scale 1/√1024 = 1/32. -/
def scaleC : EReal := ((1 / 32 : ℝ) : EReal)

/-- The keys both programs return. -/
def keys (x : A3 32 16 1024) (cK : A3 32 4096 1024) (Wk : A2 1024 1024) (bk : A1 1024) : Rows 4112 :=
  cat cK (proj x Wk bk)

/-- The attention output both programs return. -/
def outRows (x : A3 32 16 1024) (cK cV : A3 32 4096 1024) (Wq : A2 1024 1024) (bq : A1 1024)
    (Wk : A2 1024 1024) (bk : A1 1024) (Wv : A2 1024 1024) (bv : A1 1024) : Rows 16 :=
  attn scaleC (proj x Wq bq) (keys x cK Wk bk) (keys x cV Wv bv)

/-- Rows as an array. -/
def arr {n : ℕ} (r : Rows n) : A3 32 n 1024 := fun i => r (i 0) (i 1) (i 2)

end Cert.Attn

end
-- ==== Proof.RefProj.lean ====
/-
  The reference's three linear layers are the specification's projection.

  Each layer is a dot product over the feature axis of the input row with a row of the weight matrix, plus the bias
  broadcast over batch and row: at (b, s, e) it is Σ_d x(b,s,d) · W(e,d) + bias(e).  The three layers are the same
  operations on different weights, so one statement serves all three.
-/
import proofs.«147685_j44616120271538_2_alg».proof.Proof.RefRead
import proofs.«147685_j44616120271538_2_alg».proof.Proof.Spec

noncomputable section

namespace Cert.Attn.Ref

open Cert.ReferenceIdeal Cert.ReferenceIdeal.Gen Cert.ReferenceIdeal.ReadP Idealize.ShloMosaic Idealize.ShloMosaic.ValueIdx Cert.Attn

/-- The input's index in the layer's dot product at (b, s, e), term d: (b, s, d). -/
theorem lidx_proj (b : Fin 32) (s : Fin 16) (e d : Fin 1024) : lidx_main_v0 (ix3 b s e) d = ix3 b s d := by
  funext a; match a with | ⟨0, _⟩ => rfl | ⟨1, _⟩ => rfl | ⟨2, _⟩ => rfl

/-- The weight's index in the layer's dot product at (b, s, e), term d: (e, d). -/
theorem ridx_proj (b : Fin 32) (s : Fin 16) (e d : Fin 1024) : ridx_main_v0 (ix3 b s e) d = ix2 e d := by
  funext a; match a with | ⟨0, _⟩ => rfl | ⟨1, _⟩ => rfl

/-- The bias's index under its two broadcasts at (b, s, e): e. -/
theorem idx_bias (b : Fin 32) (s : Fin 16) (e : Fin 1024) : idx_main_v1 (idx_main_v2 (ix3 b s e)) = ix1 e := by
  funext a; match a with | ⟨0, _⟩ => rfl

/-- The query layer is the projection. -/
theorem linear_q (x : (⟨S32x16x1024, .f32⟩ : BufTy).Contents (Elt Ideal)) (W : (⟨S1024x1024, .f32⟩ : BufTy).Contents (Elt Ideal))
    (bias : (⟨S1024, .f32⟩ : BufTy).Contents (Elt Ideal)) :
    val_main_v3 (F := Ideal) x W bias = arr (proj x W bias) := by
  funext i
  obtain ⟨b, s, e, rfl⟩ : ∃ (b : Fin 32) (s : Fin 16) (e : Fin 1024), i = ix3 b s e := ⟨i 0, i 1, i 2, eq_ix3 i⟩
  rw [val_main_v3_apply, val_main_v0_apply, val_main_v2_apply, val_main_v1_apply, idx_bias]
  simp only [lidx_proj, ridx_proj, Ideal.addf_def]
  rfl

/-- The key layer is the same operations. -/
theorem linear_k (x : (⟨S32x16x1024, .f32⟩ : BufTy).Contents (Elt Ideal)) (W : (⟨S1024x1024, .f32⟩ : BufTy).Contents (Elt Ideal))
    (bias : (⟨S1024, .f32⟩ : BufTy).Contents (Elt Ideal)) :
    val_main_v7 (F := Ideal) x W bias = arr (proj x W bias) :=
  (rfl : val_main_v7 (F := Ideal) x W bias = val_main_v3 (F := Ideal) x W bias).trans (linear_q x W bias)

/-- The value layer is the same operations. -/
theorem linear_v (x : (⟨S32x16x1024, .f32⟩ : BufTy).Contents (Elt Ideal)) (W : (⟨S1024x1024, .f32⟩ : BufTy).Contents (Elt Ideal))
    (bias : (⟨S1024, .f32⟩ : BufTy).Contents (Elt Ideal)) :
    val_main_v11 (F := Ideal) x W bias = arr (proj x W bias) :=
  (rfl : val_main_v11 (F := Ideal) x W bias = val_main_v3 (F := Ideal) x W bias).trans (linear_q x W bias)

end Cert.Attn.Ref

end
-- ==== Proof.RefKeys.lean ====
/-
  The reference's keys and values are the specification's: the cache's 4096 rows followed by the 16 projected rows.

  A concatenation of two arrays along the row axis reads, at row t, the first array at row t when t is below the
  first array's 4096 rows, and the second array at row t − 4096 otherwise; batch and feature coordinates pass through.
-/
import proofs.«147685_j44616120271538_2_alg».proof.Proof.RefProj

noncomputable section

namespace Cert.Attn.Ref

open Cert.ReferenceIdeal Cert.ReferenceIdeal.Gen Cert.ReferenceIdeal.ReadP Idealize.ShloMosaic Idealize.ShloMosaic.ValueIdx Cert.Attn

/-- A row of the joined array below the cache's 4096 rows is the cache's row. -/
theorem concat_left (cache : (⟨S32x4096x1024, .f32⟩ : BufTy).Contents (Elt Ideal)) (new : Rows 16)
    (b : Fin 32) (t : Fin 4112) (k : Fin 4096) (d : Fin 1024) (hk : k.val = t.val) :
    concatenate S32x4112x1024 1 [⟨S32x4096x1024, cache⟩, ⟨S32x16x1024, (arr new : (⟨S32x16x1024, .f32⟩ : BufTy).Contents (Elt Ideal))⟩]
        concatenates_S32x4096x1024_S32x16x1024_S32x4112x1024_d1 (ix3 b t d) = cache (ix3 b k d) :=
  concatenate_pair_apply_left (t := S32x4112x1024) (s₁ := S32x4096x1024) (s₂ := S32x16x1024) 1 cache (arr new)
    concatenates_S32x4096x1024_S32x16x1024_S32x4112x1024_d1 (ix3 b t d) rfl (ix3 b k d)
    (fun a => match a with | ⟨0, _⟩ => rfl | ⟨1, _⟩ => hk | ⟨2, _⟩ => rfl)

/-- A row of the joined array at or past the cache's 4096 rows is the new row 4096 rows earlier. -/
theorem concat_right (cache : (⟨S32x4096x1024, .f32⟩ : BufTy).Contents (Elt Ideal)) (new : Rows 16)
    (b : Fin 32) (t : Fin 4112) (k : Fin 16) (d : Fin 1024) (hk : k.val + 4096 = t.val) :
    concatenate S32x4112x1024 1 [⟨S32x4096x1024, cache⟩, ⟨S32x16x1024, (arr new : (⟨S32x16x1024, .f32⟩ : BufTy).Contents (Elt Ideal))⟩]
        concatenates_S32x4096x1024_S32x16x1024_S32x4112x1024_d1 (ix3 b t d) = new b k d :=
  (concatenate_pair_apply_right (t := S32x4112x1024) (s₁ := S32x4096x1024) (s₂ := S32x16x1024) 1 cache (arr new)
    concatenates_S32x4096x1024_S32x16x1024_S32x4112x1024_d1 (ix3 b t d) rfl rfl (ix3 b k d)
    (fun a => match a with
      | ⟨0, _⟩ => fun _ => rfl
      | ⟨1, _⟩ => fun ha => absurd rfl ha
      | ⟨2, _⟩ => fun _ => rfl) hk).trans rfl

/-- The cache followed by 16 new rows, joined along the row axis, is `cat`. -/
theorem concat_rows (cache : (⟨S32x4096x1024, .f32⟩ : BufTy).Contents (Elt Ideal)) (new : Rows 16) :
    concatenate S32x4112x1024 1 [⟨S32x4096x1024, cache⟩, ⟨S32x16x1024, (arr new : (⟨S32x16x1024, .f32⟩ : BufTy).Contents (Elt Ideal))⟩]
        concatenates_S32x4096x1024_S32x16x1024_S32x4112x1024_d1
      = (arr (cat cache new) : (⟨S32x4112x1024, .f32⟩ : BufTy).Contents (Elt Ideal)) := by
  funext j
  obtain ⟨b, t, d, rfl⟩ : ∃ (b : Fin 32) (t : Fin 4112) (d : Fin 1024), j = ix3 b t d := ⟨j 0, j 1, j 2, eq_ix3 j⟩
  show _ = cat cache new b t d
  unfold cat
  by_cases h : t.val < 4096
  · rw [dif_pos h]
    exact concat_left cache new b t ⟨t.val, h⟩ d rfl
  · rw [dif_neg h]
    exact concat_right cache new b t ⟨t.val - 4096, _⟩ d (Nat.sub_add_cancel (Nat.le_of_not_lt h))

/-- The reference's keys are the specification's. -/
theorem keys_k (x : (⟨S32x16x1024, .f32⟩ : BufTy).Contents (Elt Ideal)) (cK : (⟨S32x4096x1024, .f32⟩ : BufTy).Contents (Elt Ideal))
    (Wk : (⟨S1024x1024, .f32⟩ : BufTy).Contents (Elt Ideal)) (bk : (⟨S1024, .f32⟩ : BufTy).Contents (Elt Ideal)) :
    val_main_v12 (F := Ideal) x cK Wk bk = arr (keys x cK Wk bk) := by
  unfold val_main_v12
  rw [linear_k]
  exact concat_rows cK (proj x Wk bk)

/-- The reference's values are the specification's. -/
theorem keys_v (x : (⟨S32x16x1024, .f32⟩ : BufTy).Contents (Elt Ideal)) (cV : (⟨S32x4096x1024, .f32⟩ : BufTy).Contents (Elt Ideal))
    (Wv : (⟨S1024x1024, .f32⟩ : BufTy).Contents (Elt Ideal)) (bv : (⟨S1024, .f32⟩ : BufTy).Contents (Elt Ideal)) :
    val_main_v13 (F := Ideal) x cV Wv bv = arr (keys x cV Wv bv) := by
  unfold val_main_v13
  rw [linear_v]
  exact concat_rows cV (proj x Wv bv)

end Cert.Attn.Ref

end
-- ==== Proof.RefConst.lean ====
/-
  The float words the reference spells, as the extended reals they denote, and its one computed constant.

  1024.0 denotes the real 1024 and 1.0 the real 1, the word of −∞ denotes ⊥, and the reference's scale
  1.0 / sqrt(1024.0) is the real 1/32: the square root of 1024 = 32² is 32, and the quotient of 1 by the nonzero real 32
  is its inverse.
-/
import Idealize.ShloMosaic.PureOps.Ideal
import proofs.«147685_j44616120271538_2_alg».proof.Proof.Spec

noncomputable section

namespace Cert.Attn.Ref

open Idealize.ShloMosaic

/-- The word of 1024.0 denotes the real 1024. -/
theorem ofBits_1024 : Ideal.ofBits .f32 0x44800000#32 = ((1024 : ℝ) : EReal) := by
  simp [Ideal.ofBits, Ideal.ieee, -EReal.coe_mul]; norm_num

/-- The word of 1.0 denotes 1. -/
theorem ofBits_one : Ideal.ofBits .f32 0x3F800000#32 = ((1 : ℝ) : EReal) := by
  simp [Ideal.ofBits, Ideal.ieee, -EReal.coe_mul]; norm_num

/-- The word of −∞ denotes ⊥. -/
theorem ofBits_neg_inf : Ideal.ofBits .f32 0xFF800000#32 = (⊥ : EReal) := by
  simp [Ideal.ofBits, Ideal.ieee]

/-- The square root of 1024 is 32. -/
theorem sqrt_1024 : Real.sqrt 1024 = 32 := by
  rw [show (1024 : ℝ) = 32 ^ 2 by norm_num]
  exact Real.sqrt_sq (by norm_num)

/-- The reference's scale 1.0 / sqrt(1024.0) is the real 1/32. -/
theorem scale_eq :
    Ideal.div (Ideal.ofBits .f32 0x3F800000#32) (Ideal.sqrt (Ideal.ofBits .f32 0x44800000#32)) = Cert.Attn.scaleC := by
  rw [ofBits_one, ofBits_1024, Ideal.sqrt_coe, if_neg (by norm_num), sqrt_1024]
  unfold Ideal.div Cert.Attn.scaleC
  rw [if_neg (by exact_mod_cast (by norm_num : (32 : ℝ) ≠ 0)), ← EReal.coe_inv, ← EReal.coe_mul]
  norm_num

end Cert.Attn.Ref

end
-- ==== Proof.RefScore.lean ====
/-
  The reference's scaled scores are the specification's.

  The score of query row s against key row t is the dot product of the two rows over the feature axis, times the
  scale, which the reference computes as 1.0 / sqrt(1024.0) and broadcasts over the whole array: the real 1/32.
-/
import proofs.«147685_j44616120271538_2_alg».proof.Proof.RefKeys
import proofs.«147685_j44616120271538_2_alg».proof.Proof.RefConst

noncomputable section

namespace Cert.Attn.Ref

open Cert.ReferenceIdeal Cert.ReferenceIdeal.Gen Cert.ReferenceIdeal.ReadP Idealize.ShloMosaic Idealize.ShloMosaic.ValueIdx Cert.Attn Cert.LibRowSoftmax

/-- The query's index in the score's dot product at (b, s, t), term d: (b, s, d). -/
theorem lidx_score (b : Fin 32) (s : Fin 16) (t : Fin 4112) (d : Fin 1024) : lidx_main_v16 (ix3 b s t) d = ix3 b s d := by
  funext a; match a with | ⟨0, _⟩ => rfl | ⟨1, _⟩ => rfl | ⟨2, _⟩ => rfl

/-- The key's index in the score's dot product at (b, s, t), term d: (b, t, d). -/
theorem ridx_score (b : Fin 32) (s : Fin 16) (t : Fin 4112) (d : Fin 1024) : ridx_main_v16 (ix3 b s t) d = ix3 b t d := by
  funext a; match a with | ⟨0, _⟩ => rfl | ⟨1, _⟩ => rfl | ⟨2, _⟩ => rfl

/-- The broadcast scale is 1/32 everywhere. -/
theorem scale_apply (i : S32x16x4112.Idx) : val_main_v17 (F := Ideal) i = scaleC := by
  rw [val_main_v17_apply, val_main_v15_apply, val_main_cst_0_apply, val_main_v14_apply, val_main_cst_apply]
  simp only [Ideal.hostDivf_def, Ideal.hostUnary_sqrt_def, Ideal.ofBits_def]
  exact scale_eq

/-- The reference's scaled score at (b, s, t) is the specification's. -/
theorem score_eq (x : (⟨S32x16x1024, .f32⟩ : BufTy).Contents (Elt Ideal)) (cK : (⟨S32x4096x1024, .f32⟩ : BufTy).Contents (Elt Ideal))
    (Wq : (⟨S1024x1024, .f32⟩ : BufTy).Contents (Elt Ideal)) (bq : (⟨S1024, .f32⟩ : BufTy).Contents (Elt Ideal))
    (Wk : (⟨S1024x1024, .f32⟩ : BufTy).Contents (Elt Ideal)) (bk : (⟨S1024, .f32⟩ : BufTy).Contents (Elt Ideal))
    (b : Fin 32) (s : Fin 16) (t : Fin 4112) :
    val_main_v18 (F := Ideal) x cK Wq bq Wk bk (ix3 b s t) = score scaleC (proj x Wq bq) (keys x cK Wk bk) b s t := by
  rw [val_main_v18_apply, val_main_v16_apply, scale_apply, linear_q, keys_k]
  simp only [lidx_score, ridx_score, Ideal.mulf_def]
  rfl

end Cert.Attn.Ref

end
-- ==== Proof.LibHostMax.lean ====
/-
  A maximum along one axis of a rank-three array, read at an index, on the extended reals.

  A one-operand reduction whose body is the maximum, taken from a rank-zero start value over one axis of an
  a × b × c array x, is at every result index the fold of max, from the start value's only element, over the
  coordinates of that axis — in any order, because max commutes and associates.  Over the last axis, read at (p, q):
  the fold over k of x (p, q, k).  Over the middle axis, read at (p, r): the fold over k of x (p, k, r).  The index
  of the array that a result index with the coordinate k put back on the reduced axis names is (p, q, k), resp.
  (p, k, r).  All for any extents; nothing is evaluated.
-/
import Idealize.ShloMosaic.Lib.ValueIdx
import Idealize.ShloMosaic.PureOps.Reduce
import Idealize.ShloMosaic.PureOps.Ideal.Laws

noncomputable section

namespace Cert.LibHostMax

open Idealize.ShloMosaic Idealize.ShloMosaic.ValueIdx

variable {a b c : ℕ}

/-- Over (p, q), the coordinate k put on the last axis: the index (p, q, k). -/
theorem lift_last3 (h : (⟨3, ![a, b, c]⟩ : Shape).Reduces [2] ⟨2, ![a, b]⟩) (p : Fin a) (q : Fin b) (k : Fin c) :
    h.lift (ix2 p q) k = ix3 p q k := by
  funext d
  match d with
  | ⟨0, _⟩ => exact Fin.ext rfl
  | ⟨1, _⟩ => exact Fin.ext rfl
  | ⟨2, _⟩ => exact Fin.ext rfl

/-- Over (p, r), the coordinate k put on the middle axis: the index (p, k, r). -/
theorem lift_mid3 (h : (⟨3, ![a, b, c]⟩ : Shape).Reduces [1] ⟨2, ![a, c]⟩) (p : Fin a) (r : Fin c) (k : Fin b) :
    h.lift (ix2 p r) k = ix3 p k r := by
  funext d
  match d with
  | ⟨0, _⟩ => exact Fin.ext rfl
  | ⟨1, _⟩ => exact Fin.ext rfl
  | ⟨2, _⟩ => exact Fin.ext rfl

/-- The maximum along the last axis, read at (p, q): the fold of max over the entries x (p, q, k) from the start value. -/
theorem hostMax_last3 (x : (⟨3, ![a, b, c]⟩ : Shape).Idx → EReal) (init : (⟨0, ![]⟩ : Shape).Idx → EReal)
    (h' : (⟨3, ![a, b, c]⟩ : Shape).ReducesTo [2] ⟨2, ![a, b]⟩) (hu : 0 < (⟨0, ![]⟩ : Shape).numel)
    (p : Fin a) (q : Fin b) :
    Host.reduce (FloatOps.maximumf (F := Ideal) (φ := .f32)) x init h' hu (ix2 p q)
      = (Finset.univ : Finset (Fin c)).fold max (init ix0) (fun k => x (ix3 p q k)) := by
  have h : (⟨3, ![a, b, c]⟩ : Shape).Reduces [2] ⟨2, ![a, b]⟩ := ⟨h'.1, Nat.zero_lt_two, h'.2⟩
  refine (Host.reduce_eq_fold_single _ x init h' h hu (ix2 p q)).trans ?_
  rw [eq_ix0 (Shape.Idx.first hu)]
  exact Finset.fold_congr fun k _ => congrArg x (lift_last3 h p q k)

/-- The maximum along the middle axis, read at (p, r): the fold of max over the entries x (p, k, r) from the start value. -/
theorem hostMax_mid3 (x : (⟨3, ![a, b, c]⟩ : Shape).Idx → EReal) (init : (⟨0, ![]⟩ : Shape).Idx → EReal)
    (h' : (⟨3, ![a, b, c]⟩ : Shape).ReducesTo [1] ⟨2, ![a, c]⟩) (hu : 0 < (⟨0, ![]⟩ : Shape).numel)
    (p : Fin a) (r : Fin c) :
    Host.reduce (FloatOps.maximumf (F := Ideal) (φ := .f32)) x init h' hu (ix2 p r)
      = (Finset.univ : Finset (Fin b)).fold max (init ix0) (fun k => x (ix3 p k r)) := by
  have h : (⟨3, ![a, b, c]⟩ : Shape).Reduces [1] ⟨2, ![a, c]⟩ := ⟨h'.1, Nat.zero_lt_two, h'.2⟩
  refine (Host.reduce_eq_fold_single _ x init h' h hu (ix2 p r)).trans ?_
  rw [eq_ix0 (Shape.Idx.first hu)]
  exact Finset.fold_congr fun k _ => congrArg x (lift_mid3 h p r k)

end Cert.LibHostMax

end
-- ==== Proof.RefSoft.lean ====
/-
  The reference's softmax weights are the specification's row softmax of the scores.

  The reference takes each row's maximum from −∞ and joins it with −∞ once more, subtracts it from the row,
  exponentiates, sums the row from 0, and divides: at lane t of row (b, s) this is exp(r t − max r) over
  0 + Σ_k exp(r k − max r) with r the row of scores, which is the row softmax as the specification writes it.
-/
import proofs.«147685_j44616120271538_2_alg».proof.Proof.RefScore
import proofs.«147685_j44616120271538_2_alg».proof.Proof.LibHostMax

noncomputable section

namespace Cert.Attn.Ref

open Cert.ReferenceIdeal Cert.ReferenceIdeal.Gen Cert.ReferenceIdeal.ReadP Idealize.ShloMosaic Idealize.ShloMosaic.ValueIdx Cert.Attn Cert.LibRowSoftmax

/-- The maximum's index under its two broadcasts at (b, s, t): (b, s). -/
theorem idx_max (b : Fin 32) (s : Fin 16) (t : Fin 4112) : idx_main_v22 (idx_main_v23 (ix3 b s t)) = ix2 b s := by
  funext a; match a with | ⟨0, _⟩ => rfl | ⟨1, _⟩ => rfl

/-- The sum's index under its two broadcasts at (b, s, t): (b, s). -/
theorem idx_sum (b : Fin 32) (s : Fin 16) (t : Fin 4112) : idx_main_v27 (idx_main_v28 (ix3 b s t)) = ix2 b s := by
  funext a; match a with | ⟨0, _⟩ => rfl | ⟨1, _⟩ => rfl

/-- The row sum's term k at (b, s): (b, s, k). -/
theorem idx_term (b : Fin 32) (s : Fin 16) (k : Fin 4112) : idx_main_v26 (ix2 b s) k = ix3 b s k := by
  funext a; match a with | ⟨0, _⟩ => rfl | ⟨1, _⟩ => rfl | ⟨2, _⟩ => rfl

/-- The reference's row maximum at (b, s) is the row maximum of the scaled scores. -/
theorem rowmax_eq (x : (⟨S32x16x1024, .f32⟩ : BufTy).Contents (Elt Ideal)) (cK : (⟨S32x4096x1024, .f32⟩ : BufTy).Contents (Elt Ideal))
    (Wq : (⟨S1024x1024, .f32⟩ : BufTy).Contents (Elt Ideal)) (bq : (⟨S1024, .f32⟩ : BufTy).Contents (Elt Ideal))
    (Wk : (⟨S1024x1024, .f32⟩ : BufTy).Contents (Elt Ideal)) (bk : (⟨S1024, .f32⟩ : BufTy).Contents (Elt Ideal))
    (b : Fin 32) (s : Fin 16) :
    val_main_v21 (F := Ideal) x cK Wq bq Wk bk (ix2 b s)
      = rowMax (fun t : Fin 4112 => val_main_v18 (F := Ideal) x cK Wq bq Wk bk (ix3 b s t)) := by
  rw [val_main_v21_apply, val_main_v20_apply, val_main_cst_2_apply]
  unfold val_main_v19
  generalize val_main_v18 (F := Ideal) x cK Wq bq Wk bk = y
  rw [Cert.LibHostMax.hostMax_last3 y (val_main_cst_1 (F := Ideal)) reducesTo_S32x16x4112_S32x16_d2 h_S_ b s, val_main_cst_1_apply]
  simp only [Ideal.maximumf_def, Ideal.ofBits_def, ofBits_neg_inf]
  rfl

/-- The reference's exponential at (b, s, t): exp of the score less the row maximum. -/
theorem exp_eq (x : (⟨S32x16x1024, .f32⟩ : BufTy).Contents (Elt Ideal)) (cK : (⟨S32x4096x1024, .f32⟩ : BufTy).Contents (Elt Ideal))
    (Wq : (⟨S1024x1024, .f32⟩ : BufTy).Contents (Elt Ideal)) (bq : (⟨S1024, .f32⟩ : BufTy).Contents (Elt Ideal))
    (Wk : (⟨S1024x1024, .f32⟩ : BufTy).Contents (Elt Ideal)) (bk : (⟨S1024, .f32⟩ : BufTy).Contents (Elt Ideal))
    (b : Fin 32) (s : Fin 16) (t : Fin 4112) :
    val_main_v25 (F := Ideal) x cK Wq bq Wk bk (ix3 b s t)
      = Ideal.exp (val_main_v18 (F := Ideal) x cK Wq bq Wk bk (ix3 b s t)
          - rowMax (fun t : Fin 4112 => val_main_v18 (F := Ideal) x cK Wq bq Wk bk (ix3 b s t))) := by
  rw [val_main_v25_apply, val_main_v24_apply, val_main_v23_apply, val_main_v22_apply, idx_max, rowmax_eq]
  simp only [Ideal.hostUnary_exp_def, Ideal.subf_def]

/-- The reference's softmax weight at (b, s, t) is the row softmax of the scaled scores at lane t. -/
theorem soft_raw (x : (⟨S32x16x1024, .f32⟩ : BufTy).Contents (Elt Ideal)) (cK : (⟨S32x4096x1024, .f32⟩ : BufTy).Contents (Elt Ideal))
    (Wq : (⟨S1024x1024, .f32⟩ : BufTy).Contents (Elt Ideal)) (bq : (⟨S1024, .f32⟩ : BufTy).Contents (Elt Ideal))
    (Wk : (⟨S1024x1024, .f32⟩ : BufTy).Contents (Elt Ideal)) (bk : (⟨S1024, .f32⟩ : BufTy).Contents (Elt Ideal))
    (b : Fin 32) (s : Fin 16) (t : Fin 4112) :
    val_main_v29 (F := Ideal) x cK Wq bq Wk bk (ix3 b s t)
      = rowSoft (fun t : Fin 4112 => val_main_v18 (F := Ideal) x cK Wq bq Wk bk (ix3 b s t)) t := by
  rw [val_main_v29_apply, val_main_v28_apply, val_main_v27_apply, idx_sum, val_main_v26_apply, val_main_cst_3_apply]
  simp only [idx_term, exp_eq, Ideal.hostDivf_def, Ideal.ofBits_def, Ideal.ofBits_zero_f32]
  rfl

/-- The reference's softmax weight at (b, s, t) is the specification's. -/
theorem soft_eq (x : (⟨S32x16x1024, .f32⟩ : BufTy).Contents (Elt Ideal)) (cK : (⟨S32x4096x1024, .f32⟩ : BufTy).Contents (Elt Ideal))
    (Wq : (⟨S1024x1024, .f32⟩ : BufTy).Contents (Elt Ideal)) (bq : (⟨S1024, .f32⟩ : BufTy).Contents (Elt Ideal))
    (Wk : (⟨S1024x1024, .f32⟩ : BufTy).Contents (Elt Ideal)) (bk : (⟨S1024, .f32⟩ : BufTy).Contents (Elt Ideal))
    (b : Fin 32) (s : Fin 16) (t : Fin 4112) :
    val_main_v29 (F := Ideal) x cK Wq bq Wk bk (ix3 b s t)
      = rowSoft (score scaleC (proj x Wq bq) (keys x cK Wk bk) b s) t := by
  rw [soft_raw]
  exact congrArg (fun r => rowSoft r t) (funext fun t' => score_eq x cK Wq bq Wk bk b s t')

end Cert.Attn.Ref

end
-- ==== Proof.RefOut.lean ====
/-
  The reference's output is the specification's attention output.

  The output at (b, s, d) is the dot product, over the 4112 key rows t, of the softmax weight of row (b, s) at lane t
  with the value row t at feature d — weights on the left, values on the right, as the specification writes it.
-/
import proofs.«147685_j44616120271538_2_alg».proof.Proof.RefSoft

noncomputable section

namespace Cert.Attn.Ref

open Cert.ReferenceIdeal Cert.ReferenceIdeal.Gen Cert.ReferenceIdeal.ReadP Idealize.ShloMosaic Idealize.ShloMosaic.ValueIdx Cert.Attn Cert.LibRowSoftmax

/-- The weight's index in the output's dot product at (b, s, d), term t: (b, s, t). -/
theorem lidx_out (b : Fin 32) (s : Fin 16) (d : Fin 1024) (t : Fin 4112) : lidx_main_v30 (ix3 b s d) t = ix3 b s t := by
  funext a; match a with | ⟨0, _⟩ => rfl | ⟨1, _⟩ => rfl | ⟨2, _⟩ => rfl

/-- The value's index in the output's dot product at (b, s, d), term t: (b, t, d). -/
theorem ridx_out (b : Fin 32) (s : Fin 16) (d : Fin 1024) (t : Fin 4112) : ridx_main_v30 (ix3 b s d) t = ix3 b t d := by
  funext a; match a with | ⟨0, _⟩ => rfl | ⟨1, _⟩ => rfl | ⟨2, _⟩ => rfl

/-- The reference's output is the specification's attention output. -/
theorem out_eq (x : (⟨S32x16x1024, .f32⟩ : BufTy).Contents (Elt Ideal)) (cK cV : (⟨S32x4096x1024, .f32⟩ : BufTy).Contents (Elt Ideal))
    (Wq : (⟨S1024x1024, .f32⟩ : BufTy).Contents (Elt Ideal)) (bq : (⟨S1024, .f32⟩ : BufTy).Contents (Elt Ideal))
    (Wk : (⟨S1024x1024, .f32⟩ : BufTy).Contents (Elt Ideal)) (bk : (⟨S1024, .f32⟩ : BufTy).Contents (Elt Ideal))
    (Wv : (⟨S1024x1024, .f32⟩ : BufTy).Contents (Elt Ideal)) (bv : (⟨S1024, .f32⟩ : BufTy).Contents (Elt Ideal)) :
    val_main_v30 (F := Ideal) x cK cV Wq bq Wk bk Wv bv = arr (outRows x cK cV Wq bq Wk bk Wv bv) := by
  funext i
  obtain ⟨b, s, d, rfl⟩ : ∃ (b : Fin 32) (s : Fin 16) (d : Fin 1024), i = ix3 b s d := ⟨i 0, i 1, i 2, eq_ix3 i⟩
  rw [val_main_v30_apply, keys_v]
  simp only [lidx_out, ridx_out, soft_eq]
  rfl

end Cert.Attn.Ref

end
-- ==== Proof.RefSpec.lean ====
/-
  The reference's run, stated by the specification.

  Every weakly fair execution of the reference terminates with its three results at the specification's attention
  output, keys and values of the arguments' launch contents, and the arguments unchanged: the run read back as the
  composed term of the operations, and that term read index by index as the specification.
-/
import proofs.«147685_j44616120271538_2_alg».proof.Proof.RefOut

noncomputable section

namespace Cert.Attn.Ref

open Idealize.ShloMosaic Idealize.ShloMosaic.TcCoe Idealize.SL.Sem Idealize.ShloMosaic.StableHlo

/-- The reference's run ends with the attention output, the keys and the values of the specification, arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v30) = Cert.Attn.arr (Cert.Attn.outRows (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)))
      ∧ r.2.mem ((c.tc : Thread Cert.ReferenceIdeal.nD Cert.ReferenceIdeal.τ).loc Cert.ReferenceIdeal.main_v12) = Cert.Attn.arr (Cert.Attn.keys (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)))
      ∧ r.2.mem ((c.tc : Thread Cert.ReferenceIdeal.nD Cert.ReferenceIdeal.τ).loc Cert.ReferenceIdeal.main_v13) = Cert.Attn.arr (Cert.Attn.keys (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) :=
  (θ_run (Cert.ReferenceIdeal.defs (F := Ideal)) _ _).mono (fun _ h c =>
      ⟨(h c).1.trans ((Cert.ReferenceIdeal.ReadP.val_main_v30_eq m c).trans (out_eq _ _ _ _ _ _ _ _ _)),
       (h c).2.1.trans ((Cert.ReferenceIdeal.ReadP.val_main_v12_eq _ _ _ _).trans (keys_k _ _ _ _)),
       (h c).2.2.1.trans ((Cert.ReferenceIdeal.ReadP.val_main_v13_eq _ _ _ _).trans (keys_v _ _ _ _)),
       (h c).2.2.2⟩)
    (Cert.ReferenceIdeal.ValueP.run (F := Ideal) m ρ)

end Cert.Attn.Ref

end
-- ==== Proof.VBlocks.lean ====
/-
  Each input window's block at a grid point, read off the argument arrays.

  Point t is tile t mod 5 of batch t / 5.  The x window's block is the 16 rows of batch t / 5; the three weight windows
  hold the whole matrices; the three bias windows hold the biases, which the program reshapes to one-row matrices before
  the region; a cache window's block is the 1024 rows starting at row min (t mod 5) 3 · 1024 of batch t / 5.  A block's
  element at an inner coordinate sits in the array at block index × block size + inner coordinate on every axis.
-/
import proofs.«147685_j44616120271538_2_alg».proof.Proof.FStates
import Idealize.ShloMosaic.Lib.ValueIdx
import Idealize.ShloMosaic.Lib.Pipeline.Value
import Idealize.ShloMosaic.Lib.StableHlo.Run

noncomputable section

namespace Cert.KernelIdeal.FX

open Cert.KernelIdeal Cert.KernelIdeal.Gen Cert.KernelIdeal.KState
open Idealize.ShloMosaic Idealize.ShloMosaic.TcCoe Idealize.ShloMosaic.ValueIdx
open Idealize.SL Idealize.SL.Sem
open Idealize.ShloMosaic.StableHlo

variable {F : FTy → Type} [FloatOps F]
variable (m : (ℓ : Loc nD τ sig) → Buf (Elt F) ℓ)

/-- Window 0's index map at point t: block (t / 5, 0, 0). -/
theorem idx_w0 : ∀ t : Fin cfg0.N, win0_0.index t (0 : Fin 3) = t.val / 5 ∧ win0_0.index t (1 : Fin 3) = 0 ∧ win0_0.index t (2 : Fin 3) = 0 :=
  (by decide +kernel : ∀ t : Fin grid0.N, _)

/-- Window 0's block at point t, at (0, u, d): row u of batch t / 5 of x. -/
theorem iblk0_apply (c : Dev nD) (t : Fin cfg0.N) (b : Fin 32) (hb : b.val = t.val / 5) (u : Fin 16) (d : Fin 1024) :
    (iblk m c 0 t : FVec F S1x16x1024 .f32) (ix3 0 u d) = V m c main_arg0 (ix3 b u d) := by
  obtain ⟨e0, e1, e2⟩ := idx_w0 t
  show V m c main_arg0 (((cfg0.win 0).blk t).view.emb (ix3 0 u d)) = V m c main_arg0 (ix3 b u d)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 16 + 1 * u.val = u.val; omega
  | ⟨2, _⟩ => show win0_0.index t (2 : Fin 3) * 1024 + 1 * d.val = d.val; omega

/-- Window 1's index map is constant: block (0, 0), the whole matrix. -/
theorem idx_w1 : ∀ t : Fin cfg0.N, win0_1.index t (0 : Fin 2) = 0 ∧ win0_1.index t (1 : Fin 2) = 0 :=
  (by decide +kernel : ∀ t : Fin grid0.N, _)

/-- Window 1's block at every point is the whole query weight matrix, as the region finds it. -/
theorem iblk1_eq (c : Dev nD) (t : Fin cfg0.N) : (iblk m c 1 t : FVec F S1024x1024 .f32) = V m c main_arg3 := by
  obtain ⟨e0, e1⟩ := idx_w1 t
  funext y
  show V m c main_arg3 (((cfg0.win 1).blk t).view.emb y) = V m c main_arg3 y
  refine congrArg (V m c main_arg3) (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- Window 3's index map is constant: block (0, 0), the whole matrix. -/
theorem idx_w3 : ∀ t : Fin cfg0.N, win0_3.index t (0 : Fin 2) = 0 ∧ win0_3.index t (1 : Fin 2) = 0 :=
  (by decide +kernel : ∀ t : Fin grid0.N, _)

/-- Window 3's block at every point is the whole key weight matrix, as the region finds it. -/
theorem iblk3_eq (c : Dev nD) (t : Fin cfg0.N) : (iblk m c 3 t : FVec F S1024x1024 .f32) = V m c main_arg5 := by
  obtain ⟨e0, e1⟩ := idx_w3 t
  funext y
  show V m c main_arg5 (((cfg0.win 3).blk t).view.emb y) = V m c main_arg5 y
  refine congrArg (V m c main_arg5) (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- Window 5's index map is constant: block (0, 0), the whole matrix. -/
theorem idx_w5 : ∀ t : Fin cfg0.N, win0_5.index t (0 : Fin 2) = 0 ∧ win0_5.index t (1 : Fin 2) = 0 :=
  (by decide +kernel : ∀ t : Fin grid0.N, _)

/-- Window 5's block at every point is the whole value weight matrix, as the region finds it. -/
theorem iblk5_eq (c : Dev nD) (t : Fin cfg0.N) : (iblk m c 5 t : FVec F S1024x1024 .f32) = V m c main_arg7 := by
  obtain ⟨e0, e1⟩ := idx_w5 t
  funext y
  show V m c main_arg7 (((cfg0.win 5).blk t).view.emb y) = V m c main_arg7 y
  refine congrArg (V m c main_arg7) (funext fun a => Fin.ext ?_)
  match a with
  | ⟨0, _⟩ => show win0_5.index t (0 : Fin 2) * 1024 + 1 * (y 0).val = (y 0).val; omega
  | ⟨1, _⟩ => show win0_5.index t (1 : Fin 2) * 1024 + 1 * (y 1).val = (y 1).val; omega

/-- The region finds in main_v0 the query bias laid out as a one-row matrix. -/
theorem V_main_v0 (c : Dev nD) :
    (V m c main_v0 : S1x1024.Idx → Elt F .f32)
      = shapeCast S1x1024 (m ((c : Thread nD τ).loc main_arg4) : S1024.Idx → Elt F .f32) shapeCasts_S1024_S1x1024 := by
  dsimp only [Gen.V, Gen.hostOps0]
  after_results
  rfl

/-- Entry (0, e) of that one-row matrix is entry e of the query bias. -/
theorem V_main_v0_apply (c : Dev nD) (z : Fin 1) (e : Fin 1024) :
    (V m c main_v0 : S1x1024.Idx → Elt F .f32) (ix2 z e) = (m ((c : Thread nD τ).loc main_arg4) : S1024.Idx → Elt F .f32) (ix1 e) := by
  rw [V_main_v0]
  refine shapeCast_apply _ _ (ix2 z e) (ix1 e) ?_
  rw [Shape.rowMajor_val_one, Shape.rowMajor_val_two]
  show e.val = z.val * 1024 + e.val
  have := z.isLt
  omega

/-- Window 2's index map is constant: block (0, 0), the whole row. -/
theorem idx_w2 : ∀ t : Fin cfg0.N, win0_2.index t (0 : Fin 2) = 0 ∧ win0_2.index t (1 : Fin 2) = 0 :=
  (by decide +kernel : ∀ t : Fin grid0.N, _)

/-- Window 2's block at every point, at (0, e): entry e of the query bias as launched. -/
theorem iblk2_apply (c : Dev nD) (t : Fin cfg0.N) (e : Fin 1024) :
    (iblk m c 2 t : FVec F S1x1024 .f32) (ix2 0 e) = (m ((c : Thread nD τ).loc main_arg4) : S1024.Idx → Elt F .f32) (ix1 e) := by
  obtain ⟨e0, e1⟩ := idx_w2 t
  refine Eq.trans ?_ (V_main_v0_apply m c 0 e)
  show V m c main_v0 (((cfg0.win 2).blk t).view.emb (ix2 0 e)) = V m c main_v0 (ix2 0 e)
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 1024 + 1 * e.val = e.val; omega

/-- The region finds in main_v1 the key bias laid out as a one-row matrix. -/
theorem V_main_v1 (c : Dev nD) :
    (V m c main_v1 : S1x1024.Idx → Elt F .f32)
      = shapeCast S1x1024 (m ((c : Thread nD τ).loc main_arg6) : S1024.Idx → Elt F .f32) shapeCasts_S1024_S1x1024 := by
  dsimp only [Gen.V, Gen.hostOps0]
  after_results
  rfl

/-- Entry (0, e) of that one-row matrix is entry e of the key bias. -/
theorem V_main_v1_apply (c : Dev nD) (z : Fin 1) (e : Fin 1024) :
    (V m c main_v1 : S1x1024.Idx → Elt F .f32) (ix2 z e) = (m ((c : Thread nD τ).loc main_arg6) : S1024.Idx → Elt F .f32) (ix1 e) := by
  rw [V_main_v1]
  refine shapeCast_apply _ _ (ix2 z e) (ix1 e) ?_
  rw [Shape.rowMajor_val_one, Shape.rowMajor_val_two]
  show e.val = z.val * 1024 + e.val
  have := z.isLt
  omega

/-- Window 4's index map is constant: block (0, 0), the whole row. -/
theorem idx_w4 : ∀ t : Fin cfg0.N, win0_4.index t (0 : Fin 2) = 0 ∧ win0_4.index t (1 : Fin 2) = 0 :=
  (by decide +kernel : ∀ t : Fin grid0.N, _)

/-- Window 4's block at every point, at (0, e): entry e of the key bias as launched. -/
theorem iblk4_apply (c : Dev nD) (t : Fin cfg0.N) (e : Fin 1024) :
    (iblk m c 4 t : FVec F S1x1024 .f32) (ix2 0 e) = (m ((c : Thread nD τ).loc main_arg6) : S1024.Idx → Elt F .f32) (ix1 e) := by
  obtain ⟨e0, e1⟩ := idx_w4 t
  refine Eq.trans ?_ (V_main_v1_apply m c 0 e)
  show V m c main_v1 (((cfg0.win 4).blk t).view.emb (ix2 0 e)) = V m c main_v1 (ix2 0 e)
  refine congrArg (V m c main_v1) (funext fun a => Fin.ext ?_)
  match a with
  | ⟨0, _⟩ => show win0_4.index t (0 : Fin 2) * 1 + 1 * 0 = 0; omega
  | ⟨1, _⟩ => show win0_4.index t (1 : Fin 2) * 1024 + 1 * e.val = e.val; omega

/-- The region finds in main_v2 the value bias laid out as a one-row matrix. -/
theorem V_main_v2 (c : Dev nD) :
    (V m c main_v2 : S1x1024.Idx → Elt F .f32)
      = shapeCast S1x1024 (m ((c : Thread nD τ).loc main_arg8) : S1024.Idx → Elt F .f32) shapeCasts_S1024_S1x1024 := by
  dsimp only [Gen.V, Gen.hostOps0]
  after_results
  rfl

/-- Entry (0, e) of that one-row matrix is entry e of the value bias. -/
theorem V_main_v2_apply (c : Dev nD) (z : Fin 1) (e : Fin 1024) :
    (V m c main_v2 : S1x1024.Idx → Elt F .f32) (ix2 z e) = (m ((c : Thread nD τ).loc main_arg8) : S1024.Idx → Elt F .f32) (ix1 e) := by
  rw [V_main_v2]
  refine shapeCast_apply _ _ (ix2 z e) (ix1 e) ?_
  rw [Shape.rowMajor_val_one, Shape.rowMajor_val_two]
  show e.val = z.val * 1024 + e.val
  have := z.isLt
  omega

/-- Window 6's index map is constant: block (0, 0), the whole row. -/
theorem idx_w6 : ∀ t : Fin cfg0.N, win0_6.index t (0 : Fin 2) = 0 ∧ win0_6.index t (1 : Fin 2) = 0 :=
  (by decide +kernel : ∀ t : Fin grid0.N, _)

/-- Window 6's block at every point, at (0, e): entry e of the value bias as launched. -/
theorem iblk6_apply (c : Dev nD) (t : Fin cfg0.N) (e : Fin 1024) :
    (iblk m c 6 t : FVec F S1x1024 .f32) (ix2 0 e) = (m ((c : Thread nD τ).loc main_arg8) : S1024.Idx → Elt F .f32) (ix1 e) := by
  obtain ⟨e0, e1⟩ := idx_w6 t
  refine Eq.trans ?_ (V_main_v2_apply m c 0 e)
  show V m c main_v2 (((cfg0.win 6).blk t).view.emb (ix2 0 e)) = V m c main_v2 (ix2 0 e)
  refine congrArg (V m c main_v2) (funext fun a => Fin.ext ?_)
  match a with
  | ⟨0, _⟩ => show win0_6.index t (0 : Fin 2) * 1 + 1 * 0 = 0; omega
  | ⟨1, _⟩ => show win0_6.index t (1 : Fin 2) * 1024 + 1 * e.val = e.val; omega

/-- Window 7's index map at point t: block (t / 5, min (t mod 5) 3, 0). -/
theorem idx_w7 : ∀ t : Fin cfg0.N, win0_7.index t (0 : Fin 3) = t.val / 5 ∧ win0_7.index t (1 : Fin 3) = min (t.val % 5) 3 ∧ win0_7.index t (2 : Fin 3) = 0 :=
  (by decide +kernel : ∀ t : Fin grid0.N, _)

/-- Window 7's block at point t, at (0, u, d): row min (t mod 5) 3 · 1024 + u of batch t / 5 of the key cache. -/
theorem iblk7_apply (c : Dev nD) (t : Fin cfg0.N) (b : Fin 32) (hb : b.val = t.val / 5) (u : Fin 1024) (d : Fin 1024)
    (r : Fin 4096) (hr : r.val = min (t.val % 5) 3 * 1024 + u.val) :
    (iblk m c 7 t : FVec F S1x1024x1024 .f32) (ix3 0 u d) = V m c main_arg1 (ix3 b r d) := by
  obtain ⟨e0, e1, e2⟩ := idx_w7 t
  show V m c main_arg1 (((cfg0.win 7).blk t).view.emb (ix3 0 u d)) = V m c main_arg1 (ix3 b r d)
  refine congrArg (V m c main_arg1) (funext fun a => Fin.ext ?_)
  match a with
  | ⟨0, _⟩ => show win0_7.index t (0 : Fin 3) * 1 + 1 * 0 = b.val; omega
  | ⟨1, _⟩ => show win0_7.index t (1 : Fin 3) * 1024 + 1 * u.val = r.val; omega
  | ⟨2, _⟩ => show win0_7.index t (2 : Fin 3) * 1024 + 1 * d.val = d.val; omega

/-- Window 8's index map at point t: block (t / 5, min (t mod 5) 3, 0). -/
theorem idx_w8 : ∀ t : Fin cfg0.N, win0_8.index t (0 : Fin 3) = t.val / 5 ∧ win0_8.index t (1 : Fin 3) = min (t.val % 5) 3 ∧ win0_8.index t (2 : Fin 3) = 0 :=
  (by decide +kernel : ∀ t : Fin grid0.N, _)

/-- Window 8's block at point t, at (0, u, d): row min (t mod 5) 3 · 1024 + u of batch t / 5 of the value cache. -/
theorem iblk8_apply (c : Dev nD) (t : Fin cfg0.N) (b : Fin 32) (hb : b.val = t.val / 5) (u : Fin 1024) (d : Fin 1024)
    (r : Fin 4096) (hr : r.val = min (t.val % 5) 3 * 1024 + u.val) :
    (iblk m c 8 t : FVec F S1x1024x1024 .f32) (ix3 0 u d) = V m c main_arg2 (ix3 b r d) := by
  obtain ⟨e0, e1, e2⟩ := idx_w8 t
  show V m c main_arg2 (((cfg0.win 8).blk t).view.emb (ix3 0 u d)) = V m c main_arg2 (ix3 b r d)
  refine congrArg (V m c main_arg2) (funext fun a => Fin.ext ?_)
  match a with
  | ⟨0, _⟩ => show win0_8.index t (0 : Fin 3) * 1 + 1 * 0 = b.val; omega
  | ⟨1, _⟩ => show win0_8.index t (1 : Fin 3) * 1024 + 1 * u.val = r.val; omega
  | ⟨2, _⟩ => show win0_8.index t (2 : Fin 3) * 1024 + 1 * d.val = d.val; omega

end Cert.KernelIdeal.FX

end
-- ==== Proof.VBatch.lean ====
/-
  The scratch buffers' contents through the five points of one batch.

  Point n with n mod 5 = 0 is the first tile of a batch: it overwrites every scratch buffer, so the contents after it
  depend on that point's blocks alone.  The next three points fold the next three cache tiles in, and the fifth point
  folds the new rows in; the output block the fifth point forms is a function of the contents after the fourth.  A
  point's share of a result array is the tile it passes through (a cache tile) or the new rows kept in scratch.
-/
import proofs.«147685_j44616120271538_2_alg».proof.Proof.VBlocks

noncomputable section

namespace Cert.KernelIdeal.FX

open Cert.KernelIdeal Cert.KernelIdeal.Gen Cert.KernelIdeal.KState
open Idealize.ShloMosaic Idealize.ShloMosaic.TcCoe Idealize.ShloMosaic.ValueIdx
open Idealize.SL Idealize.SL.Sem
open Idealize.ShloMosaic.StableHlo

variable {F : FTy → Type} [FloatOps F]
variable (m : (ℓ : Loc nD τ sig) → Buf (Elt F) ℓ)

/-- A cache tile passes through unchanged on its way to the keys' result. -/
theorem pay15_eq (kc : FVec F S1x1024x1024 .f32) : k0_pay15 (F := F) kc = kc := by
  unfold k0_pay15
  exact shapeCast_self _ _

/-- A cache tile passes through unchanged on its way to the values' result. -/
theorem pay16_eq (vc : FVec F S1x1024x1024 .f32) : k0_pay16 (F := F) vc = vc := by
  unfold k0_pay16
  exact shapeCast_self _ _

/-- The scratch contents after the first tile of a batch, from the blocks point t finds. -/
def firstAt (c : Dev nD) (t : Fin cfg0.N) : Scr F :=
  stepFirst (iblk m c 0 t) (iblk m c 1 t) (iblk m c 2 t) (iblk m c 3 t) (iblk m c 4 t) (iblk m c 5 t) (iblk m c 6 t) (iblk m c 7 t) (iblk m c 8 t)

/-! ## One point -/

/-- A first tile leaves the scratch buffers at `firstAt`. -/
theorem stepAt_scr_first (c : Dev nD) (t : Fin cfg0.N) (p : PSt F c) (h0 : t.val % 5 = 0) :
    (stepAt m c t p).scr = firstAt m c t := by
  have h1 : cond1 (grid0.coords t) := (hcond1 t).mpr (by omega)
  have h0' : cond0 (grid0.coords t) := (hcond0 t).mpr h0
  unfold stepAt
  rw [dif_pos h1, dif_pos h0']
  rfl

/-- A later cache tile folds its tile into the scratch buffers. -/
theorem stepAt_scr_tile (c : Dev nD) (t : Fin cfg0.N) (p : PSt F c) (h0 : ¬ t.val % 5 = 0) (h4 : ¬ t.val % 5 = 4) :
    (stepAt m c t p).scr = stepTile p.scr (iblk m c 7 t) (iblk m c 8 t) := by
  have h1 : cond1 (grid0.coords t) := (hcond1 t).mpr h4
  have h0' : ¬ cond0 (grid0.coords t) := fun h => h0 ((hcond0 t).mp h)
  unfold stepAt
  rw [dif_pos h1, dif_neg h0']

/-- The tile of the new rows folds them in. -/
theorem stepAt_scr_last (c : Dev nD) (t : Fin cfg0.N) (p : PSt F c) (h4 : t.val % 5 = 4) :
    (stepAt m c t p).scr = stepLast p.scr := by
  have h1 : ¬ cond1 (grid0.coords t) := fun h => (hcond1 t).mp h h4
  have h2 : cond2 (grid0.coords t) := (hcond2 t).mpr h4
  unfold stepAt
  rw [dif_neg h1, dif_pos h2]

/-- A cache tile's point fills its slot of the keys' result with the tile. -/
theorem stepAt_k_tile (c : Dev nD) (t : Fin cfg0.N) (p : PSt F c) (h1 : cond1 (grid0.coords t)) :
    (stepAt m c t p).k = put1 (grid0.coords t) h1 hbK p.k (iblk m c 7 t) := by
  unfold stepAt
  rw [dif_pos h1]
  by_cases h0 : cond0 (grid0.coords t)
  · rw [dif_pos h0]
    show put1 (grid0.coords t) h1 hbK p.k (k0_pay15 (iblk m c 7 t)) = _
    rw [pay15_eq]
  · rw [dif_neg h0]
    show put1 (grid0.coords t) h1 hbK p.k (k0_pay15 (iblk m c 7 t)) = _
    rw [pay15_eq]

/-- A cache tile's point fills its slot of the values' result with the tile. -/
theorem stepAt_v_tile (c : Dev nD) (t : Fin cfg0.N) (p : PSt F c) (h1 : cond1 (grid0.coords t)) :
    (stepAt m c t p).v = put1 (grid0.coords t) h1 hbV p.v (iblk m c 8 t) := by
  unfold stepAt
  rw [dif_pos h1]
  by_cases h0 : cond0 (grid0.coords t)
  · rw [dif_pos h0]
    show put1 (grid0.coords t) h1 hbV p.v (k0_pay16 (iblk m c 8 t)) = _
    rw [pay16_eq]
  · rw [dif_neg h0]
    show put1 (grid0.coords t) h1 hbV p.v (k0_pay16 (iblk m c 8 t)) = _
    rw [pay16_eq]

/-- The new rows' point fills the tail slot of the keys' result with the new key rows. -/
theorem stepAt_k_last (c : Dev nD) (t : Fin cfg0.N) (p : PSt F c) (h1 : ¬ cond1 (grid0.coords t)) (h2 : cond2 (grid0.coords t)) :
    (stepAt m c t p).k = put2 (grid0.coords t) h2 hbK p.k p.scr.kn := by
  unfold stepAt
  rw [dif_neg h1, dif_pos h2]

/-- The new rows' point fills the tail slot of the values' result with the new value rows. -/
theorem stepAt_v_last (c : Dev nD) (t : Fin cfg0.N) (p : PSt F c) (h1 : ¬ cond1 (grid0.coords t)) (h2 : cond2 (grid0.coords t)) :
    (stepAt m c t p).v = put2 (grid0.coords t) h2 hbV p.v p.scr.vn := by
  unfold stepAt
  rw [dif_neg h1, dif_pos h2]

/-! ## The five points of the batch that starts at point n -/

/-- After the batch's first tile. -/
def S0 (c : Dev nD) (n : ℕ) (h : n + 4 < cfg0.N) : Scr F := firstAt m c ⟨n, by omega⟩
/-- After its second tile. -/
def S1 (c : Dev nD) (n : ℕ) (h : n + 4 < cfg0.N) : Scr F :=
  stepTile (S0 m c n h) (iblk m c 7 ⟨n + 1, by omega⟩) (iblk m c 8 ⟨n + 1, by omega⟩)
/-- After its third tile. -/
def S2 (c : Dev nD) (n : ℕ) (h : n + 4 < cfg0.N) : Scr F :=
  stepTile (S1 m c n h) (iblk m c 7 ⟨n + 2, by omega⟩) (iblk m c 8 ⟨n + 2, by omega⟩)
/-- After its fourth tile. -/
def S3 (c : Dev nD) (n : ℕ) (h : n + 4 < cfg0.N) : Scr F :=
  stepTile (S2 m c n h) (iblk m c 7 ⟨n + 3, by omega⟩) (iblk m c 8 ⟨n + 3, by omega⟩)

theorem scr_S0 (c : Dev nD) (n : ℕ) (h : n + 4 < cfg0.N) (h0 : n % 5 = 0) (h' : n + 1 ≤ cfg0.N) :
    (stAt m c (n + 1) h').scr = S0 m c n h :=
  stepAt_scr_first m c ⟨n, h'⟩ _ h0

theorem scr_S1 (c : Dev nD) (n : ℕ) (h : n + 4 < cfg0.N) (h0 : n % 5 = 0) (h' : n + 1 + 1 ≤ cfg0.N) :
    (stAt m c (n + 1 + 1) h').scr = S1 m c n h :=
  (stepAt_scr_tile m c ⟨n + 1, h'⟩ _ (by show ¬ (n + 1) % 5 = 0; omega) (by show ¬ (n + 1) % 5 = 4; omega)).trans
    (congrArg (fun s => stepTile s (iblk m c 7 ⟨n + 1, h'⟩) (iblk m c 8 ⟨n + 1, h'⟩)) (scr_S0 m c n h h0 (Nat.le_of_lt h')))

theorem scr_S2 (c : Dev nD) (n : ℕ) (h : n + 4 < cfg0.N) (h0 : n % 5 = 0) (h' : n + 2 + 1 ≤ cfg0.N) :
    (stAt m c (n + 2 + 1) h').scr = S2 m c n h :=
  (stepAt_scr_tile m c ⟨n + 2, h'⟩ _ (by show ¬ (n + 2) % 5 = 0; omega) (by show ¬ (n + 2) % 5 = 4; omega)).trans
    (congrArg (fun s => stepTile s (iblk m c 7 ⟨n + 2, h'⟩) (iblk m c 8 ⟨n + 2, h'⟩)) (scr_S1 m c n h h0 (Nat.le_of_lt h')))

theorem scr_S3 (c : Dev nD) (n : ℕ) (h : n + 4 < cfg0.N) (h0 : n % 5 = 0) (h' : n + 3 + 1 ≤ cfg0.N) :
    (stAt m c (n + 3 + 1) h').scr = S3 m c n h :=
  (stepAt_scr_tile m c ⟨n + 3, h'⟩ _ (by show ¬ (n + 3) % 5 = 0; omega) (by show ¬ (n + 3) % 5 = 4; omega)).trans
    (congrArg (fun s => stepTile s (iblk m c 7 ⟨n + 3, h'⟩) (iblk m c 8 ⟨n + 3, h'⟩)) (scr_S2 m c n h h0 (Nat.le_of_lt h')))

theorem scr_end (c : Dev nD) (n : ℕ) (h : n + 4 < cfg0.N) (h0 : n % 5 = 0) (h' : n + 4 + 1 ≤ cfg0.N) :
    (stAt m c (n + 4 + 1) h').scr = stepLast (S3 m c n h) :=
  (stepAt_scr_last m c ⟨n + 4, h'⟩ _ (by show (n + 4) % 5 = 4; omega)).trans
    (congrArg stepLast (scr_S3 m c n h h0 (Nat.le_of_lt h')))

/-- The output block the batch's last point forms. -/
theorem outAt_eq (c : Dev nD) (n : ℕ) (h : n + 4 < cfg0.N) (h0 : n % 5 = 0) :
    outAt m c ⟨n + 4, h⟩ = outBlock (S3 m c n h) :=
  congrArg outBlock (scr_S3 m c n h h0 (Nat.le_of_lt h))

/-- Folding a cache tile in leaves the new key rows kept in scratch as they were. -/
theorem stepTile_kn (st : Scr F) (kc vc : FVec F S1x1024x1024 .f32) : (stepTile st kc vc).kn = st.kn := rfl
/-- And the new value rows. -/
theorem stepTile_vn (st : Scr F) (kc vc : FVec F S1x1024x1024 .f32) : (stepTile st kc vc).vn = st.vn := rfl

/-- The new key rows kept in scratch do not change after the batch's first tile. -/
theorem S3_kn (c : Dev nD) (n : ℕ) (h : n + 4 < cfg0.N) : (S3 m c n h).kn = (S0 m c n h).kn := by
  unfold S3 S2 S1
  rw [stepTile_kn, stepTile_kn, stepTile_kn]
/-- Nor do the new value rows. -/
theorem S3_vn (c : Dev nD) (n : ℕ) (h : n + 4 < cfg0.N) : (S3 m c n h).vn = (S0 m c n h).vn := by
  unfold S3 S2 S1
  rw [stepTile_vn, stepTile_vn, stepTile_vn]

end Cert.KernelIdeal.FX

end
-- ==== Proof.VPut.lean ====
/-
  A result array after one of the body's own transfers has filled a slot, read at an index.

  Point t fills, in each of the two result arrays, the rows (t mod 5) · 1024 … (t mod 5) · 1024 + 1023 of batch t / 5
  when it is a cache tile, and the rows 4096 … 4111 of batch t / 5 when it is the tile of the new rows.  Inside the
  slot the array holds the payload at the coordinate less the slot's offset; outside it holds what it held.
-/
import proofs.«147685_j44616120271538_2_alg».proof.Proof.VBlocks

noncomputable section

namespace Cert.KernelIdeal.FX

open Cert.KernelIdeal Cert.KernelIdeal.Gen Cert.KernelIdeal.KState
open Idealize.ShloMosaic Idealize.ShloMosaic.TcCoe Idealize.ShloMosaic.ValueIdx
open Idealize.SL Idealize.SL.Sem
open Idealize.ShloMosaic.StableHlo

variable {F : FTy → Type} [FloatOps F]
variable (m : (ℓ : Loc nD τ sig) → Buf (Elt F) ℓ)

/-- A cache tile's slot starts at (t / 5, (t mod 5) · 1024, 0). -/
theorem off1_facts : ∀ t : Fin cfg0.N, k0_off1 (grid0.coords t) (0 : Fin 3) = t.val / 5
    ∧ k0_off1 (grid0.coords t) (1 : Fin 3) = t.val % 5 * 1024 ∧ k0_off1 (grid0.coords t) (2 : Fin 3) = 0 :=
  (by decide +kernel : ∀ t : Fin grid0.N, _)

/-- The new rows' slot starts at (t / 5, 4096, 0). -/
theorem off2_facts : ∀ t : Fin cfg0.N, k0_off2 (grid0.coords t) (0 : Fin 3) = t.val / 5
    ∧ k0_off2 (grid0.coords t) (1 : Fin 3) = 4096 ∧ k0_off2 (grid0.coords t) (2 : Fin 3) = 0 :=
  (by decide +kernel : ∀ t : Fin grid0.N, _)

/-- Filling a cache tile's slot of the keys' result: inside the slot the array holds the tile. -/
theorem put1K_hit (c : Dev nD) (t : Fin cfg0.N) (h : cond1 (grid0.coords t)) (f : HbBuf (F := F) c hbK) (P : Vec F S1x1024x1024 .f32)
    (b : Fin 32) (r : Fin 4112) (d : Fin 1024) (u : Fin 1024) (hb : b.val = t.val / 5) (hr : r.val = t.val % 5 * 1024 + u.val) :
    (put1 (grid0.coords t) h hbK f P : S32x4112x1024.Idx → Elt F .f32) (ix3 b r d) = P (ix3 0 u d) := by
  obtain ⟨e0, e1, e2⟩ := off1_facts t
  have hemb : (slot1 (grid0.coords t) h hbK).view.emb (ix3 0 u d) = ix3 b r d := by
    funext a; refine Fin.ext ?_
    match a with
    | ⟨0, _⟩ => show k0_off1 (grid0.coords t) (0 : Fin 3) + 1 * 0 = b.val; omega
    | ⟨1, _⟩ => show k0_off1 (grid0.coords t) (1 : Fin 3) + 1 * u.val = r.val; omega
    | ⟨2, _⟩ => show k0_off1 (grid0.coords t) (2 : Fin 3) + 1 * d.val = d.val; omega
  unfold put1
  rw [← hemb]
  exact (View.write_emb_of_mem _ _ (Finset.mem_univ _)).trans (cast_eq _ _)

/-- Outside the slot the array holds what it held. -/
theorem put1K_miss (c : Dev nD) (t : Fin cfg0.N) (h : cond1 (grid0.coords t)) (f : HbBuf (F := F) c hbK) (P : Vec F S1x1024x1024 .f32)
    (b : Fin 32) (r : Fin 4112) (d : Fin 1024)
    (hmiss : ¬ (b.val = t.val / 5 ∧ t.val % 5 * 1024 ≤ r.val ∧ r.val < t.val % 5 * 1024 + 1024)) :
    (put1 (grid0.coords t) h hbK f P : S32x4112x1024.Idx → Elt F .f32) (ix3 b r d) = (f : S32x4112x1024.Idx → Elt F .f32) (ix3 b r d) := by
  obtain ⟨e0, e1, e2⟩ := off1_facts t
  unfold put1
  refine View.write_of_not_mem _ _ _ ?_
  rw [View.setOn_univ]
  show ix3 b r d ∉ ((View.whole main_v3_1).slice (Rect.unit (s := S32x4112x1024) (k0_off1 (grid0.coords t)) S1x1024x1024.size (k0_off1_inb (grid0.coords t) h))).set
  rw [View.set_slice_whole, Rect.mem_set_unit]
  intro hmem
  have h0 : k0_off1 (grid0.coords t) (0 : Fin 3) ≤ b.val ∧ b.val < k0_off1 (grid0.coords t) (0 : Fin 3) + 1 := hmem 0
  have h1 : k0_off1 (grid0.coords t) (1 : Fin 3) ≤ r.val ∧ r.val < k0_off1 (grid0.coords t) (1 : Fin 3) + 1024 := hmem 1
  exact hmiss (by omega)

/-- Filling the new rows' slot of the keys' result: inside the slot the array holds the new rows. -/
theorem put2K_hit (c : Dev nD) (t : Fin cfg0.N) (h : cond2 (grid0.coords t)) (f : HbBuf (F := F) c hbK) (P : Vec F S1x16x1024 .f32)
    (b : Fin 32) (r : Fin 4112) (d : Fin 1024) (u : Fin 16) (hb : b.val = t.val / 5) (hr : r.val = 4096 + u.val) :
    (put2 (grid0.coords t) h hbK f P : S32x4112x1024.Idx → Elt F .f32) (ix3 b r d) = P (ix3 0 u d) := by
  obtain ⟨e0, e1, e2⟩ := off2_facts t
  have hemb : (slot2 (grid0.coords t) h hbK).view.emb (ix3 0 u d) = ix3 b r d := by
    funext a; refine Fin.ext ?_
    match a with
    | ⟨0, _⟩ => show k0_off2 (grid0.coords t) (0 : Fin 3) + 1 * 0 = b.val; omega
    | ⟨1, _⟩ => show k0_off2 (grid0.coords t) (1 : Fin 3) + 1 * u.val = r.val; omega
    | ⟨2, _⟩ => show k0_off2 (grid0.coords t) (2 : Fin 3) + 1 * d.val = d.val; omega
  unfold put2
  rw [← hemb]
  exact (View.write_emb_of_mem _ _ (Finset.mem_univ _)).trans (cast_eq _ _)

/-- Outside the slot the array holds what it held. -/
theorem put2K_miss (c : Dev nD) (t : Fin cfg0.N) (h : cond2 (grid0.coords t)) (f : HbBuf (F := F) c hbK) (P : Vec F S1x16x1024 .f32)
    (b : Fin 32) (r : Fin 4112) (d : Fin 1024) (hmiss : ¬ (b.val = t.val / 5 ∧ 4096 ≤ r.val)) :
    (put2 (grid0.coords t) h hbK f P : S32x4112x1024.Idx → Elt F .f32) (ix3 b r d) = (f : S32x4112x1024.Idx → Elt F .f32) (ix3 b r d) := by
  obtain ⟨e0, e1, e2⟩ := off2_facts t
  unfold put2
  refine View.write_of_not_mem _ _ _ ?_
  rw [View.setOn_univ]
  show ix3 b r d ∉ ((View.whole main_v3_1).slice (Rect.unit (s := S32x4112x1024) (k0_off2 (grid0.coords t)) S1x16x1024.size (k0_off2_inb (grid0.coords t) h))).set
  rw [View.set_slice_whole, Rect.mem_set_unit]
  intro hmem
  have h0 : k0_off2 (grid0.coords t) (0 : Fin 3) ≤ b.val ∧ b.val < k0_off2 (grid0.coords t) (0 : Fin 3) + 1 := hmem 0
  have h1 : k0_off2 (grid0.coords t) (1 : Fin 3) ≤ r.val ∧ r.val < k0_off2 (grid0.coords t) (1 : Fin 3) + 16 := hmem 1
  exact hmiss (by omega)

/-- Filling a cache tile's slot of the values' result: inside the slot the array holds the tile. -/
theorem put1V_hit (c : Dev nD) (t : Fin cfg0.N) (h : cond1 (grid0.coords t)) (f : HbBuf (F := F) c hbV) (P : Vec F S1x1024x1024 .f32)
    (b : Fin 32) (r : Fin 4112) (d : Fin 1024) (u : Fin 1024) (hb : b.val = t.val / 5) (hr : r.val = t.val % 5 * 1024 + u.val) :
    (put1 (grid0.coords t) h hbV f P : S32x4112x1024.Idx → Elt F .f32) (ix3 b r d) = P (ix3 0 u d) := by
  obtain ⟨e0, e1, e2⟩ := off1_facts t
  have hemb : (slot1 (grid0.coords t) h hbV).view.emb (ix3 0 u d) = ix3 b r d := by
    funext a; refine Fin.ext ?_
    match a with
    | ⟨0, _⟩ => show k0_off1 (grid0.coords t) (0 : Fin 3) + 1 * 0 = b.val; omega
    | ⟨1, _⟩ => show k0_off1 (grid0.coords t) (1 : Fin 3) + 1 * u.val = r.val; omega
    | ⟨2, _⟩ => show k0_off1 (grid0.coords t) (2 : Fin 3) + 1 * d.val = d.val; omega
  unfold put1
  rw [← hemb]
  exact (View.write_emb_of_mem _ _ (Finset.mem_univ _)).trans (cast_eq _ _)

/-- Outside the slot the array holds what it held. -/
theorem put1V_miss (c : Dev nD) (t : Fin cfg0.N) (h : cond1 (grid0.coords t)) (f : HbBuf (F := F) c hbV) (P : Vec F S1x1024x1024 .f32)
    (b : Fin 32) (r : Fin 4112) (d : Fin 1024)
    (hmiss : ¬ (b.val = t.val / 5 ∧ t.val % 5 * 1024 ≤ r.val ∧ r.val < t.val % 5 * 1024 + 1024)) :
    (put1 (grid0.coords t) h hbV f P : S32x4112x1024.Idx → Elt F .f32) (ix3 b r d) = (f : S32x4112x1024.Idx → Elt F .f32) (ix3 b r d) := by
  obtain ⟨e0, e1, e2⟩ := off1_facts t
  unfold put1
  refine View.write_of_not_mem _ _ _ ?_
  rw [View.setOn_univ]
  show ix3 b r d ∉ ((View.whole main_v3_2).slice (Rect.unit (s := S32x4112x1024) (k0_off1 (grid0.coords t)) S1x1024x1024.size (k0_off1_inb (grid0.coords t) h))).set
  rw [View.set_slice_whole, Rect.mem_set_unit]
  intro hmem
  have h0 : k0_off1 (grid0.coords t) (0 : Fin 3) ≤ b.val ∧ b.val < k0_off1 (grid0.coords t) (0 : Fin 3) + 1 := hmem 0
  have h1 : k0_off1 (grid0.coords t) (1 : Fin 3) ≤ r.val ∧ r.val < k0_off1 (grid0.coords t) (1 : Fin 3) + 1024 := hmem 1
  exact hmiss (by omega)

/-- Filling the new rows' slot of the values' result: inside the slot the array holds the new rows. -/
theorem put2V_hit (c : Dev nD) (t : Fin cfg0.N) (h : cond2 (grid0.coords t)) (f : HbBuf (F := F) c hbV) (P : Vec F S1x16x1024 .f32)
    (b : Fin 32) (r : Fin 4112) (d : Fin 1024) (u : Fin 16) (hb : b.val = t.val / 5) (hr : r.val = 4096 + u.val) :
    (put2 (grid0.coords t) h hbV f P : S32x4112x1024.Idx → Elt F .f32) (ix3 b r d) = P (ix3 0 u d) := by
  obtain ⟨e0, e1, e2⟩ := off2_facts t
  have hemb : (slot2 (grid0.coords t) h hbV).view.emb (ix3 0 u d) = ix3 b r d := by
    funext a; refine Fin.ext ?_
    match a with
    | ⟨0, _⟩ => show k0_off2 (grid0.coords t) (0 : Fin 3) + 1 * 0 = b.val; omega
    | ⟨1, _⟩ => show k0_off2 (grid0.coords t) (1 : Fin 3) + 1 * u.val = r.val; omega
    | ⟨2, _⟩ => show k0_off2 (grid0.coords t) (2 : Fin 3) + 1 * d.val = d.val; omega
  unfold put2
  rw [← hemb]
  exact (View.write_emb_of_mem _ _ (Finset.mem_univ _)).trans (cast_eq _ _)

/-- Outside the slot the array holds what it held. -/
theorem put2V_miss (c : Dev nD) (t : Fin cfg0.N) (h : cond2 (grid0.coords t)) (f : HbBuf (F := F) c hbV) (P : Vec F S1x16x1024 .f32)
    (b : Fin 32) (r : Fin 4112) (d : Fin 1024) (hmiss : ¬ (b.val = t.val / 5 ∧ 4096 ≤ r.val)) :
    (put2 (grid0.coords t) h hbV f P : S32x4112x1024.Idx → Elt F .f32) (ix3 b r d) = (f : S32x4112x1024.Idx → Elt F .f32) (ix3 b r d) := by
  obtain ⟨e0, e1, e2⟩ := off2_facts t
  unfold put2
  refine View.write_of_not_mem _ _ _ ?_
  rw [View.setOn_univ]
  show ix3 b r d ∉ ((View.whole main_v3_2).slice (Rect.unit (s := S32x4112x1024) (k0_off2 (grid0.coords t)) S1x16x1024.size (k0_off2_inb (grid0.coords t) h))).set
  rw [View.set_slice_whole, Rect.mem_set_unit]
  intro hmem
  have h0 : k0_off2 (grid0.coords t) (0 : Fin 3) ≤ b.val ∧ b.val < k0_off2 (grid0.coords t) (0 : Fin 3) + 1 := hmem 0
  have h1 : k0_off2 (grid0.coords t) (1 : Fin 3) ≤ r.val ∧ r.val < k0_off2 (grid0.coords t) (1 : Fin 3) + 16 := hmem 1
  exact hmiss (by omega)

end Cert.KernelIdeal.FX

end
-- ==== Proof.VFinal.lean ====
/-
  The two result arrays after the last point.

  Row r of batch b of a result array is filled exactly once, by point 5 b + r / 1024: rows below 4096 by the cache
  tile's point, which passes the cache's own rows through, and rows 4096 … 4111 by the point of the new rows, which
  copies the new rows the batch's first tile projected.  By induction on the point, the array before point n holds
  at (b, r, d) the final value if that point is before n and what the region found otherwise.
-/
import proofs.«147685_j44616120271538_2_alg».proof.Proof.VBatch
import proofs.«147685_j44616120271538_2_alg».proof.Proof.VPut

noncomputable section

namespace Cert.KernelIdeal.FX

open Cert.KernelIdeal Cert.KernelIdeal.Gen Cert.KernelIdeal.KState
open Idealize.ShloMosaic Idealize.ShloMosaic.TcCoe Idealize.ShloMosaic.ValueIdx
open Idealize.SL Idealize.SL.Sem
open Idealize.ShloMosaic.StableHlo

variable {F : FTy → Type} [FloatOps F]
variable (m : (ℓ : Loc nD τ sig) → Buf (Elt F) ℓ)

/-- Batch b's five points are points of the grid. -/
theorem batch_lt (b : Fin 32) : 5 * b.val + 4 < cfg0.N := by
  have := b.isLt
  show 5 * b.val + 4 < grid0.N
  rw [N_0]; omega

/-- What the keys' result ends holding at row r of batch b: the cache's row below 4096, the batch's new row past it. -/
def kT (c : Dev nD) (b : Fin 32) (r : Fin 4112) (d : Fin 1024) : Elt F .f32 :=
  if h : r.val < 4096 then (V m c main_arg1 : S32x4096x1024.Idx → Elt F .f32) (ix3 b ⟨r.val, h⟩ d)
  else ((S0 m c (5 * b.val) (batch_lt b)).kn : S1x16x1024.Idx → Elt F .f32)
    (ix3 0 (⟨r.val % 1024, by have := r.isLt; omega⟩ : Fin 16) d)

/-- The keys' result before point n: row r of batch b is filled by point 5 b + r / 1024, and holds what the region found until then. -/
theorem k_at (c : Dev nD) (n : ℕ) (h : n ≤ cfg0.N) (b : Fin 32) (r : Fin 4112) (d : Fin 1024) :
    ((stAt m c n h).k : S32x4112x1024.Idx → Elt F .f32) (ix3 b r d)
      = if 5 * b.val + r.val / 1024 < n then kT m c b r d else (V m c main_v3_1 : S32x4112x1024.Idx → Elt F .f32) (ix3 b r d) := by
  induction n generalizing b r d with
  | zero => rw [if_neg (Nat.not_lt_zero _)]; rfl
  | succ n ih =>
    have hr := r.isLt
    have hb := b.isLt
    have hprev := ih (Nat.le_of_lt h) b r d
    rw [stAt_succ]
    by_cases h4 : n % 5 = 4
    · have h1 : ¬ cond1 (grid0.coords ⟨n, h⟩) := fun hc => (hcond1 ⟨n, h⟩).mp hc h4
      have h2 : cond2 (grid0.coords ⟨n, h⟩) := (hcond2 ⟨n, h⟩).mpr h4
      rw [stepAt_k_last m c ⟨n, h⟩ _ h1 h2]
      by_cases hit : b.val = n / 5 ∧ 4096 ≤ r.val
      · have hn : n = 5 * b.val + 3 + 1 := by omega
        subst hn
        refine (put2K_hit c ⟨5 * b.val + 3 + 1, h⟩ h2 _ _ b r d (⟨r.val % 1024, by omega⟩ : Fin 16) hit.1
          (by show r.val = 4096 + r.val % 1024; omega)).trans ?_
        rw [if_pos (by omega)]
        unfold kT
        rw [dif_neg (by omega), scr_S3 m c (5 * b.val) (batch_lt b) (by omega), S3_kn]
      · refine (put2K_miss c ⟨n, h⟩ h2 _ _ b r d hit).trans ?_
        rw [hprev]
        by_cases hlt : 5 * b.val + r.val / 1024 < n
        · rw [if_pos hlt, if_pos (by omega)]
        · rw [if_neg hlt, if_neg (by omega)]
    · have h1 : cond1 (grid0.coords ⟨n, h⟩) := (hcond1 ⟨n, h⟩).mpr h4
      rw [stepAt_k_tile m c ⟨n, h⟩ _ h1]
      by_cases hit : b.val = n / 5 ∧ n % 5 * 1024 ≤ r.val ∧ r.val < n % 5 * 1024 + 1024
      · have hr4 : r.val < 4096 := by omega
        refine (put1K_hit c ⟨n, h⟩ h1 _ _ b r d (⟨r.val % 1024, Nat.mod_lt _ (by decide)⟩ : Fin 1024) hit.1
          (by show r.val = n % 5 * 1024 + r.val % 1024; omega)).trans ?_
        rw [if_pos (by omega)]
        unfold kT
        rw [dif_pos hr4]
        exact iblk7_apply m c ⟨n, h⟩ b hit.1 (⟨r.val % 1024, Nat.mod_lt _ (by decide)⟩ : Fin 1024) d ⟨r.val, hr4⟩
          (by show r.val = min (n % 5) 3 * 1024 + r.val % 1024; rw [Nat.min_eq_left (by omega)]; omega)
      · refine (put1K_miss c ⟨n, h⟩ h1 _ _ b r d hit).trans ?_
        rw [hprev]
        by_cases hlt : 5 * b.val + r.val / 1024 < n
        · rw [if_pos hlt, if_pos (by omega)]
        · rw [if_neg hlt, if_neg (by omega)]

/-- After the last point, a row below 4096 of the keys' result is the cache's row as launched. -/
theorem k_final_cache (c : Dev nD) (b : Fin 32) (r : Fin 4112) (d : Fin 1024) (hr : r.val < 4096) :
    ((stAt m c cfg0.N le_rfl).k : S32x4112x1024.Idx → Elt F .f32) (ix3 b r d)
      = (m ((c : Thread nD τ).loc main_arg1) : S32x4096x1024.Idx → Elt F .f32) (ix3 b ⟨r.val, hr⟩ d) := by
  rw [k_at, if_pos (by have := b.isLt; show _ < grid0.N; rw [N_0]; omega)]
  unfold kT
  rw [dif_pos hr, V_main_arg1]

/-- After the last point, row 4096 + u of the keys' result is the batch's new row u. -/
theorem k_final_new (c : Dev nD) (b : Fin 32) (r : Fin 4112) (d : Fin 1024) (u : Fin 16) (hr : r.val = 4096 + u.val) :
    ((stAt m c cfg0.N le_rfl).k : S32x4112x1024.Idx → Elt F .f32) (ix3 b r d)
      = ((S0 m c (5 * b.val) (batch_lt b)).kn : S1x16x1024.Idx → Elt F .f32) (ix3 0 u d) := by
  rw [k_at, if_pos (by have := b.isLt; have := r.isLt; show _ < grid0.N; rw [N_0]; omega)]
  unfold kT
  rw [dif_neg (by omega)]
  exact congrArg (fun q : Fin 16 => ((S0 m c (5 * b.val) (batch_lt b)).kn : S1x16x1024.Idx → Elt F .f32) (ix3 0 q d))
    (Fin.ext (by show r.val % 1024 = u.val; have := u.isLt; omega))

/-- What the values' result ends holding at row r of batch b: the cache's row below 4096, the batch's new row past it. -/
def vT (c : Dev nD) (b : Fin 32) (r : Fin 4112) (d : Fin 1024) : Elt F .f32 :=
  if h : r.val < 4096 then (V m c main_arg2 : S32x4096x1024.Idx → Elt F .f32) (ix3 b ⟨r.val, h⟩ d)
  else ((S0 m c (5 * b.val) (batch_lt b)).vn : S1x16x1024.Idx → Elt F .f32)
    (ix3 0 (⟨r.val % 1024, by have := r.isLt; omega⟩ : Fin 16) d)

/-- The values' result before point n: row r of batch b is filled by point 5 b + r / 1024, and holds what the region found until then. -/
theorem v_at (c : Dev nD) (n : ℕ) (h : n ≤ cfg0.N) (b : Fin 32) (r : Fin 4112) (d : Fin 1024) :
    ((stAt m c n h).v : S32x4112x1024.Idx → Elt F .f32) (ix3 b r d)
      = if 5 * b.val + r.val / 1024 < n then vT m c b r d else (V m c main_v3_2 : S32x4112x1024.Idx → Elt F .f32) (ix3 b r d) := by
  induction n generalizing b r d with
  | zero => rw [if_neg (Nat.not_lt_zero _)]; rfl
  | succ n ih =>
    have hr := r.isLt
    have hb := b.isLt
    have hprev := ih (Nat.le_of_lt h) b r d
    rw [stAt_succ]
    by_cases h4 : n % 5 = 4
    · have h1 : ¬ cond1 (grid0.coords ⟨n, h⟩) := fun hc => (hcond1 ⟨n, h⟩).mp hc h4
      have h2 : cond2 (grid0.coords ⟨n, h⟩) := (hcond2 ⟨n, h⟩).mpr h4
      rw [stepAt_v_last m c ⟨n, h⟩ _ h1 h2]
      by_cases hit : b.val = n / 5 ∧ 4096 ≤ r.val
      · have hn : n = 5 * b.val + 3 + 1 := by omega
        subst hn
        refine (put2V_hit c ⟨5 * b.val + 3 + 1, h⟩ h2 _ _ b r d (⟨r.val % 1024, by omega⟩ : Fin 16) hit.1
          (by show r.val = 4096 + r.val % 1024; omega)).trans ?_
        rw [if_pos (by omega)]
        unfold vT
        rw [dif_neg (by omega), scr_S3 m c (5 * b.val) (batch_lt b) (by omega), S3_vn]
      · refine (put2V_miss c ⟨n, h⟩ h2 _ _ b r d hit).trans ?_
        rw [hprev]
        by_cases hlt : 5 * b.val + r.val / 1024 < n
        · rw [if_pos hlt, if_pos (by omega)]
        · rw [if_neg hlt, if_neg (by omega)]
    · have h1 : cond1 (grid0.coords ⟨n, h⟩) := (hcond1 ⟨n, h⟩).mpr h4
      rw [stepAt_v_tile m c ⟨n, h⟩ _ h1]
      by_cases hit : b.val = n / 5 ∧ n % 5 * 1024 ≤ r.val ∧ r.val < n % 5 * 1024 + 1024
      · have hr4 : r.val < 4096 := by omega
        refine (put1V_hit c ⟨n, h⟩ h1 _ _ b r d (⟨r.val % 1024, Nat.mod_lt _ (by decide)⟩ : Fin 1024) hit.1
          (by show r.val = n % 5 * 1024 + r.val % 1024; omega)).trans ?_
        rw [if_pos (by omega)]
        unfold vT
        rw [dif_pos hr4]
        exact iblk8_apply m c ⟨n, h⟩ b hit.1 (⟨r.val % 1024, Nat.mod_lt _ (by decide)⟩ : Fin 1024) d ⟨r.val, hr4⟩
          (by show r.val = min (n % 5) 3 * 1024 + r.val % 1024; rw [Nat.min_eq_left (by omega)]; omega)
      · refine (put1V_miss c ⟨n, h⟩ h1 _ _ b r d hit).trans ?_
        rw [hprev]
        by_cases hlt : 5 * b.val + r.val / 1024 < n
        · rw [if_pos hlt, if_pos (by omega)]
        · rw [if_neg hlt, if_neg (by omega)]

/-- After the last point, a row below 4096 of the values' result is the cache's row as launched. -/
theorem v_final_cache (c : Dev nD) (b : Fin 32) (r : Fin 4112) (d : Fin 1024) (hr : r.val < 4096) :
    ((stAt m c cfg0.N le_rfl).v : S32x4112x1024.Idx → Elt F .f32) (ix3 b r d)
      = (m ((c : Thread nD τ).loc main_arg2) : S32x4096x1024.Idx → Elt F .f32) (ix3 b ⟨r.val, hr⟩ d) := by
  rw [v_at, if_pos (by have := b.isLt; show _ < grid0.N; rw [N_0]; omega)]
  unfold vT
  rw [dif_pos hr, V_main_arg2]

/-- After the last point, row 4096 + u of the values' result is the batch's new row u. -/
theorem v_final_new (c : Dev nD) (b : Fin 32) (r : Fin 4112) (d : Fin 1024) (u : Fin 16) (hr : r.val = 4096 + u.val) :
    ((stAt m c cfg0.N le_rfl).v : S32x4112x1024.Idx → Elt F .f32) (ix3 b r d)
      = ((S0 m c (5 * b.val) (batch_lt b)).vn : S1x16x1024.Idx → Elt F .f32) (ix3 0 u d) := by
  rw [v_at, if_pos (by have := b.isLt; have := r.isLt; show _ < grid0.N; rw [N_0]; omega)]
  unfold vT
  rw [dif_neg (by omega)]
  exact congrArg (fun q : Fin 16 => ((S0 m c (5 * b.val) (batch_lt b)).vn : S1x16x1024.Idx → Elt F .f32) (ix3 0 q d))
    (Fin.ext (by show r.val % 1024 = u.val; have := u.isLt; omega))

end Cert.KernelIdeal.FX

end
-- ==== Proof.KBlocks.lean ====
/-
  The blocks of the inputs that one batch's grid points read, and the scratch contents after the first tile's reset
  and after the four cache tiles.

  Batch b reads rows (b, ·, ·) of x once, the three weight matrices and the biases (each bias as a one-row matrix),
  and, at tile kv < 4, the rows 1024·kv … 1024·kv + 1023 of batch b of the two caches.
-/
import proofs.«147685_j44616120271538_2_alg».proof.Proof.KState
import proofs.«147685_j44616120271538_2_alg».proof.Proof.Spec

noncomputable section

namespace Cert.KernelIdeal.KMath

open Idealize.ShloMosaic Idealize.ShloMosaic.ValueIdx Cert.KernelIdeal Cert.KernelIdeal.KState Cert.Attn

variable (x : A3 32 16 1024) (cK cV : A3 32 4096 1024) (Wq Wk Wv : A2 1024 1024) (bq bk bv : A1 1024) (b : Fin 32)

/-- Block (b, 0, 0) of x: the 16 rows of batch b. -/
def xBlk : FVec Ideal S1x16x1024 .f32 := fun y => x (ix3 b (y 1) (y 2))

/-- A bias laid out as a one-row matrix. -/
def bRow (v : A1 1024) : FVec Ideal S1x1024 .f32 := fun y => v (ix1 (y 1))

/-- Block (b, kv, 0) of a cache: the rows 1024·kv … 1024·kv + 1023 of batch b. -/
def tile (c : A3 32 4096 1024) (kv : Fin 4) : FVec Ideal S1x1024x1024 .f32 :=
  fun y => c (ix3 b ⟨kv.val * 1024 + (y 1).val, by
    have h1 : (y 1).val < 1024 := (y 1).isLt
    have h2 : kv.val < 4 := kv.isLt
    omega⟩ (y 2))

/-- The scratch contents after the reset at the first tile of batch b. -/
def st0 (j : Scr Ideal) : Scr Ideal := stepInit j (xBlk x b) Wq (bRow bq) Wk (bRow bk) Wv (bRow bv)

/-- The scratch contents after the four cache tiles of batch b. -/
def st4 (j : Scr Ideal) : Scr Ideal :=
  stepTile (stepTile (stepTile (stepTile (st0 x Wq Wk Wv bq bk bv b j) (tile b cK 0) (tile b cV 0))
    (tile b cK 1) (tile b cV 1)) (tile b cK 2) (tile b cV 2)) (tile b cK 3) (tile b cV 3)

end Cert.KernelIdeal.KMath

end
-- ==== Proof.LibOnlineSoftmax.lean ====
/-
  The online softmax: a running maximum, a running denominator and a running numerator, updated tile by tile,
  compute the same quotient as the two-pass softmax.

  Scores and values come in tiles of width B: tile t holds s t u and v t u for the positions u < B. Write
  m_t for the maximum of the scores of tile t, and  M n = max (m_0, …, m_(n-1))  for the maximum of the first n tiles
  (the empty maximum is −∞). The recurrence starts from (m, l, a) = (−∞, 0, 0) and, reading tile n, replaces it by

      m' = max (m, m_n),    l' = exp (m − m') · l + Σ_u exp (s n u − m'),    a' = exp (m − m') · a + Σ_u exp (s n u − m') · v n u.

  When the scores and values of the first n tiles are real numbers, after n tiles

      m = M n,     l = Σ_(t < n) Σ_u exp (s t u − M n),     a = Σ_(t < n) Σ_u exp (s t u − M n) · v t u,

  because exp (m − m') · exp (x − m) = exp (x − m') for real numbers, and because at the first tile the old maximum is −∞,
  exp (−∞ − m') = 0, and the old sums are 0. For n ≥ 1 the maximum M n is a real number, l is a positive real number and a is
  a real number, so the quotient a / l is the sum of the quotients exp (s t u − M n) / l times v t u: the softmax weights
  against the values. Read along one flat index j = u + B · t < T · B this is the two-pass softmax of the whole row.

  All arithmetic is that of the extended reals with exp (−∞) = 0; nothing is distributed or cancelled before the terms
  have been shown to be real numbers.
-/
import Idealize.ShloMosaic.PureOps.Ideal
import Mathlib.Logic.Equiv.Fin.Basic
import Mathlib.Algebra.BigOperators.Fin

noncomputable section

namespace Cert.LibOnlineSoftmax

open Idealize.ShloMosaic
open scoped BigOperators

/-! # The online softmax equals the two-pass softmax

For tiles of scores s t u and values v t u (tile t, position u < B), the recurrence
(m, l, a) ↦ (m', exp (m − m') · l + Σ_u exp (s n u − m'), exp (m − m') · a + Σ_u exp (s n u − m') · v n u) with
m' = max (m, max_u s n u), started at (−∞, 0, 0), reaches after n tiles of real numbers the maximum M n of all scores read,
the sum of exp (s t u − M n) and the sum of exp (s t u − M n) · v t u; for n ≥ 1 their quotient is the sum of the softmax
weights times the values, and along the flat index j = u + B · t it is the two-pass softmax of the whole row. -/

/-! ### Real numbers inside the extended reals -/

/-- The coercion of a finite sum of real numbers is the sum of the coercions. -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The exponential of a difference of two real numbers is the real exponential of the real difference. -/
theorem exp_coe_sub (x c : ℝ) :
    Ideal.exp ((x : EReal) - (c : EReal)) = ((Real.exp (x - c) : ℝ) : EReal) := by
  rw [← EReal.coe_sub]; rfl

/-- A finite nonempty supremum of real numbers is a real number. -/
theorem sup_isReal {ι : Type*} (S : Finset ι) (hS : S.Nonempty) (f : ι → EReal)
    (hf : ∀ i ∈ S, ∃ r : ℝ, f i = (r : EReal)) : ∃ r : ℝ, S.sup f = (r : EReal) := by
  obtain ⟨i, hi, h⟩ := Finset.exists_mem_eq_sup S hS f
  obtain ⟨r, hr⟩ := hf i hi
  exact ⟨r, h.trans hr⟩

/-! ### The recurrence -/

variable {B : ℕ}

/-- The running state of the online softmax: the maximum m seen so far, the denominator l and the numerator a,
    both scaled to that maximum. -/
@[ext] structure Acc where
  /-- the running maximum -/
  m : EReal
  /-- the running denominator, the sum of exp (score − m) -/
  l : EReal
  /-- the running numerator, the sum of exp (score − m) · value -/
  a : EReal

/-- The state after n tiles: start from (−∞, 0, 0); tile n raises the maximum to m' = max (m, maximum of tile n),
    scales both sums by α = exp (m − m') and adds the tile's terms exp (s n u − m') and exp (s n u − m') · v n u. -/
def state (s v : ℕ → Fin B → EReal) : ℕ → Acc
  | 0 => ⟨⊥, 0, 0⟩
  | n + 1 =>
    ⟨max (state s v n).m (Finset.univ.sup (s n)),
     Ideal.exp ((state s v n).m - max (state s v n).m (Finset.univ.sup (s n))) * (state s v n).l
       + ∑ u, Ideal.exp (s n u - max (state s v n).m (Finset.univ.sup (s n))),
     Ideal.exp ((state s v n).m - max (state s v n).m (Finset.univ.sup (s n))) * (state s v n).a
       + ∑ u, Ideal.exp (s n u - max (state s v n).m (Finset.univ.sup (s n))) * v n u⟩

/-- Before any tile the state is (−∞, 0, 0). -/
@[simp] theorem state_zero (s v : ℕ → Fin B → EReal) : state s v 0 = ⟨⊥, 0, 0⟩ := rfl

/-- One step of the recurrence, spelt with its two intermediate quantities m' and α. -/
theorem state_succ (s v : ℕ → Fin B → EReal) (n : ℕ) :
    state s v (n + 1) =
      (let m := (state s v n).m
       let l := (state s v n).l
       let a := (state s v n).a
       let m' := max m (Finset.univ.sup (s n))
       let α := Ideal.exp (m - m')
       ⟨m', α * l + ∑ u, Ideal.exp (s n u - m'), α * a + ∑ u, Ideal.exp (s n u - m') * v n u⟩) := rfl

/-- The new maximum: the larger of the old one and the maximum of the tile. -/
theorem state_succ_m (s v : ℕ → Fin B → EReal) (n : ℕ) :
    (state s v (n + 1)).m = max (state s v n).m (Finset.univ.sup (s n)) := rfl

/-- The new denominator: the old one scaled by exp (m − m'), plus the tile's terms exp (s n u − m'). -/
theorem state_succ_l (s v : ℕ → Fin B → EReal) (n : ℕ) :
    (state s v (n + 1)).l =
      Ideal.exp ((state s v n).m - (state s v (n + 1)).m) * (state s v n).l
        + ∑ u, Ideal.exp (s n u - (state s v (n + 1)).m) := rfl

/-- The new numerator: the old one scaled by exp (m − m'), plus the tile's terms exp (s n u − m') · v n u. -/
theorem state_succ_a (s v : ℕ → Fin B → EReal) (n : ℕ) :
    (state s v (n + 1)).a =
      Ideal.exp ((state s v n).m - (state s v (n + 1)).m) * (state s v n).a
        + ∑ u, Ideal.exp (s n u - (state s v (n + 1)).m) * v n u := rfl

/-! ### The maximum of the first n tiles -/

/-- M n: the maximum of the scores of the tiles before n (−∞ for no tile). -/
def M (s : ℕ → Fin B → EReal) (n : ℕ) : EReal := (Finset.range n).sup fun t => Finset.univ.sup (s t)

/-- M n written out. -/
theorem M_def (s : ℕ → Fin B → EReal) (n : ℕ) :
    M s n = (Finset.range n).sup fun t => Finset.univ.sup (s t) := rfl

/-- The maximum of no tile is −∞. -/
@[simp] theorem M_zero (s : ℕ → Fin B → EReal) : M s 0 = ⊥ := by
  rw [M, Finset.range_zero, Finset.sup_empty]

/-- One more tile: the maximum of the earlier tiles and of the new one. -/
theorem M_succ (s : ℕ → Fin B → EReal) (n : ℕ) :
    M s (n + 1) = max (M s n) (Finset.univ.sup (s n)) := by
  rw [M, Finset.range_add_one, Finset.sup_insert, max_comm]; rfl

/-- With at least one tile, a positive tile width and real scores, the maximum M n is a real number. -/
theorem M_isReal {s : ℕ → Fin B → EReal} {n : ℕ} (hB : 0 < B) (hn : 1 ≤ n)
    (hs : ∀ t < n, ∀ u, ∃ r : ℝ, s t u = (r : EReal)) : ∃ r : ℝ, M s n = (r : EReal) :=
  sup_isReal _ (Finset.nonempty_range_iff.mpr (by omega)) _ fun t ht =>
    sup_isReal _ ⟨⟨0, hB⟩, Finset.mem_univ _⟩ _ fun u _ => hs t (Finset.mem_range.mp ht) u

/-! ### The two sums as real numbers -/

/-- The sum of exp (s t u − c) over the first n tiles, for real scores and a real c, is the coercion of the real sum. -/
theorem den_coe {s : ℕ → Fin B → EReal} {n : ℕ} (hs : ∀ t < n, ∀ u, ∃ r : ℝ, s t u = (r : EReal)) (c : ℝ) :
    ∑ t ∈ Finset.range n, ∑ u, Ideal.exp (s t u - (c : EReal))
      = ((∑ t ∈ Finset.range n, ∑ u, Real.exp ((s t u).toReal - c) : ℝ) : EReal) := by
  rw [coe_finset_sum]
  refine Finset.sum_congr rfl fun t ht => ?_
  rw [coe_finset_sum]
  refine Finset.sum_congr rfl fun u _ => ?_
  obtain ⟨r, hr⟩ := hs t (Finset.mem_range.mp ht) u
  rw [hr, exp_coe_sub, EReal.toReal_coe]

/-- The sum of exp (s t u − c) · v t u over the first n tiles, for real scores and values and a real c, is the coercion of
    the real sum. -/
theorem num_coe {s v : ℕ → Fin B → EReal} {n : ℕ} (hs : ∀ t < n, ∀ u, ∃ r : ℝ, s t u = (r : EReal))
    (hv : ∀ t < n, ∀ u, ∃ r : ℝ, v t u = (r : EReal)) (c : ℝ) :
    ∑ t ∈ Finset.range n, ∑ u, Ideal.exp (s t u - (c : EReal)) * v t u
      = ((∑ t ∈ Finset.range n, ∑ u, Real.exp ((s t u).toReal - c) * (v t u).toReal : ℝ) : EReal) := by
  rw [coe_finset_sum]
  refine Finset.sum_congr rfl fun t ht => ?_
  rw [coe_finset_sum]
  refine Finset.sum_congr rfl fun u _ => ?_
  obtain ⟨r, hr⟩ := hs t (Finset.mem_range.mp ht) u
  obtain ⟨q, hq⟩ := hv t (Finset.mem_range.mp ht) u
  rw [hr, hq, exp_coe_sub, EReal.toReal_coe, EReal.toReal_coe, EReal.coe_mul]

/-- Moving the reference point of the denominator from c to d multiplies it by exp (c − d). -/
theorem rescale_den {s : ℕ → Fin B → EReal} {n : ℕ} (hs : ∀ t < n, ∀ u, ∃ r : ℝ, s t u = (r : EReal)) (c d : ℝ) :
    Ideal.exp ((c : EReal) - (d : EReal)) * ∑ t ∈ Finset.range n, ∑ u, Ideal.exp (s t u - (c : EReal))
      = ∑ t ∈ Finset.range n, ∑ u, Ideal.exp (s t u - (d : EReal)) := by
  rw [den_coe hs c, den_coe hs d, exp_coe_sub, ← EReal.coe_mul, EReal.coe_eq_coe_iff, Finset.mul_sum]
  refine Finset.sum_congr rfl fun t _ => ?_
  rw [Finset.mul_sum]
  refine Finset.sum_congr rfl fun u _ => ?_
  rw [← Real.exp_add]
  congr 1; ring

/-- Moving the reference point of the numerator from c to d multiplies it by exp (c − d). -/
theorem rescale_num {s v : ℕ → Fin B → EReal} {n : ℕ} (hs : ∀ t < n, ∀ u, ∃ r : ℝ, s t u = (r : EReal))
    (hv : ∀ t < n, ∀ u, ∃ r : ℝ, v t u = (r : EReal)) (c d : ℝ) :
    Ideal.exp ((c : EReal) - (d : EReal)) * ∑ t ∈ Finset.range n, ∑ u, Ideal.exp (s t u - (c : EReal)) * v t u
      = ∑ t ∈ Finset.range n, ∑ u, Ideal.exp (s t u - (d : EReal)) * v t u := by
  rw [num_coe hs hv c, num_coe hs hv d, exp_coe_sub, ← EReal.coe_mul, EReal.coe_eq_coe_iff, Finset.mul_sum]
  refine Finset.sum_congr rfl fun t _ => ?_
  rw [Finset.mul_sum]
  refine Finset.sum_congr rfl fun u _ => ?_
  rw [← mul_assoc, ← Real.exp_add]
  congr 2; ring

/-! ### The state after n tiles -/

/-- After n tiles whose scores and values are real numbers, the running maximum is M n and the two running sums are the
    sums over all n tiles taken against M n. (True for n = 0 as well: −∞, 0, 0.) -/
theorem state_eq {s v : ℕ → Fin B → EReal} (hB : 0 < B) :
    ∀ n : ℕ, (∀ t < n, ∀ u, ∃ r : ℝ, s t u = (r : EReal)) → (∀ t < n, ∀ u, ∃ r : ℝ, v t u = (r : EReal)) →
      state s v n = ⟨M s n, ∑ t ∈ Finset.range n, ∑ u, Ideal.exp (s t u - M s n),
                     ∑ t ∈ Finset.range n, ∑ u, Ideal.exp (s t u - M s n) * v t u⟩ := by
  intro n
  induction n with
  | zero => intro _ _; simp
  | succ n ih =>
    intro hs hv
    have hs' : ∀ t < n, ∀ u, ∃ r : ℝ, s t u = (r : EReal) := fun t ht => hs t (by omega)
    have hv' : ∀ t < n, ∀ u, ∃ r : ℝ, v t u = (r : EReal) := fun t ht => hv t (by omega)
    obtain ⟨m', hm'⟩ := M_isReal hB (n := n + 1) (by omega) hs
    have hmax : max (M s n) (Finset.univ.sup (s n)) = (m' : EReal) := by rw [← M_succ, hm']
    have hd : Ideal.exp (M s n - (m' : EReal)) * ∑ t ∈ Finset.range n, ∑ u, Ideal.exp (s t u - M s n)
        = ∑ t ∈ Finset.range n, ∑ u, Ideal.exp (s t u - (m' : EReal)) := by
      rcases Nat.eq_zero_or_pos n with rfl | hn
      · simp
      · obtain ⟨m, hm⟩ := M_isReal hB hn hs'
        rw [hm]; exact rescale_den hs' m m'
    have ha : Ideal.exp (M s n - (m' : EReal)) * ∑ t ∈ Finset.range n, ∑ u, Ideal.exp (s t u - M s n) * v t u
        = ∑ t ∈ Finset.range n, ∑ u, Ideal.exp (s t u - (m' : EReal)) * v t u := by
      rcases Nat.eq_zero_or_pos n with rfl | hn
      · simp
      · obtain ⟨m, hm⟩ := M_isReal hB hn hs'
        rw [hm]; exact rescale_num hs' hv' m m'
    rw [state_succ, ih hs' hv']
    dsimp only
    rw [hmax, hm', Finset.sum_range_succ, Finset.sum_range_succ, hd, ha]

/-- The running maximum after n ≥ 1 tiles is the maximum M n of all their scores, a real number. -/
theorem max_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    (state s v n).m = M s n ∧ ∃ r : ℝ, M s n = (r : EReal) :=
  ⟨by rw [state_eq hB n hs hv], M_isReal hB hn hs⟩

/-- The running denominator after n ≥ 1 tiles is the sum of exp (s t u − M n) over all their positions, a positive
    real number. -/
theorem den_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    (state s v n).l = ∑ t ∈ Finset.range n, ∑ u, Ideal.exp (s t u - M s n)
      ∧ ∃ r : ℝ, 0 < r ∧ (state s v n).l = (r : EReal) := by
  have h : (state s v n).l = ∑ t ∈ Finset.range n, ∑ u, Ideal.exp (s t u - M s n) := by rw [state_eq hB n hs hv]
  refine ⟨h, ?_⟩
  obtain ⟨m, hm⟩ := M_isReal hB hn hs
  refine ⟨_, ?_, by rw [h, hm]; exact den_coe hs m⟩
  exact Finset.sum_pos (fun t _ => Finset.sum_pos (fun u _ => Real.exp_pos _) ⟨⟨0, hB⟩, Finset.mem_univ _⟩)
    (Finset.nonempty_range_iff.mpr (by omega))

/-- The running numerator after n ≥ 1 tiles is the sum of exp (s t u − M n) · v t u over all their positions, a real
    number. -/
theorem num_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    (state s v n).a = ∑ t ∈ Finset.range n, ∑ u, Ideal.exp (s t u - M s n) * v t u
      ∧ ∃ r : ℝ, (state s v n).a = (r : EReal) := by
  have h : (state s v n).a = ∑ t ∈ Finset.range n, ∑ u, Ideal.exp (s t u - M s n) * v t u := by
    rw [state_eq hB n hs hv]
  obtain ⟨m, hm⟩ := M_isReal hB hn hs
  exact ⟨h, _, by rw [h, hm]; exact num_coe hs hv m⟩

/-! ### The quotient of the sums is the sum of the quotients -/

/-- Dividing a finite sum of products of real numbers by a nonzero real number divides the first factor of each term. -/
theorem div_sum {ι : Type*} (S : Finset ι) (a b : ι → EReal) (ha : ∀ i ∈ S, ∃ r : ℝ, a i = (r : EReal))
    (hb : ∀ i ∈ S, ∃ r : ℝ, b i = (r : EReal)) {L : ℝ} (hL : L ≠ 0) :
    Ideal.div (∑ i ∈ S, a i * b i) (L : EReal) = ∑ i ∈ S, Ideal.div (a i) (L : EReal) * b i := by
  simp only [Ideal.div_coe hL]
  have e1 : ∑ i ∈ S, a i * b i = ((∑ i ∈ S, (a i).toReal * (b i).toReal : ℝ) : EReal) := by
    rw [coe_finset_sum]
    refine Finset.sum_congr rfl fun i hi => ?_
    obtain ⟨r, hr⟩ := ha i hi
    obtain ⟨q, hq⟩ := hb i hi
    rw [hr, hq, EReal.toReal_coe, EReal.toReal_coe, EReal.coe_mul]
  have e2 : ∑ i ∈ S, a i * ((1 / L : ℝ) : EReal) * b i
      = ((∑ i ∈ S, (a i).toReal * (1 / L) * (b i).toReal : ℝ) : EReal) := by
    rw [coe_finset_sum]
    refine Finset.sum_congr rfl fun i hi => ?_
    obtain ⟨r, hr⟩ := ha i hi
    obtain ⟨q, hq⟩ := hb i hi
    rw [hr, hq, EReal.toReal_coe, EReal.toReal_coe, EReal.coe_mul, EReal.coe_mul]
  rw [e1, e2, ← EReal.coe_mul, EReal.coe_eq_coe_iff, Finset.sum_mul]
  exact Finset.sum_congr rfl fun i _ => by ring

/-- The same over a whole finite index type: (Σ_j a j · b j) / L = Σ_j (a j / L) · b j for real a, b and a real L ≠ 0. -/
theorem div_sum_univ {ι : Type*} [Fintype ι] (a b : ι → EReal) (ha : ∀ j, ∃ r : ℝ, a j = (r : EReal))
    (hb : ∀ j, ∃ r : ℝ, b j = (r : EReal)) {L : ℝ} (hL : L ≠ 0) :
    Ideal.div (∑ j, a j * b j) (L : EReal) = ∑ j, Ideal.div (a j) (L : EReal) * b j :=
  div_sum Finset.univ a b (fun j _ => ha j) (fun j _ => hb j) hL

/-- After n ≥ 1 tiles the quotient numerator / denominator is the sum, over all positions of the n tiles, of the softmax
    weight exp (s t u − M n) / Σ exp (s t' u' − M n) times the value v t u. -/
theorem quot_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    Ideal.div (state s v n).a (state s v n).l
      = ∑ t ∈ Finset.range n, ∑ u,
          Ideal.div (Ideal.exp (s t u - M s n)) (∑ t' ∈ Finset.range n, ∑ u', Ideal.exp (s t' u' - M s n)) * v t u := by
  obtain ⟨hl, L, hLpos, hL⟩ := den_eq hB hn hs hv
  obtain ⟨m, hm⟩ := M_isReal hB hn hs
  rw [(num_eq hB hn hs hv).1, ← hl, hL, hm, ← Finset.sum_product', ← Finset.sum_product']
  refine div_sum _ (fun p : ℕ × Fin B => Ideal.exp (s p.1 p.2 - (m : EReal))) (fun p : ℕ × Fin B => v p.1 p.2)
    (fun p hp => ?_) (fun p hp => ?_)
    hLpos.ne'
  · obtain ⟨r, hr⟩ := hs p.1 (Finset.mem_range.mp (Finset.mem_product.mp hp).1) p.2
    exact ⟨_, by rw [hr, exp_coe_sub]⟩
  · exact hv p.1 (Finset.mem_range.mp (Finset.mem_product.mp hp).1) p.2

/-! ### One flat index

A row of T · B entries is cut into T tiles of width B: position u of tile t is the entry j = u + B · t. -/

/-- The flat position of entry u of tile t is u + B · t. -/
theorem flat_val {T : ℕ} (t : Fin T) (u : Fin B) : (finProdFinEquiv (t, u) : Fin (T * B)).val = u.val + B * t.val := rfl

/-- The flat position of entry u of tile t, written as a bounded number. -/
theorem flat_mk {T : ℕ} (t : ℕ) (ht : t < T) (u : Fin B) (h : u.val + B * t < T * B) :
    (finProdFinEquiv ((⟨t, ht⟩ : Fin T), u) : Fin (T * B)) = ⟨u.val + B * t, h⟩ := rfl

/-- The tiles of a flat row f: position u of tile t < T is the entry u + B · t; tiles from T on are filled with z. -/
def tiles {T : ℕ} (f : Fin (T * B) → EReal) (z : EReal) (t : ℕ) (u : Fin B) : EReal :=
  if h : t < T then f (finProdFinEquiv (⟨t, h⟩, u)) else z

/-- A tile before T reads the flat row. -/
theorem tiles_of_lt {T : ℕ} (f : Fin (T * B) → EReal) (z : EReal) (t : ℕ) (ht : t < T) (u : Fin B) :
    tiles f z t u = f (finProdFinEquiv (⟨t, ht⟩, u)) := dif_pos ht

/-- Summing over the T tiles and the B positions of each is summing over the flat index. -/
theorem sum_tiles {T : ℕ} (G : ℕ → Fin B → EReal) (H : Fin (T * B) → EReal)
    (h : ∀ (t : ℕ) (ht : t < T) (u : Fin B), G t u = H (finProdFinEquiv (⟨t, ht⟩, u))) :
    ∑ t ∈ Finset.range T, ∑ u, G t u = ∑ j, H j := by
  rw [Finset.sum_range, ← Fintype.sum_prod_type', ← Equiv.sum_comp finProdFinEquiv H]
  exact Fintype.sum_congr _ _ fun p => h p.1 p.1.2 p.2

/-- The maximum over the T tiles is the maximum over the flat index. -/
theorem M_flat {T : ℕ} {s : ℕ → Fin B → EReal} {f : Fin (T * B) → EReal}
    (hs : ∀ (t : ℕ) (ht : t < T) (u : Fin B), s t u = f (finProdFinEquiv (⟨t, ht⟩, u))) :
    M s T = Finset.univ.sup f := by
  apply le_antisymm
  · refine Finset.sup_le fun t ht => Finset.sup_le fun u _ => ?_
    rw [hs t (Finset.mem_range.mp ht) u]
    exact Finset.le_sup (Finset.mem_univ _)
  · refine Finset.sup_le fun j _ => ?_
    obtain ⟨⟨t, u⟩, rfl⟩ := finProdFinEquiv.surjective j
    calc f (finProdFinEquiv (t, u)) = s t.1 u := (hs t.1 t.2 u).symm
      _ ≤ Finset.univ.sup (s t.1) := Finset.le_sup (Finset.mem_univ u)
      _ ≤ M s T := Finset.le_sup (f := fun t => Finset.univ.sup (s t)) (Finset.mem_range.mpr t.2)

/-- The online softmax of a flat row. When the tiles s, v read the real rows f, g (position u of tile t is the entry
    u + B · t), after all T ≥ 1 tiles the quotient numerator / denominator is the two-pass softmax of f against g:
    the sum over j of exp (f j − max f) / Σ_j' exp (f j' − max f) times g j. -/
theorem quot_eq_flat {T : ℕ} {s v : ℕ → Fin B → EReal} {f g : Fin (T * B) → EReal} (hB : 0 < B) (hT : 1 ≤ T)
    (hf : ∀ j, ∃ r : ℝ, f j = (r : EReal)) (hg : ∀ j, ∃ r : ℝ, g j = (r : EReal))
    (hs : ∀ (t : ℕ) (ht : t < T) (u : Fin B), s t u = f (finProdFinEquiv (⟨t, ht⟩, u)))
    (hv : ∀ (t : ℕ) (ht : t < T) (u : Fin B), v t u = g (finProdFinEquiv (⟨t, ht⟩, u))) :
    Ideal.div (state s v T).a (state s v T).l
      = ∑ j, Ideal.div (Ideal.exp (f j - Finset.univ.sup f)) (∑ j', Ideal.exp (f j' - Finset.univ.sup f)) * g j := by
  have hsr : ∀ t < T, ∀ u, ∃ r : ℝ, s t u = (r : EReal) := fun t ht u => by rw [hs t ht u]; exact hf _
  have hvr : ∀ t < T, ∀ u, ∃ r : ℝ, v t u = (r : EReal) := fun t ht u => by rw [hv t ht u]; exact hg _
  have hD : ∑ t' ∈ Finset.range T, ∑ u', Ideal.exp (s t' u' - Finset.univ.sup f)
      = ∑ j', Ideal.exp (f j' - Finset.univ.sup f) :=
    sum_tiles _ _ fun t ht u => by rw [hs t ht u]
  rw [quot_eq hB hT hsr hvr, M_flat hs, hD]
  exact sum_tiles _ _ fun t ht u => by rw [hs t ht u, hv t ht u]

/-- The online softmax of a flat row, for the tiles cut from the flat rows themselves. -/
theorem quot_eq_tiles {T : ℕ} {f g : Fin (T * B) → EReal} (hB : 0 < B) (hT : 1 ≤ T)
    (hf : ∀ j, ∃ r : ℝ, f j = (r : EReal)) (hg : ∀ j, ∃ r : ℝ, g j = (r : EReal)) (z z' : EReal) :
    Ideal.div (state (tiles f z) (tiles g z') T).a (state (tiles f z) (tiles g z') T).l
      = ∑ j, Ideal.div (Ideal.exp (f j - Finset.univ.sup f)) (∑ j', Ideal.exp (f j' - Finset.univ.sup f)) * g j :=
  quot_eq_flat hB hT hf hg (tiles_of_lt f z) (tiles_of_lt g z')

/-- The state after n tiles only reads the tiles before n. -/
theorem state_congr {s s' v v' : ℕ → Fin B → EReal} :
    ∀ n : ℕ, (∀ t < n, s t = s' t) → (∀ t < n, v t = v' t) → state s v n = state s' v' n
  | 0, _, _ => rfl
  | n + 1, hs, hv => by
    have ih := state_congr n (fun t ht => hs t (by omega)) (fun t ht => hv t (by omega))
    rw [state_succ, state_succ, ih, hs n (by omega), hv n (by omega)]

/-- The state after all T tiles of the flat real rows f, g: the maximum of f, the sum of exp (f j − max f) and the sum of
    exp (f j − max f) · g j. -/
theorem state_flat {T : ℕ} {s v : ℕ → Fin B → EReal} {f g : Fin (T * B) → EReal} (hB : 0 < B)
    (hf : ∀ j, ∃ r : ℝ, f j = (r : EReal)) (hg : ∀ j, ∃ r : ℝ, g j = (r : EReal))
    (hs : ∀ (t : ℕ) (ht : t < T) (u : Fin B), s t u = f (finProdFinEquiv (⟨t, ht⟩, u)))
    (hv : ∀ (t : ℕ) (ht : t < T) (u : Fin B), v t u = g (finProdFinEquiv (⟨t, ht⟩, u))) :
    state s v T = ⟨Finset.univ.sup f, ∑ j, Ideal.exp (f j - Finset.univ.sup f),
                   ∑ j, Ideal.exp (f j - Finset.univ.sup f) * g j⟩ := by
  have hsr : ∀ t < T, ∀ u, ∃ r : ℝ, s t u = (r : EReal) := fun t ht u => by rw [hs t ht u]; exact hf _
  have hvr : ∀ t < T, ∀ u, ∃ r : ℝ, v t u = (r : EReal) := fun t ht u => by rw [hv t ht u]; exact hg _
  have hD : ∑ t ∈ Finset.range T, ∑ u, Ideal.exp (s t u - Finset.univ.sup f)
      = ∑ j, Ideal.exp (f j - Finset.univ.sup f) :=
    sum_tiles _ _ fun t ht u => by rw [hs t ht u]
  have hN : ∑ t ∈ Finset.range T, ∑ u, Ideal.exp (s t u - Finset.univ.sup f) * v t u
      = ∑ j, Ideal.exp (f j - Finset.univ.sup f) * g j :=
    sum_tiles _ _ fun t ht u => by rw [hs t ht u, hv t ht u]
  rw [state_eq hB T hsr hvr, M_flat hs, hD, hN]

/-- The maximum of a real row over a nonempty finite index type is a real number. -/
theorem sup_univ_isReal {ι : Type*} [Fintype ι] [Nonempty ι] (f : ι → EReal) (hf : ∀ j, ∃ r : ℝ, f j = (r : EReal)) :
    ∃ r : ℝ, Finset.univ.sup f = (r : EReal) :=
  sup_isReal _ Finset.univ_nonempty f fun j _ => hf j

/-- The denominator of the two-pass softmax of a real row over a nonempty finite index type, the sum of
    exp (f j − max f), is a positive real number. -/
theorem softmax_den_pos {ι : Type*} [Fintype ι] [Nonempty ι] (f : ι → EReal) (hf : ∀ j, ∃ r : ℝ, f j = (r : EReal)) :
    ∃ r : ℝ, 0 < r ∧ ∑ j, Ideal.exp (f j - Finset.univ.sup f) = (r : EReal) := by
  obtain ⟨m, hm⟩ := sup_univ_isReal f hf
  refine ⟨∑ j, Real.exp ((f j).toReal - m), Finset.sum_pos (fun j _ => Real.exp_pos _) Finset.univ_nonempty, ?_⟩
  rw [hm, coe_finset_sum]
  refine Finset.sum_congr rfl fun j _ => ?_
  obtain ⟨r, hr⟩ := hf j
  rw [hr, exp_coe_sub, EReal.toReal_coe]

end Cert.LibOnlineSoftmax

end
-- ==== Proof.LibOnlineRuns.lean ====
/-
  The online softmax over tiles of unequal widths.

  A row of N real scores r and N real values v is read in consecutive runs: the run starting at position lo, of width w,
  holds the scores r (lo + u) and the values v (lo + u) for u < w.  The running state (m, l, a) starts at (−∞, 0, 0), and a
  run replaces it by

      m' = max (m, max_u r (lo + u)),   l' = exp (m − m') · l + Σ_u exp (r (lo + u) − m'),
      a' = exp (m − m') · a + Σ_u exp (r (lo + u) − m') · v (lo + u).

  After the runs covering the positions below n the state is the closed form over those positions: the maximum M of the
  scores below n, the sum of exp (r k − M) and the sum of exp (r k − M) · v k.  For the empty set of positions this is
  (−∞, 0, 0); one more run multiplies the old sums by exp (M − M'), which moves their reference point from M to M' because
  exp (M − M') · exp (x − M) = exp (x − M') for real numbers, and at the first run the old sums are 0.  After all N ≥ 1
  positions the quotient a / l is the two-pass softmax of the row against the values.
-/
import Idealize.ShloMosaic.PureOps.Ideal
import proofs.«147685_j44616120271538_2_alg».proof.Proof.LibOnlineSoftmax
import proofs.«147685_j44616120271538_2_alg».proof.Proof.LibRowSoftmax

noncomputable section

namespace Cert.KernelIdeal.KMath

open Idealize.ShloMosaic Cert.LibOnlineSoftmax Cert.LibRowSoftmax
open scoped BigOperators

/-- One run of w scores sc and values vv folded into the running state. -/
def rowStep {w : ℕ} (st : Acc) (sc vv : Fin w → EReal) : Acc :=
  ⟨max st.m (Finset.univ.fold max ⊥ sc),
   Ideal.exp (st.m - max st.m (Finset.univ.fold max ⊥ sc)) * st.l
     + ∑ u, Ideal.exp (sc u - max st.m (Finset.univ.fold max ⊥ sc)),
   Ideal.exp (st.m - max st.m (Finset.univ.fold max ⊥ sc)) * st.a
     + ∑ u, Ideal.exp (sc u - max st.m (Finset.univ.fold max ⊥ sc)) * vv u⟩

section General

variable {ι : Type*} [DecidableEq ι]

/-- The closed form over a finite set S of positions: the maximum of the scores, and the two sums taken against it. -/
def closed (r v : ι → ℝ) (S : Finset ι) : Acc :=
  ⟨S.sup fun k => (r k : EReal),
   ∑ k ∈ S, Ideal.exp ((r k : EReal) - S.sup fun k => (r k : EReal)),
   ∑ k ∈ S, Ideal.exp ((r k : EReal) - S.sup fun k => (r k : EReal)) * (v k : EReal)⟩

/-- Over no position the closed form is (−∞, 0, 0). -/
theorem closed_empty (r v : ι → ℝ) : closed r v ∅ = ⟨⊥, 0, 0⟩ := by
  unfold closed
  rw [Finset.sup_empty, Finset.sum_empty, Finset.sum_empty]

/-- The sum of exp (r k − c) over S, for a real c, is the coercion of the real sum. -/
theorem den_coe_set (r : ι → ℝ) (S : Finset ι) (c : ℝ) :
    ∑ k ∈ S, Ideal.exp ((r k : EReal) - (c : EReal)) = ((∑ k ∈ S, Real.exp (r k - c) : ℝ) : EReal) := by
  rw [coe_finset_sum]
  exact Finset.sum_congr rfl fun k _ => exp_coe_sub _ _

/-- The sum of exp (r k − c) · v k over S, for a real c, is the coercion of the real sum. -/
theorem num_coe_set (r v : ι → ℝ) (S : Finset ι) (c : ℝ) :
    ∑ k ∈ S, Ideal.exp ((r k : EReal) - (c : EReal)) * (v k : EReal)
      = ((∑ k ∈ S, Real.exp (r k - c) * v k : ℝ) : EReal) := by
  rw [coe_finset_sum]
  exact Finset.sum_congr rfl fun k _ => by rw [exp_coe_sub, EReal.coe_mul]

/-- Moving the reference point of the denominator from c to d multiplies it by exp (c − d). -/
theorem rescale_den_set (r : ι → ℝ) (S : Finset ι) (c d : ℝ) :
    Ideal.exp ((c : EReal) - (d : EReal)) * ∑ k ∈ S, Ideal.exp ((r k : EReal) - (c : EReal))
      = ∑ k ∈ S, Ideal.exp ((r k : EReal) - (d : EReal)) := by
  rw [den_coe_set, den_coe_set, exp_coe_sub, ← EReal.coe_mul, EReal.coe_eq_coe_iff, Finset.mul_sum]
  refine Finset.sum_congr rfl fun k _ => ?_
  rw [← Real.exp_add]
  congr 1; ring

/-- Moving the reference point of the numerator from c to d multiplies it by exp (c − d). -/
theorem rescale_num_set (r v : ι → ℝ) (S : Finset ι) (c d : ℝ) :
    Ideal.exp ((c : EReal) - (d : EReal)) * ∑ k ∈ S, Ideal.exp ((r k : EReal) - (c : EReal)) * (v k : EReal)
      = ∑ k ∈ S, Ideal.exp ((r k : EReal) - (d : EReal)) * (v k : EReal) := by
  rw [num_coe_set, num_coe_set, exp_coe_sub, ← EReal.coe_mul, EReal.coe_eq_coe_iff, Finset.mul_sum]
  refine Finset.sum_congr rfl fun k _ => ?_
  rw [← mul_assoc, ← Real.exp_add]
  congr 2; ring

/-- The maximum of real scores over a nonempty set is a real number. -/
theorem sup_coe_isReal (r : ι → ℝ) (S : Finset ι) (hS : S.Nonempty) :
    ∃ m : ℝ, (S.sup fun k => (r k : EReal)) = (m : EReal) :=
  sup_isReal S hS _ fun k _ => ⟨r k, rfl⟩

/-- A fold of max from −∞ is the supremum. -/
theorem fold_max_eq_sup {κ : Type*} (S : Finset κ) (f : κ → EReal) : S.fold max ⊥ f = S.sup f := rfl

/-- One run, whose positions e u lie outside S, takes the closed form over S to the closed form over S and the run. -/
theorem rowStep_closed (r v : ι → ℝ) (S : Finset ι) {w : ℕ} (e : Fin w ↪ ι) (hw : 0 < w)
    (hd : Disjoint S (Finset.univ.map e)) (sc vv : Fin w → EReal)
    (hsc : ∀ u, sc u = (r (e u) : EReal)) (hvv : ∀ u, vv u = (v (e u) : EReal)) :
    rowStep (closed r v S) sc vv = closed r v (S ∪ Finset.univ.map e) := by
  have hne : (S ∪ Finset.univ.map e).Nonempty :=
    ⟨e ⟨0, hw⟩, Finset.mem_union_right _ (Finset.mem_map_of_mem e (Finset.mem_univ _))⟩
  obtain ⟨m', hm'⟩ := sup_coe_isReal r _ hne
  have hfold : Finset.univ.fold max ⊥ sc = (Finset.univ.map e).sup fun k => (r k : EReal) := by
    rw [fold_max_eq_sup, Finset.sup_map]
    exact congrArg _ (funext hsc)
  have hmax : max (S.sup fun k => (r k : EReal)) (Finset.univ.fold max ⊥ sc) = (m' : EReal) := by
    rw [hfold, ← hm', Finset.sup_union]
  have hT1 : ∑ u, Ideal.exp (sc u - (m' : EReal)) = ∑ k ∈ Finset.univ.map e, Ideal.exp ((r k : EReal) - (m' : EReal)) := by
    rw [Finset.sum_map]
    exact Finset.sum_congr rfl fun u _ => by rw [hsc u]
  have hT2 : ∑ u, Ideal.exp (sc u - (m' : EReal)) * vv u
      = ∑ k ∈ Finset.univ.map e, Ideal.exp ((r k : EReal) - (m' : EReal)) * (v k : EReal) := by
    rw [Finset.sum_map]
    exact Finset.sum_congr rfl fun u _ => by rw [hsc u, hvv u]
  have hS1 : Ideal.exp ((S.sup fun k => (r k : EReal)) - (m' : EReal))
        * ∑ k ∈ S, Ideal.exp ((r k : EReal) - S.sup fun k => (r k : EReal))
      = ∑ k ∈ S, Ideal.exp ((r k : EReal) - (m' : EReal)) := by
    rcases S.eq_empty_or_nonempty with rfl | hS
    · rw [Finset.sum_empty, Finset.sum_empty, mul_zero]
    · obtain ⟨m, hm⟩ := sup_coe_isReal r S hS
      rw [hm]; exact rescale_den_set r S m m'
  have hS2 : Ideal.exp ((S.sup fun k => (r k : EReal)) - (m' : EReal))
        * ∑ k ∈ S, Ideal.exp ((r k : EReal) - S.sup fun k => (r k : EReal)) * (v k : EReal)
      = ∑ k ∈ S, Ideal.exp ((r k : EReal) - (m' : EReal)) * (v k : EReal) := by
    rcases S.eq_empty_or_nonempty with rfl | hS
    · rw [Finset.sum_empty, Finset.sum_empty, mul_zero]
    · obtain ⟨m, hm⟩ := sup_coe_isReal r S hS
      rw [hm]; exact rescale_num_set r v S m m'
  unfold rowStep closed
  dsimp only
  rw [hmax, hm', hS1, hS2, hT1, hT2, Finset.sum_union hd, Finset.sum_union hd]

end General

/-! ### Consecutive runs of a row of N positions -/

/-- The positions below n. -/
def seg (N n : ℕ) : Finset (Fin N) := Finset.univ.filter fun k => k.val < n

/-- The run of width w starting at lo. -/
def runEmb (N lo w : ℕ) (h : lo + w ≤ N) : Fin w ↪ Fin N :=
  ⟨fun u => ⟨lo + u.val, by have := u.isLt; omega⟩, fun a c hac => Fin.ext (by
    have := congrArg Fin.val hac
    dsimp only at this
    omega)⟩

theorem runEmb_val (N lo w : ℕ) (h : lo + w ≤ N) (u : Fin w) : (runEmb N lo w h u).val = lo + u.val := rfl

theorem mem_seg {N n : ℕ} (k : Fin N) : k ∈ seg N n ↔ k.val < n := by
  unfold seg
  rw [Finset.mem_filter]
  exact ⟨fun h => h.2, fun h => ⟨Finset.mem_univ _, h⟩⟩

theorem mem_run {N lo w : ℕ} (h : lo + w ≤ N) (k : Fin N) :
    k ∈ Finset.univ.map (runEmb N lo w h) ↔ lo ≤ k.val ∧ k.val < lo + w := by
  rw [Finset.mem_map]
  constructor
  · rintro ⟨u, _, rfl⟩
    rw [runEmb_val]
    have := u.isLt
    omega
  · rintro ⟨h1, h2⟩
    exact ⟨⟨k.val - lo, by omega⟩, Finset.mem_univ _, Fin.ext (by rw [runEmb_val]; dsimp only; omega)⟩

/-- No position lies below 0. -/
theorem seg_zero (N : ℕ) : seg N 0 = ∅ :=
  Finset.eq_empty_of_forall_notMem fun k hk => Nat.not_lt_zero _ ((mem_seg k).mp hk)

/-- Every position lies below N. -/
theorem seg_all (N : ℕ) : seg N N = Finset.univ :=
  Finset.eq_univ_of_forall fun k => (mem_seg k).mpr k.isLt

/-- The positions below lo and the run starting at lo are the positions below lo + w. -/
theorem seg_union_run (N lo w : ℕ) (h : lo + w ≤ N) :
    seg N lo ∪ Finset.univ.map (runEmb N lo w h) = seg N (lo + w) := by
  ext k
  rw [Finset.mem_union, mem_seg, mem_seg, mem_run]
  omega

/-- The run starting at lo has no position below lo. -/
theorem seg_disjoint_run (N lo w : ℕ) (h : lo + w ≤ N) :
    Disjoint (seg N lo) (Finset.univ.map (runEmb N lo w h)) := by
  rw [Finset.disjoint_left]
  intro k hk hk'
  rw [mem_seg] at hk
  rw [mem_run] at hk'
  omega

/-- One run starting at lo takes the closed form over the positions below lo to the one over the positions below lo + w. -/
theorem rowStep_seg {N : ℕ} (r v : Fin N → ℝ) (lo w hi : ℕ) (hhi : hi = lo + w) (h : hi ≤ N) (hw : 0 < w)
    (sc vv : Fin w → EReal)
    (hsc : ∀ u : Fin w, sc u = (r ⟨lo + u.val, by have := u.isLt; omega⟩ : EReal))
    (hvv : ∀ u : Fin w, vv u = (v ⟨lo + u.val, by have := u.isLt; omega⟩ : EReal)) :
    rowStep (closed r v (seg N lo)) sc vv = closed r v (seg N hi) := by
  subst hhi
  rw [← seg_union_run N lo w h]
  exact rowStep_closed r v (seg N lo) (runEmb N lo w h) hw (seg_disjoint_run N lo w h) sc vv hsc hvv

/-! ### The quotient after the whole row -/

/-- The row maximum, taken from −∞ twice over, is the supremum. -/
theorem rowMax_eq_sup {n : ℕ} (f : Fin n → EReal) : rowMax f = Finset.univ.sup f := by
  unfold rowMax
  rw [fold_max_eq_sup]
  exact max_eq_right bot_le

/-- After all N ≥ 1 positions the quotient of the closed form's sums is the two-pass softmax of the row of scores against
    the values. -/
theorem closed_univ_quot {N : ℕ} (hN : 0 < N) (r v : Fin N → ℝ) :
    Ideal.div (closed r v Finset.univ).a (closed r v Finset.univ).l
      = ∑ t, rowSoft (fun k => (r k : EReal)) t * (v t : EReal) := by
  haveI : Nonempty (Fin N) := ⟨⟨0, hN⟩⟩
  obtain ⟨L, hLpos, hL⟩ := softmax_den_pos (fun k : Fin N => (r k : EReal)) fun j => ⟨r j, rfl⟩
  obtain ⟨m, hm⟩ := sup_univ_isReal (fun k : Fin N => (r k : EReal)) fun j => ⟨r j, rfl⟩
  have hsoft : ∀ t, rowSoft (fun k => (r k : EReal)) t
      = Ideal.div (Ideal.exp ((r t : EReal) - Finset.univ.sup fun k => (r k : EReal))) (L : EReal) := by
    intro t
    unfold rowSoft
    rw [rowMax_eq_sup, zero_add, hL]
  show Ideal.div (∑ k, Ideal.exp ((r k : EReal) - Finset.univ.sup fun k => (r k : EReal)) * (v k : EReal))
      (∑ k, Ideal.exp ((r k : EReal) - Finset.univ.sup fun k => (r k : EReal))) = _
  rw [hL]
  rw [div_sum_univ (fun k => Ideal.exp ((r k : EReal) - Finset.univ.sup fun k => (r k : EReal))) (fun k => (v k : EReal))
    (fun j => ⟨_, by rw [hm]; exact exp_coe_sub _ _⟩) (fun j => ⟨v j, rfl⟩) hLpos.ne']
  exact Finset.sum_congr rfl fun t _ => by rw [hsoft t]

end Cert.KernelIdeal.KMath

end
-- ==== Proof.KConsts.lean ====
/-
  The float constants the kernel spells, as the extended reals their words denote.

  0xFF800000 is −∞; 0x3D000000 has exponent field 122 and a zero significand, that is 2^(122 − 127) = 1/32, the scale
  1/√1024 of the scores.
-/
import Idealize.ShloMosaic.PureOps.Ideal
import proofs.«147685_j44616120271538_2_alg».proof.Proof.Spec

noncomputable section

namespace Cert.KernelIdeal.KMath

open Idealize.ShloMosaic

/-- The word 0xFF800000 denotes −∞. -/
theorem ofBits_neg_inf : Ideal.ofBits .f32 0xFF800000#32 = (⊥ : EReal) := by
  simp [Ideal.ofBits, Ideal.ieee]

/-- The word 0x3D000000 denotes 1/32, the specification's scale. -/
theorem ofBits_scale : Ideal.ofBits .f32 0x3D000000#32 = Cert.Attn.scaleC := by
  unfold Cert.Attn.scaleC
  simp [Ideal.ofBits, Ideal.ieee, -EReal.coe_mul]; norm_num

end Cert.KernelIdeal.KMath

end
-- ==== Proof.LibDotT.lean ====
/-
  A matrix product with the transpose of the right factor, read at an index, on the extended reals.

  For a rows × contraction by columns × contraction product — the dimension numbers that contract the left operand's
  second axis with the right operand's SECOND axis, with no batch axis — the entry at (i, j) of the host's
  `dot_general`, and of a `tpu.matmul` accumulated into the zero splat, is the plain sum over the contraction
  coordinate k of l (i, k) · r (j, k): row i of the left operand against row j of the right one. The sum over the
  product's own contraction index is re-indexed through the bijection between a one-axis contraction index and its
  coordinate; the operand indices are computed from the dimension numbers: the left operand reads the result's first
  coordinate on its first axis, the right operand reads the result's second coordinate on its first axis, and both
  read the contraction coordinate on their second axis. Nothing here needs finiteness: only that the sum is re-indexed.
-/
import Idealize.ShloMosaic.Lib.ValueIdx
import Idealize.ShloMosaic.PureOps.Ideal.Laws

noncomputable section

namespace Cert.LibDotT

open Idealize.ShloMosaic Idealize.ShloMosaic.ValueIdx

variable {M K N : Nat}

/-- The contraction of row `y 0` of `l` with row `y 1` of `r`: the sum over the product's contraction index is
    the sum over the one contracted coordinate. -/
theorem sum_transposed (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (y : (⟨2, ![M, N]⟩ : Shape).Idx) :
    ∑ q : d.contr.Idx, l (d.lhsIdx y q) * r (d.rhsIdx y q) = ∑ k : Fin K, l (ix2 (y 0) k) * r (ix2 (y 1) k) := by
  obtain ⟨lc, rc, ln, rn, lb, rb, wf⟩ := d
  dsimp only at hlc hrc hln hrn hlb hrb
  subst hlc hrc hln hrn hlb hrb
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 1) k := funext fun a => Fin.ext (by
    match a with
    | ⟨0, _⟩ =>
      unfold DotDims.rhsIdx
      rw [dif_neg (by simp), dif_pos (by simp)]
      rfl
    | ⟨1, _⟩ => exact (DotDims.rhsIdx_val_of_single _ rfl y _).trans hk)
  rw [el, er]
  rfl

variable {φ₁ φ₂ : FTy}

/-- The host's `dot_general` of those dimension numbers, at an index: the sum over the contracted coordinate. -/
theorem dotGeneral_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule)
    (l : FVec Ideal ⟨2, ![M, K]⟩ φ₁) (r : FVec Ideal ⟨2, ![N, K]⟩ φ₂) (y : (⟨2, ![M, N]⟩ : Shape).Idx) :
    FloatOps.dotGeneral d prec sched l r y = ∑ k : Fin K, l (ix2 (y 0) k) * r (ix2 (y 1) k) := by
  rw [Ideal.dotGeneral_apply]
  exact sum_transposed d hlc hrc hln hrn hlb hrb l r y

/-- A `tpu.matmul` of those dimension numbers into the zero accumulator, at an index: the same sum. -/
theorem matmul_zero_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![M, K]⟩ φ₁) (r : FVec Ideal ⟨2, ![N, K]⟩ φ₂) (y : (⟨2, ![M, N]⟩ : Shape).Idx) :
    FloatOps.matmul d prec l r (constant ⟨2, ![M, N]⟩ .f32 0x00000000#32) y
      = ∑ k : Fin K, l (ix2 (y 0) k) * r (ix2 (y 1) k) := by
  rw [Ideal.matmul_constant_zero_apply]
  exact sum_transposed d hlc hrc hln hrn hlb hrb l r y

end Cert.LibDotT

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.LibRows.lean ====
/-
  Rows of a matrix, read at an index, on the extended reals.

  For an a × b matrix v: the sum along the second axis, read at row p, is the sum over k of v (p, k); the maximum
  along the second axis, read at row p, is the fold of max over k of v (p, k) from the start value the accumulator
  word denotes; and one value per row, re-cast as an a × 1 column and laid across c columns ("keepdims", then a
  broadcast), reads at (p, q) the value of row p.  The index of the matrix that a row index with the coordinate k
  put back on the second axis names is (p, k).  All for any extents; nothing is evaluated.
-/
import proofs.«147685_j44616120271538_2_alg».proof.Proof.LibColumn
import Idealize.ShloMosaic.Lib.ValueIdx
import Idealize.ShloMosaic.Lib.Pipeline.Value
import Idealize.ShloMosaic.PureOps.Ideal.Laws

noncomputable section

namespace Cert.LibRows

open Idealize.ShloMosaic Idealize.ShloMosaic.ValueIdx

variable {a b : ℕ}

/-- The index of a matrix over row p with coordinate k put on the second axis is (p, k). -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A sum along the second axis, read at row p: the sum of the row's entries. -/
theorem rowSum_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A maximum along the second axis, read at row p: the fold of max over the row's entries from the start value. -/
theorem rowMaxf_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (Finset.fold_congr fun k _ => congrArg v (lift_row h p k))

/-- One value per row, re-cast as a column and laid across c columns, read at (p, q): the value of row p. -/
theorem column_apply {α : Type} {c : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ u hc) hb (ix2 p q) = u (ix1 p) :=
  (Cert.LibColumn.broadcastTo_a1_ab_apply (shapeCast ⟨2, ![a, 1]⟩ u hc) hb p q).trans
    (Cert.LibColumn.shapeCast_a_a1_apply u hc p 0)

end Cert.LibRows

end
-- ==== Proof.KTile.lean ====
/-
  One cache tile folded into the running softmax state, read at a row.

  For query row s the tile's 1024 scores are sc u = (Σ_e q(s,e) · kc(0,u,e)) · c with c the scale word; the step takes
  the row's (m, l, acc(·, d)) to

      m' = max (m, max_u sc u),   l' = exp (m − m') · l + Σ_u exp (sc u − m'),
      acc'(d) = exp (m − m') · acc(d) + Σ_u exp (sc u − m') · vc(0,u,d),

  which is the row step of the online softmax.  Only re-indexing: no finiteness is needed here.
-/
import proofs.«147685_j44616120271538_2_alg».proof.Proof.KBlocks
import proofs.«147685_j44616120271538_2_alg».proof.Proof.LibOnlineRuns
import proofs.«147685_j44616120271538_2_alg».proof.Proof.KConsts
import proofs.«147685_j44616120271538_2_alg».proof.Proof.LibDotT
import proofs.«147685_j44616120271538_2_alg».proof.Proof.LibDot
import proofs.«147685_j44616120271538_2_alg».proof.Proof.LibRows
import Idealize.ShloMosaic.Lib.Pipeline.Value

noncomputable section

namespace Cert.KernelIdeal.KMath

open Idealize.ShloMosaic Idealize.ShloMosaic.ValueIdx Cert.KernelIdeal Cert.KernelIdeal.Gen Cert.KernelIdeal.KState
open Cert.LibOnlineSoftmax

/-- The running state of query row s, with the numerator's column d. -/
def rowOf (st : Scr Ideal) (s : Fin 16) (d : Fin 1024) : Acc := ⟨st.m (ix2 s 0), st.l (ix2 s 0), st.acc (ix2 s d)⟩

/-- A tile with its unit axis dropped reads, at (u, e), the tile at (0, u, e). -/
theorem dropLead_apply (v : FVec Ideal S1x1024x1024 .f32) (u e : Fin 1024) :
    shapeCast S1024x1024 v shapeCasts_S1x1024x1024_S1024x1024 (ix2 u e) = v (ix3 0 u e) :=
  shapeCast_apply v _ (ix2 u e) (ix3 0 u e) (by
    rw [Shape.rowMajor_val_three, Shape.rowMajor_val_two]
    show (0 * 1024 + u.val) * 1024 + e.val = u.val * 1024 + e.val
    omega)

/-- The value tile with its unit axis dropped. -/
theorem pay17_apply (vc : FVec Ideal S1x1024x1024 .f32) (u d : Fin 1024) : k0_pay17 (F := Ideal) vc (ix2 u d) = vc (ix3 0 u d) := by
  unfold k0_pay17
  exact dropLead_apply vc u d

/-- The tile's scores at (s, u): the query row against key row u, times the scale word. -/
theorem pay18_apply (kc : FVec Ideal S1x1024x1024 .f32) (q : FVec Ideal S16x1024 .f32) (s : Fin 16) (u : Fin 1024) :
    k0_pay18 (F := Ideal) kc q (ix2 s u) = (∑ e : Fin 1024, q (ix2 s e) * kc (ix3 0 u e)) * Ideal.ofBits .f32 0x3D000000#32 := by
  unfold k0_pay18
  rw [mulf_apply]
  refine congrArg (· * Ideal.ofBits .f32 0x3D000000#32) ?_
  refine (Cert.LibDotT.matmul_zero_transposed_apply dot_S16x1024_S1024x1024_S16x1024_1_1_0_0_n_n rfl rfl rfl rfl rfl rfl
    (some .fp32) q (shapeCast S1024x1024 kc shapeCasts_S1x1024x1024_S1024x1024) (ix2 s u)).trans ?_
  exact Finset.sum_congr rfl fun e _ => by rw [dropLead_apply]

/-- The new maximum of row s: the old one joined with the maximum of the tile's scores. -/
theorem pay19_apply (kc : FVec Ideal S1x1024x1024 .f32) (q : FVec Ideal S16x1024 .f32) (m : FVec Ideal S16x1 .f32)
    (s : Fin 16) :
    k0_pay19 (F := Ideal) kc q m (ix2 s 0) = max (m (ix2 s 0)) (Finset.univ.fold max ⊥ fun u : Fin 1024 => k0_pay18 (F := Ideal) kc q (ix2 s u)) := by
  unfold k0_pay19
  rw [maximumf_apply]
  refine congrArg (max (m (ix2 s 0))) ?_
  rw [Cert.LibColumn.shapeCast_a_a1_apply]
  exact (Cert.LibRows.rowMaxf_apply (k0_pay18 (F := Ideal) kc q) _ reduces_S16x1024_S16 _ _ s).trans (by rw [ofBits_neg_inf])

/-- The rescaling factor of row s. -/
theorem pay20_apply (kc : FVec Ideal S1x1024x1024 .f32) (q : FVec Ideal S16x1024 .f32) (m : FVec Ideal S16x1 .f32)
    (s : Fin 16) :
    k0_pay20 (F := Ideal) kc q m (ix2 s 0) = Ideal.exp (m (ix2 s 0) - k0_pay19 (F := Ideal) kc q m (ix2 s 0)) := rfl

/-- The new maximum laid across the tile's lanes. -/
theorem pay21_apply (kc : FVec Ideal S1x1024x1024 .f32) (q : FVec Ideal S16x1024 .f32) (m : FVec Ideal S16x1 .f32)
    (s : Fin 16) (u : Fin 1024) :
    k0_pay21 (F := Ideal) kc q m (ix2 s u) = k0_pay19 (F := Ideal) kc q m (ix2 s 0) := by
  unfold k0_pay21
  exact Cert.LibColumn.broadcastTo_a1_ab_apply _ _ s u

/-- The tile's weights at (s, u). -/
theorem pay4_apply (v28 v35 : FVec Ideal S16x1024 .f32) (s : Fin 16) (u : Fin 1024) :
    k0_pay4 (F := Ideal) v28 v35 (ix2 s u) = Ideal.exp (v28 (ix2 s u) - v35 (ix2 s u)) := rfl

/-- The new denominator of row s. -/
theorem pay5_apply (v28 : FVec Ideal S16x1024 .f32) (v34 : FVec Ideal S16x1 .f32) (v35 : FVec Ideal S16x1024 .f32)
    (v38 : FVec Ideal S16x1 .f32) (s : Fin 16) :
    k0_pay5 (F := Ideal) v28 v34 v35 v38 (ix2 s 0) = v34 (ix2 s 0) * v38 (ix2 s 0) + ∑ u : Fin 1024, k0_pay4 (F := Ideal) v28 v35 (ix2 s u) := by
  unfold k0_pay5
  rw [shapeCast_self, addf_apply, mulf_apply, Cert.LibColumn.shapeCast_a_a1_apply]
  exact congrArg (v34 (ix2 s 0) * v38 (ix2 s 0) + ·)
    (Cert.LibRows.rowSum_apply (k0_pay4 (F := Ideal) v28 v35) _ reduces_S16x1024_S16 _ _ s)

/-- The new numerator at (s, d). -/
theorem pay6_apply (v24 : FVec Ideal S1024x1024 .f32) (v28 : FVec Ideal S16x1024 .f32) (v34 : FVec Ideal S16x1 .f32)
    (v35 : FVec Ideal S16x1024 .f32) (v47 : FVec Ideal S16x1024 .f32) (s : Fin 16) (d : Fin 1024) :
    k0_pay6 (F := Ideal) v24 v28 v34 v35 v47 (ix2 s d)
      = v34 (ix2 s 0) * v47 (ix2 s d) + ∑ u : Fin 1024, k0_pay4 (F := Ideal) v28 v35 (ix2 s u) * v24 (ix2 u d) := by
  unfold k0_pay6
  rw [shapeCast_self, addf_apply, mulf_apply, Cert.LibColumn.broadcastTo_a1_ab_apply]
  refine congrArg (v34 (ix2 s 0) * v47 (ix2 s d) + ·) ?_
  exact Cert.LibDot.matmul_zero_plain_apply dot_S16x1024_S1024x1024_S16x1024_1_0_0_1_n_n rfl rfl rfl rfl rfl rfl
    (some .fp32) (k0_pay4 (F := Ideal) v28 v35) v24 (ix2 s d)

/-- A cache tile folded in, at row s and column d: the row step of the online softmax on the tile's scores and values. -/
theorem stepTile_row (st : Scr Ideal) (kc vc : FVec Ideal S1x1024x1024 .f32) (s : Fin 16) (d : Fin 1024) :
    rowOf (stepTile st kc vc) s d
      = rowStep (rowOf st s d) (fun u : Fin 1024 => k0_pay18 (F := Ideal) kc st.q (ix2 s u)) (fun u : Fin 1024 => vc (ix3 0 u d)) := by
  have hm : k0_pay19 (F := Ideal) kc st.q st.m (ix2 s 0)
      = max (st.m (ix2 s 0)) (Finset.univ.fold max ⊥ fun u : Fin 1024 => k0_pay18 (F := Ideal) kc st.q (ix2 s u)) :=
    pay19_apply kc st.q st.m s
  have hp : ∀ u : Fin 1024, k0_pay4 (F := Ideal) (k0_pay18 (F := Ideal) kc st.q) (k0_pay21 (F := Ideal) kc st.q st.m) (ix2 s u)
      = Ideal.exp (k0_pay18 (F := Ideal) kc st.q (ix2 s u)
          - max (st.m (ix2 s 0)) (Finset.univ.fold max ⊥ fun u : Fin 1024 => k0_pay18 (F := Ideal) kc st.q (ix2 s u))) := by
    intro u
    rw [pay4_apply, pay21_apply, hm]
  refine Acc.ext ?_ ?_ ?_
  · show k0_pay7 (F := Ideal) (k0_pay19 (F := Ideal) kc st.q st.m) (ix2 s 0) = _
    unfold k0_pay7
    rw [shapeCast_self]
    exact hm
  · show k0_pay5 (F := Ideal) (k0_pay18 (F := Ideal) kc st.q) (k0_pay20 (F := Ideal) kc st.q st.m) (k0_pay21 (F := Ideal) kc st.q st.m) st.l (ix2 s 0) = _
    rw [pay5_apply, pay20_apply, hm]
    exact congrArg _ (Finset.sum_congr rfl fun u _ => hp u)
  · show k0_pay6 (F := Ideal) (k0_pay17 (F := Ideal) vc) (k0_pay18 (F := Ideal) kc st.q) (k0_pay20 (F := Ideal) kc st.q st.m) (k0_pay21 (F := Ideal) kc st.q st.m) st.acc (ix2 s d) = _
    rw [pay6_apply, pay20_apply, hm]
    exact congrArg _ (Finset.sum_congr rfl fun u _ => by rw [hp u, pay17_apply]; rfl)

end Cert.KernelIdeal.KMath

end
-- ==== Proof.KProj.lean ====
/-
  The three projections the first grid point of a batch computes, read at an index.

  Each is a linear layer: the block's rows (the leading unit axis dropped) times the transpose of a weight matrix, plus
  the bias laid across the rows.  At row s and feature e this is Σ_d x(b,s,d) · W(e,d) + bias(e), the specification's
  proj.  No finiteness is needed: the sums are only re-indexed.
-/
import proofs.«147685_j44616120271538_2_alg».proof.Proof.KBlocks
import proofs.«147685_j44616120271538_2_alg».proof.Proof.LibDotT
import Idealize.ShloMosaic.Lib.Pipeline.Value

noncomputable section

namespace Cert.KernelIdeal.KMath

open Idealize.ShloMosaic Idealize.ShloMosaic.ValueIdx Cert.KernelIdeal Cert.KernelIdeal.Gen Cert.KernelIdeal.KState Cert.Attn

/-- The block with its unit axis dropped reads, at (s, k), the block at (0, s, k). -/
theorem pay11_apply (v9 : FVec Ideal S1x16x1024 .f32) (s : Fin 16) (k : Fin 1024) :
    k0_pay11 v9 (ix2 s k) = v9 (ix3 0 s k) := by
  unfold k0_pay11
  exact shapeCast_apply v9 _ (ix2 s k) (ix3 0 s k) (by
    rw [Shape.rowMajor_val_three, Shape.rowMajor_val_two]
    show (0 * 16 + s.val) * 1024 + k.val = s.val * 1024 + k.val
    omega)

/-- A 16 × 1024 matrix with a unit axis put in front reads, at (0, s, e), the matrix at (s, e). -/
theorem lead_apply (v : FVec Ideal S16x1024 .f32) (s : Fin 16) (e : Fin 1024) :
    shapeCast S1x16x1024 v shapeCasts_S16x1024_S1x16x1024 (ix3 0 s e) = v (ix2 s e) :=
  shapeCast_apply v _ (ix3 0 s e) (ix2 s e) (by
    rw [Shape.rowMajor_val_three, Shape.rowMajor_val_two]
    show s.val * 1024 + e.val = (0 * 16 + s.val) * 1024 + e.val
    omega)

/-- A one-row matrix laid across 16 rows reads, at (s, e), its entry (0, e). -/
theorem rowBroadcast_apply (v : FVec Ideal S1x1024 .f32) (s : Fin 16) (e : Fin 1024) :
    broadcastTo S16x1024 v broadcasts_S1x1024_S16x1024 (ix2 s e) = v (ix2 0 e) :=
  broadcastTo_apply v _ (ix2 s e) (ix2 0 e) fun a =>
    match a with
    | ⟨0, _⟩ => by
      show (0 : ℕ) = if (1 : ℕ) = 1 then 0 else s.val
      rw [if_pos rfl]
    | ⟨1, _⟩ => by
      show e.val = if (1024 : ℕ) = 1 then 0 else e.val
      rw [if_neg (by decide)]

/-- The linear layer's core at (s, e): Σ_d block(0,s,d) · W(e,d) + bias(0,e). -/
theorem linCore_apply (v9 : FVec Ideal S1x16x1024 .f32) (W : FVec Ideal S1024x1024 .f32) (bias : FVec Ideal S1x1024 .f32)
    (s : Fin 16) (e : Fin 1024) :
    addf (matmul dot_S16x1024_S1024x1024_S16x1024_1_1_0_0_n_n (some .fp32) (k0_pay11 v9) W
            (constant (F := Ideal) S16x1024 .f32 0x00000000#32))
         (broadcastTo S16x1024 (shapeCast S1x1024 (shapeCast S1024 bias shapeCasts_S1x1024_S1024) shapeCasts_S1024_S1x1024)
            broadcasts_S1x1024_S16x1024) (ix2 s e)
      = (∑ d : Fin 1024, v9 (ix3 0 s d) * W (ix2 e d)) + bias (ix2 0 e) := by
  rw [addf_apply, shapeCast_shapeCast, rowBroadcast_apply]
  refine congrArg (· + bias (ix2 0 e)) ?_
  refine (Cert.LibDotT.matmul_zero_transposed_apply dot_S16x1024_S1024x1024_S16x1024_1_1_0_0_n_n rfl rfl rfl rfl rfl rfl
    (some .fp32) (k0_pay11 v9) W (ix2 s e)).trans ?_
  exact Finset.sum_congr rfl fun d _ => by rw [pay11_apply]

/-- The query projection at (s, e). -/
theorem pay12_apply (v9 : FVec Ideal S1x16x1024 .f32) (W : FVec Ideal S1024x1024 .f32) (bias : FVec Ideal S1x1024 .f32)
    (s : Fin 16) (e : Fin 1024) :
    k0_pay12 v9 W bias (ix2 s e) = (∑ d : Fin 1024, v9 (ix3 0 s d) * W (ix2 e d)) + bias (ix2 0 e) := by
  unfold k0_pay12
  rw [shapeCast_self]
  exact linCore_apply v9 W bias s e

/-- The key projection at (0, s, e). -/
theorem pay13_apply (v9 : FVec Ideal S1x16x1024 .f32) (W : FVec Ideal S1024x1024 .f32) (bias : FVec Ideal S1x1024 .f32)
    (s : Fin 16) (e : Fin 1024) :
    k0_pay13 v9 W bias (ix3 0 s e) = (∑ d : Fin 1024, v9 (ix3 0 s d) * W (ix2 e d)) + bias (ix2 0 e) := by
  unfold k0_pay13
  rw [lead_apply]
  exact linCore_apply v9 W bias s e

/-- The value projection at (0, s, e). -/
theorem pay14_apply (v9 : FVec Ideal S1x16x1024 .f32) (W : FVec Ideal S1024x1024 .f32) (bias : FVec Ideal S1x1024 .f32)
    (s : Fin 16) (e : Fin 1024) :
    k0_pay14 v9 W bias (ix3 0 s e) = (∑ d : Fin 1024, v9 (ix3 0 s d) * W (ix2 e d)) + bias (ix2 0 e) := by
  unfold k0_pay14
  rw [lead_apply]
  exact linCore_apply v9 W bias s e

variable (x : A3 32 16 1024) (cK cV : A3 32 4096 1024) (Wq Wk Wv : A2 1024 1024) (bq bk bv : A1 1024) (b : Fin 32)

/-- The query rows the reset keeps are the specification's query projection. -/
theorem q_eq (j : Scr Ideal) (s : Fin 16) (e : Fin 1024) :
    (st0 x Wq Wk Wv bq bk bv b j).q (ix2 s e) = proj x Wq bq b s e :=
  pay12_apply (xBlk x b) Wq (bRow bq) s e

/-- The new key rows the reset keeps are the specification's key projection. -/
theorem kn_eq (j : Scr Ideal) (s : Fin 16) (e : Fin 1024) :
    (st0 x Wq Wk Wv bq bk bv b j).kn (ix3 0 s e) = proj x Wk bk b s e :=
  pay13_apply (xBlk x b) Wk (bRow bk) s e

/-- The new value rows the reset keeps are the specification's value projection. -/
theorem vn_eq (j : Scr Ideal) (s : Fin 16) (e : Fin 1024) :
    (st0 x Wq Wk Wv bq bk bv b j).vn (ix3 0 s e) = proj x Wv bv b s e :=
  pay14_apply (xBlk x b) Wv (bRow bv) s e

/-- The cache tiles leave the query rows and the new key and value rows as the reset left them. -/
theorem q_keep (j : Scr Ideal) :
    (st4 x cK cV Wq Wk Wv bq bk bv b j).q = (st0 x Wq Wk Wv bq bk bv b j).q := rfl
theorem kn_keep (j : Scr Ideal) :
    (st4 x cK cV Wq Wk Wv bq bk bv b j).kn = (st0 x Wq Wk Wv bq bk bv b j).kn := rfl
theorem vn_keep (j : Scr Ideal) :
    (st4 x cK cV Wq Wk Wv bq bk bv b j).vn = (st0 x Wq Wk Wv bq bk bv b j).vn := rfl

/-- The last step leaves them too. -/
theorem q_keep_last (st : Scr Ideal) : (stepLast st).q = st.q := rfl
theorem kn_keep_last (st : Scr Ideal) : (stepLast st).kn = st.kn := rfl
theorem vn_keep_last (st : Scr Ideal) : (stepLast st).vn = st.vn := rfl
theorem q_keep_tile (st : Scr Ideal) (kc vc : FVec Ideal S1x1024x1024 .f32) : (stepTile st kc vc).q = st.q := rfl
theorem kn_keep_tile (st : Scr Ideal) (kc vc : FVec Ideal S1x1024x1024 .f32) : (stepTile st kc vc).kn = st.kn := rfl
theorem vn_keep_tile (st : Scr Ideal) (kc vc : FVec Ideal S1x1024x1024 .f32) : (stepTile st kc vc).vn = st.vn := rfl

end Cert.KernelIdeal.KMath

end
-- ==== Proof.KLast.lean ====
/-
  The 16 new rows folded into the running softmax state, and the output block, read at a row.

  For query row s the 16 scores are sc u = (Σ_e q(s,e) · kn(0,u,e)) · c; the step is the same row step as a cache
  tile's, of width 16, against the new value rows vn.  The output block at (0, s, d) is the quotient of the row's
  numerator at column d by its denominator.
-/
import proofs.«147685_j44616120271538_2_alg».proof.Proof.KTile
import proofs.«147685_j44616120271538_2_alg».proof.Proof.KProj

noncomputable section

namespace Cert.KernelIdeal.KMath

open Idealize.ShloMosaic Idealize.ShloMosaic.ValueIdx Cert.KernelIdeal Cert.KernelIdeal.Gen Cert.KernelIdeal.KState
open Cert.LibOnlineSoftmax

/-- The 16 rows with their unit axis dropped read, at (u, e), the block at (0, u, e). -/
theorem dropLead16_apply (v : FVec Ideal S1x16x1024 .f32) (u : Fin 16) (e : Fin 1024) :
    shapeCast S16x1024 v shapeCasts_S1x16x1024_S16x1024 (ix2 u e) = v (ix3 0 u e) :=
  pay11_apply v u e

/-- The new rows' scores at (s, u). -/
theorem pay22_apply (kn : FVec Ideal S1x16x1024 .f32) (q : FVec Ideal S16x1024 .f32) (s u : Fin 16) :
    k0_pay22 (F := Ideal) kn q (ix2 s u) = (∑ e : Fin 1024, q (ix2 s e) * kn (ix3 0 u e)) * Ideal.ofBits .f32 0x3D000000#32 := by
  unfold k0_pay22
  rw [mulf_apply]
  refine congrArg (· * Ideal.ofBits .f32 0x3D000000#32) ?_
  refine (Cert.LibDotT.matmul_zero_transposed_apply dot_S16x1024_S16x1024_S16x16_1_1_0_0_n_n rfl rfl rfl rfl rfl rfl
    (some .fp32) q (shapeCast S16x1024 kn shapeCasts_S1x16x1024_S16x1024) (ix2 s u)).trans ?_
  exact Finset.sum_congr rfl fun e _ => by rw [dropLead16_apply]

/-- The new maximum of row s. -/
theorem pay23_apply (kn : FVec Ideal S1x16x1024 .f32) (q : FVec Ideal S16x1024 .f32) (m : FVec Ideal S16x1 .f32)
    (s : Fin 16) :
    k0_pay23 (F := Ideal) kn q m (ix2 s 0) = max (m (ix2 s 0)) (Finset.univ.fold max ⊥ fun u : Fin 16 => k0_pay22 (F := Ideal) kn q (ix2 s u)) := by
  unfold k0_pay23
  rw [maximumf_apply]
  refine congrArg (max (m (ix2 s 0))) ?_
  rw [Cert.LibColumn.shapeCast_a_a1_apply]
  exact (Cert.LibRows.rowMaxf_apply (k0_pay22 (F := Ideal) kn q) _ reduces_S16x16_S16 _ _ s).trans (by rw [ofBits_neg_inf])

/-- The rescaling factor of row s. -/
theorem pay24_apply (kn : FVec Ideal S1x16x1024 .f32) (q : FVec Ideal S16x1024 .f32) (m : FVec Ideal S16x1 .f32)
    (s : Fin 16) :
    k0_pay24 (F := Ideal) kn q m (ix2 s 0) = Ideal.exp (m (ix2 s 0) - k0_pay23 (F := Ideal) kn q m (ix2 s 0)) := rfl

/-- The new rows' weights at (s, u). -/
theorem pay25_apply (kn : FVec Ideal S1x16x1024 .f32) (q : FVec Ideal S16x1024 .f32) (m : FVec Ideal S16x1 .f32)
    (s u : Fin 16) :
    k0_pay25 (F := Ideal) kn q m (ix2 s u) = Ideal.exp (k0_pay22 (F := Ideal) kn q (ix2 s u) - k0_pay23 (F := Ideal) kn q m (ix2 s 0)) := by
  unfold k0_pay25
  show Ideal.exp (k0_pay22 (F := Ideal) kn q (ix2 s u) - broadcastTo S16x16 (k0_pay23 (F := Ideal) kn q m) broadcasts_S16x1_S16x16 (ix2 s u)) = _
  rw [Cert.LibColumn.broadcastTo_a1_ab_apply]

/-- The new denominator of row s. -/
theorem pay26_apply (kn : FVec Ideal S1x16x1024 .f32) (q : FVec Ideal S16x1024 .f32) (m l : FVec Ideal S16x1 .f32)
    (s : Fin 16) :
    k0_pay26 (F := Ideal) kn q m l (ix2 s 0) = k0_pay24 (F := Ideal) kn q m (ix2 s 0) * l (ix2 s 0) + ∑ u : Fin 16, k0_pay25 (F := Ideal) kn q m (ix2 s u) := by
  unfold k0_pay26
  rw [shapeCast_self, addf_apply, mulf_apply, Cert.LibColumn.shapeCast_a_a1_apply]
  exact congrArg (k0_pay24 (F := Ideal) kn q m (ix2 s 0) * l (ix2 s 0) + ·)
    (Cert.LibRows.rowSum_apply (k0_pay25 (F := Ideal) kn q m) _ reduces_S16x16_S16 _ _ s)

/-- The new numerator at (s, d). -/
theorem pay27_apply (kn vn : FVec Ideal S1x16x1024 .f32) (q : FVec Ideal S16x1024 .f32) (m : FVec Ideal S16x1 .f32)
    (acc : FVec Ideal S16x1024 .f32) (s : Fin 16) (d : Fin 1024) :
    k0_pay27 (F := Ideal) kn vn q m acc (ix2 s d)
      = k0_pay24 (F := Ideal) kn q m (ix2 s 0) * acc (ix2 s d) + ∑ u : Fin 16, k0_pay25 (F := Ideal) kn q m (ix2 s u) * vn (ix3 0 u d) := by
  unfold k0_pay27
  rw [addf_apply, mulf_apply, Cert.LibColumn.broadcastTo_a1_ab_apply]
  refine congrArg (k0_pay24 (F := Ideal) kn q m (ix2 s 0) * acc (ix2 s d) + ·) ?_
  refine (Cert.LibDot.matmul_zero_plain_apply dot_S16x16_S16x1024_S16x1024_1_0_0_1_n_n rfl rfl rfl rfl rfl rfl
    (some .fp32) (k0_pay25 (F := Ideal) kn q m) (shapeCast S16x1024 vn shapeCasts_S1x16x1024_S16x1024) (ix2 s d)).trans ?_
  exact Finset.sum_congr rfl fun u _ => by rw [dropLead16_apply]

/-- The new rows folded in, at row s and column d: the row step of the online softmax on their scores and values. -/
theorem stepLast_row (st : Scr Ideal) (s : Fin 16) (d : Fin 1024) :
    rowOf (stepLast st) s d
      = rowStep (rowOf st s d) (fun u : Fin 16 => k0_pay22 (F := Ideal) st.kn st.q (ix2 s u)) (fun u : Fin 16 => st.vn (ix3 0 u d)) := by
  have hm : k0_pay23 (F := Ideal) st.kn st.q st.m (ix2 s 0)
      = max (st.m (ix2 s 0)) (Finset.univ.fold max ⊥ fun u : Fin 16 => k0_pay22 (F := Ideal) st.kn st.q (ix2 s u)) :=
    pay23_apply st.kn st.q st.m s
  have hp : ∀ u : Fin 16, k0_pay25 (F := Ideal) st.kn st.q st.m (ix2 s u)
      = Ideal.exp (k0_pay22 (F := Ideal) st.kn st.q (ix2 s u)
          - max (st.m (ix2 s 0)) (Finset.univ.fold max ⊥ fun u : Fin 16 => k0_pay22 (F := Ideal) st.kn st.q (ix2 s u))) := by
    intro u
    rw [pay25_apply, hm]
  refine Acc.ext ?_ ?_ ?_
  · show k0_pay9 (F := Ideal) (k0_pay23 (F := Ideal) st.kn st.q st.m) (ix2 s 0) = _
    unfold k0_pay9
    rw [shapeCast_self]
    exact hm
  · show k0_pay26 (F := Ideal) st.kn st.q st.m st.l (ix2 s 0) = _
    rw [pay26_apply, pay24_apply, hm]
    exact congrArg _ (Finset.sum_congr rfl fun u _ => hp u)
  · show k0_pay8 (F := Ideal) (k0_pay27 (F := Ideal) st.kn st.vn st.q st.m st.acc) (ix2 s d) = _
    unfold k0_pay8
    rw [shapeCast_self, pay27_apply, pay24_apply, hm]
    exact congrArg _ (Finset.sum_congr rfl fun u _ => by rw [hp u]; rfl)

/-- The output block at (0, s, d): the final numerator at column d over the final denominator of row s. -/
theorem outBlock_apply (st : Scr Ideal) (s : Fin 16) (d : Fin 1024) :
    outBlock st (ix3 0 s d) = Ideal.div (rowOf (stepLast st) s d).a (rowOf (stepLast st) s d).l := by
  unfold outBlock k0_pay10
  rw [lead_apply, divf_apply, Cert.LibColumn.broadcastTo_a1_ab_apply]
  rfl

end Cert.KernelIdeal.KMath

end
-- ==== Proof.KReal.lean ====
/-
  Every score and every value row entry is a real number when every input entry is.

  A sum of products of real numbers plus a real number is a real number, so the three projections are real; the keys and
  the values are cache entries or projected entries; a score is a sum of products of those, times the real scale.
-/
import proofs.«147685_j44616120271538_2_alg».proof.Proof.Spec

noncomputable section

namespace Cert.KernelIdeal.KMath

open Idealize.ShloMosaic Idealize.ShloMosaic.ValueIdx Cert.Attn
open scoped BigOperators

/-- A sum of two real numbers is a real number. -/
theorem real_add {a b : EReal} (ha : ∃ r : ℝ, a = (r : EReal)) (hb : ∃ r : ℝ, b = (r : EReal)) :
    ∃ r : ℝ, a + b = (r : EReal) := by
  obtain ⟨p, rfl⟩ := ha
  obtain ⟨q, rfl⟩ := hb
  exact ⟨p + q, (EReal.coe_add p q).symm⟩

/-- A product of two real numbers is a real number. -/
theorem real_mul {a b : EReal} (ha : ∃ r : ℝ, a = (r : EReal)) (hb : ∃ r : ℝ, b = (r : EReal)) :
    ∃ r : ℝ, a * b = (r : EReal) := by
  obtain ⟨p, rfl⟩ := ha
  obtain ⟨q, rfl⟩ := hb
  exact ⟨p * q, (EReal.coe_mul p q).symm⟩

/-- A finite sum of real numbers is a real number. -/
theorem real_sum {ι : Type*} (S : Finset ι) (f : ι → EReal) (h : ∀ i ∈ S, ∃ r : ℝ, f i = (r : EReal)) :
    ∃ r : ℝ, ∑ i ∈ S, f i = (r : EReal) := by
  classical
  induction S using Finset.induction_on with
  | empty => exact ⟨0, by rw [Finset.sum_empty, EReal.coe_zero]⟩
  | insert a S ha ih =>
    rw [Finset.sum_insert ha]
    exact real_add (h a (Finset.mem_insert_self a S)) (ih fun i hi => h i (Finset.mem_insert_of_mem hi))

/-- A linear layer of real inputs is real. -/
theorem proj_real (x : A3 32 16 1024) (W : A2 1024 1024) (bias : A1 1024)
    (hx : ∀ i, ∃ r : ℝ, x i = (r : EReal)) (hW : ∀ i, ∃ r : ℝ, W i = (r : EReal))
    (hb : ∀ i, ∃ r : ℝ, bias i = (r : EReal)) (b : Fin 32) (s : Fin 16) (e : Fin 1024) :
    ∃ r : ℝ, proj x W bias b s e = (r : EReal) :=
  real_add (real_sum _ _ fun d _ => real_mul (hx _) (hW _)) (hb _)

/-- Real cache rows followed by real new rows are real. -/
theorem cat_real (cache : A3 32 4096 1024) (new : Rows 16) (hc : ∀ i, ∃ r : ℝ, cache i = (r : EReal))
    (hn : ∀ b s d, ∃ r : ℝ, new b s d = (r : EReal)) (b : Fin 32) (t : Fin 4112) (d : Fin 1024) :
    ∃ r : ℝ, cat cache new b t d = (r : EReal) := by
  unfold cat
  split
  · exact hc _
  · exact hn _ _ _

/-- The keys (or the values) of real inputs are real. -/
theorem keys_real (x : A3 32 16 1024) (c : A3 32 4096 1024) (W : A2 1024 1024) (bias : A1 1024)
    (hx : ∀ i, ∃ r : ℝ, x i = (r : EReal)) (hc : ∀ i, ∃ r : ℝ, c i = (r : EReal))
    (hW : ∀ i, ∃ r : ℝ, W i = (r : EReal)) (hb : ∀ i, ∃ r : ℝ, bias i = (r : EReal))
    (b : Fin 32) (t : Fin 4112) (d : Fin 1024) :
    ∃ r : ℝ, keys x c W bias b t d = (r : EReal) :=
  cat_real c (proj x W bias) hc (proj_real x W bias hx hW hb) b t d

/-- A score of real queries against real keys, times the scale, is real. -/
theorem score_real (Q : Rows 16) (K : Rows 4112) (hQ : ∀ b s d, ∃ r : ℝ, Q b s d = (r : EReal))
    (hK : ∀ b t d, ∃ r : ℝ, K b t d = (r : EReal)) (b : Fin 32) (s : Fin 16) (t : Fin 4112) :
    ∃ r : ℝ, score scaleC Q K b s t = (r : EReal) :=
  real_mul (real_sum _ _ fun d _ => real_mul (hQ b s d) (hK b t d)) ⟨1 / 32, rfl⟩

end Cert.KernelIdeal.KMath

end
-- ==== Proof.KOut.lean ====
/-
  The kernel's output block against the specification's attention rows.

  For batch b, query row s and column d, the row of 4112 scores and the column of 4112 values are real numbers when the
  inputs are.  The reset leaves the row's state at (−∞, 0, 0), the closed form over no position; cache tile kv folds in
  the positions 1024·kv … 1024·kv + 1023, whose scores and values are the specification's (the keys and values there
  are cache rows); the last step folds in the positions 4096 … 4111 (the projected new rows).  After that the state is
  the closed form over all 4112 positions and the output, numerator over denominator, is the two-pass softmax of the row
  of scores against the values.
-/
import proofs.«147685_j44616120271538_2_alg».proof.Proof.KLast
import proofs.«147685_j44616120271538_2_alg».proof.Proof.KReal

noncomputable section

namespace Cert.KernelIdeal.KMath

open Idealize.ShloMosaic Idealize.ShloMosaic.ValueIdx Cert.KernelIdeal Cert.KernelIdeal.Gen Cert.KernelIdeal.KState
open Cert.LibOnlineSoftmax Cert.LibRowSoftmax Cert.Attn

variable (x : A3 32 16 1024) (cK cV : A3 32 4096 1024) (Wq Wk Wv : A2 1024 1024) (bq bk bv : A1 1024) (b : Fin 32)

/-- The row of scores of query row s, as real numbers. -/
def scoreR (s : Fin 16) : Fin 4112 → ℝ :=
  fun t => (score scaleC (proj x Wq bq) (keys x cK Wk bk) b s t).toReal

/-- Column d of the value rows, as real numbers. -/
def valR (d : Fin 1024) : Fin 4112 → ℝ := fun t => (keys x cV Wv bv b t d).toReal

/-- The score of query row s against the cache's key row at position p = 1024·kv + u is the tile's score at (s, u). -/
theorem tile_score (j : Scr Ideal) (kv : Fin 4) (s : Fin 16) (u : Fin 1024) (p : Fin 4112)
    (hp : p.val = kv.val * 1024 + u.val) :
    k0_pay18 (F := Ideal) (tile b cK kv) (st0 x Wq Wk Wv bq bk bv b j).q (ix2 s u)
      = score scaleC (proj x Wq bq) (keys x cK Wk bk) b s p := by
  have hlt : p.val < 4096 := by have := u.isLt; have := kv.isLt; omega
  rw [pay18_apply, ofBits_scale]
  unfold score
  refine congrArg (· * scaleC) (Finset.sum_congr rfl fun e _ => ?_)
  rw [q_eq]
  refine congrArg (proj x Wq bq b s e * ·) ?_
  unfold keys cat
  rw [dif_pos hlt]
  show cK (ix3 b ⟨kv.val * 1024 + u.val, _⟩ e) = cK (ix3 b ⟨p.val, hlt⟩ e)
  exact congrArg (fun q => cK (ix3 b q e)) (Fin.ext hp.symm)

/-- The value row at position p = 1024·kv + u is the value tile's row u. -/
theorem tile_val (kv : Fin 4) (u : Fin 1024) (d : Fin 1024) (p : Fin 4112) (hp : p.val = kv.val * 1024 + u.val) :
    tile b cV kv (ix3 0 u d) = keys x cV Wv bv b p d := by
  have hlt : p.val < 4096 := by have := u.isLt; have := kv.isLt; omega
  unfold keys cat
  rw [dif_pos hlt]
  show cV (ix3 b ⟨kv.val * 1024 + u.val, _⟩ d) = cV (ix3 b ⟨p.val, hlt⟩ d)
  exact congrArg (fun q => cV (ix3 b q d)) (Fin.ext hp.symm)

/-- The score of query row s against the new key row u, at position p = 4096 + u. -/
theorem new_score (j : Scr Ideal) (s u : Fin 16) (p : Fin 4112) (hp : p.val = 4096 + u.val) :
    k0_pay22 (F := Ideal) (st0 x Wq Wk Wv bq bk bv b j).kn (st0 x Wq Wk Wv bq bk bv b j).q (ix2 s u)
      = score scaleC (proj x Wq bq) (keys x cK Wk bk) b s p := by
  have hge : ¬ p.val < 4096 := by omega
  rw [pay22_apply, ofBits_scale]
  unfold score
  refine congrArg (· * scaleC) (Finset.sum_congr rfl fun e _ => ?_)
  rw [q_eq, kn_eq]
  refine congrArg (proj x Wq bq b s e * ·) ?_
  unfold keys cat
  rw [dif_neg hge]
  exact congrArg (fun q => proj x Wk bk b q e) (Fin.ext (by show u.val = p.val - 4096; omega))

/-- The new value row u, at position p = 4096 + u. -/
theorem new_val (j : Scr Ideal) (u : Fin 16) (d : Fin 1024) (p : Fin 4112) (hp : p.val = 4096 + u.val) :
    (st0 x Wq Wk Wv bq bk bv b j).vn (ix3 0 u d) = keys x cV Wv bv b p d := by
  have hge : ¬ p.val < 4096 := by omega
  rw [vn_eq]
  unfold keys cat
  rw [dif_neg hge]
  exact congrArg (fun q => proj x Wv bv b q d) (Fin.ext (by show u.val = p.val - 4096; omega))

/-- The reset leaves every row's state at (−∞, 0, 0). -/
theorem st0_row (j : Scr Ideal) (s : Fin 16) (d : Fin 1024) :
    rowOf (st0 x Wq Wk Wv bq bk bv b j) s d = ⟨⊥, 0, 0⟩ := by
  refine Acc.ext ?_ ?_ ?_
  · show k0_pay1 (F := Ideal) (ix2 s 0) = ⊥
    unfold k0_pay1
    rw [shapeCast_self]
    exact ofBits_neg_inf
  · show k0_pay2 (F := Ideal) (ix2 s 0) = 0
    unfold k0_pay2
    rw [shapeCast_self]
    exact Ideal.ofBits_zero_f32
  · show k0_pay3 (F := Ideal) (ix2 s d) = 0
    unfold k0_pay3
    rw [shapeCast_self]
    exact Ideal.ofBits_zero_f32

section Finite

variable (hx : ∀ i, ∃ r : ℝ, x i = (r : EReal)) (hcK : ∀ i, ∃ r : ℝ, cK i = (r : EReal))
  (hcV : ∀ i, ∃ r : ℝ, cV i = (r : EReal)) (hWq : ∀ i, ∃ r : ℝ, Wq i = (r : EReal))
  (hWk : ∀ i, ∃ r : ℝ, Wk i = (r : EReal)) (hWv : ∀ i, ∃ r : ℝ, Wv i = (r : EReal))
  (hbq : ∀ i, ∃ r : ℝ, bq i = (r : EReal)) (hbk : ∀ i, ∃ r : ℝ, bk i = (r : EReal))
  (hbv : ∀ i, ∃ r : ℝ, bv i = (r : EReal))

include hx hcK hWq hWk hbq hbk in
/-- A score of real inputs is the coercion of its real part. -/
theorem score_coe (s : Fin 16) (t : Fin 4112) :
    score scaleC (proj x Wq bq) (keys x cK Wk bk) b s t = ((scoreR x cK Wq Wk bq bk b s t : ℝ) : EReal) := by
  obtain ⟨r, hr⟩ := score_real (proj x Wq bq) (keys x cK Wk bk) (proj_real x Wq bq hx hWq hbq)
    (keys_real x cK Wk bk hx hcK hWk hbk) b s t
  unfold scoreR
  rw [hr, EReal.toReal_coe]

include hx hcV hWv hbv in
/-- A value entry of real inputs is the coercion of its real part. -/
theorem val_coe (d : Fin 1024) (t : Fin 4112) :
    keys x cV Wv bv b t d = ((valR x cV Wv bv b d t : ℝ) : EReal) := by
  obtain ⟨r, hr⟩ := keys_real x cV Wv bv hx hcV hWv hbv b t d
  unfold valR
  rw [hr, EReal.toReal_coe]

include hx hcK hcV hWq hWk hWv hbq hbk hbv in
/-- Cache tile kv takes the closed form over the positions below 1024·kv to the one over the positions below
    1024·(kv + 1). -/
theorem tile_step (j : Scr Ideal) (st : Scr Ideal) (kv : Fin 4) (lo hi : ℕ) (hlo : lo = kv.val * 1024)
    (hhi : hi = lo + 1024) (hq : st.q = (st0 x Wq Wk Wv bq bk bv b j).q) (s : Fin 16) (d : Fin 1024)
    (hst : rowOf st s d = closed (scoreR x cK Wq Wk bq bk b s) (valR x cV Wv bv b d) (seg 4112 lo)) :
    rowOf (stepTile st (tile b cK kv) (tile b cV kv)) s d
      = closed (scoreR x cK Wq Wk bq bk b s) (valR x cV Wv bv b d) (seg 4112 hi) := by
  have hk := kv.isLt
  rw [stepTile_row, hst, hq]
  exact rowStep_seg _ _ lo 1024 hi hhi (by omega) (by decide) _ _
    (fun u => (tile_score x cK Wq Wk Wv bq bk bv b j kv s u ⟨lo + u.val, by have := u.isLt; omega⟩
        (by show lo + u.val = kv.val * 1024 + u.val; omega)).trans
      (score_coe x cK Wq Wk bq bk b hx hcK hWq hWk hbq hbk s _))
    (fun u => (tile_val x cV Wv bv b kv u d ⟨lo + u.val, by have := u.isLt; omega⟩
        (by show lo + u.val = kv.val * 1024 + u.val; omega)).trans
      (val_coe x cV Wv bv b hx hcV hWv hbv d _))

include hx hcK hcV hWq hWk hWv hbq hbk hbv in
/-- After the last step every row's state is the closed form over all 4112 positions. -/
theorem final_row (j : Scr Ideal) (s : Fin 16) (d : Fin 1024) :
    rowOf (stepLast (st4 x cK cV Wq Wk Wv bq bk bv b j)) s d
      = closed (scoreR x cK Wq Wk bq bk b s) (valR x cV Wv bv b d) Finset.univ := by
  have h0 : rowOf (st0 x Wq Wk Wv bq bk bv b j) s d
      = closed (scoreR x cK Wq Wk bq bk b s) (valR x cV Wv bv b d) (seg 4112 0) := by
    rw [st0_row, seg_zero, closed_empty]
  have h1 : rowOf (stepTile (st0 x Wq Wk Wv bq bk bv b j) (tile b cK 0) (tile b cV 0)) s d
      = closed (scoreR x cK Wq Wk bq bk b s) (valR x cV Wv bv b d) (seg 4112 1024) :=
    tile_step x cK cV Wq Wk Wv bq bk bv b hx hcK hcV hWq hWk hWv hbq hbk hbv j (st0 x Wq Wk Wv bq bk bv b j) 0 0 1024
      (by decide) (by norm_num) rfl s d h0
  have h2 : rowOf (stepTile (stepTile (st0 x Wq Wk Wv bq bk bv b j) (tile b cK 0) (tile b cV 0))
        (tile b cK 1) (tile b cV 1)) s d
      = closed (scoreR x cK Wq Wk bq bk b s) (valR x cV Wv bv b d) (seg 4112 2048) :=
    tile_step x cK cV Wq Wk Wv bq bk bv b hx hcK hcV hWq hWk hWv hbq hbk hbv j
      (stepTile (st0 x Wq Wk Wv bq bk bv b j) (tile b cK 0) (tile b cV 0)) 1 1024 2048
      (by decide) (by norm_num) rfl s d h1
  have h3 : rowOf (stepTile (stepTile (stepTile (st0 x Wq Wk Wv bq bk bv b j) (tile b cK 0) (tile b cV 0))
        (tile b cK 1) (tile b cV 1)) (tile b cK 2) (tile b cV 2)) s d
      = closed (scoreR x cK Wq Wk bq bk b s) (valR x cV Wv bv b d) (seg 4112 3072) :=
    tile_step x cK cV Wq Wk Wv bq bk bv b hx hcK hcV hWq hWk hWv hbq hbk hbv j
      (stepTile (stepTile (st0 x Wq Wk Wv bq bk bv b j) (tile b cK 0) (tile b cV 0)) (tile b cK 1) (tile b cV 1))
      2 2048 3072 (by decide) (by norm_num) rfl s d h2
  have h4 : rowOf (stepTile (stepTile (stepTile (stepTile (st0 x Wq Wk Wv bq bk bv b j) (tile b cK 0) (tile b cV 0))
        (tile b cK 1) (tile b cV 1)) (tile b cK 2) (tile b cV 2)) (tile b cK 3) (tile b cV 3)) s d
      = closed (scoreR x cK Wq Wk bq bk b s) (valR x cV Wv bv b d) (seg 4112 4096) :=
    tile_step x cK cV Wq Wk Wv bq bk bv b hx hcK hcV hWq hWk hWv hbq hbk hbv j
      (stepTile (stepTile (stepTile (st0 x Wq Wk Wv bq bk bv b j) (tile b cK 0) (tile b cV 0)) (tile b cK 1) (tile b cV 1))
        (tile b cK 2) (tile b cV 2))
      3 3072 4096 (by decide) (by norm_num) rfl s d h3
  have h4' : rowOf (st4 x cK cV Wq Wk Wv bq bk bv b j) s d
      = closed (scoreR x cK Wq Wk bq bk b s) (valR x cV Wv bv b d) (seg 4112 4096) := h4
  rw [stepLast_row, h4', ← seg_all 4112, kn_keep, q_keep, vn_keep]
  exact rowStep_seg _ _ 4096 16 4112 rfl (by decide) (by decide) _ _
    (fun u => (new_score x cK Wq Wk Wv bq bk bv b j s u ⟨4096 + u.val, by have := u.isLt; omega⟩ rfl).trans
      (score_coe x cK Wq Wk bq bk b hx hcK hWq hWk hbq hbk s _))
    (fun u => (new_val x cV Wq Wk Wv bq bk bv b j u d ⟨4096 + u.val, by have := u.isLt; omega⟩ rfl).trans
      (val_coe x cV Wv bv b hx hcV hWv hbv d _))

include hx hcK hcV hWq hWk hWv hbq hbk hbv in
/-- The output block the kernel forms for batch b is the specification's attention output. -/
theorem out_eq (j : Scr Ideal) (s : Fin 16) (d : Fin 1024) :
    outBlock (st4 x cK cV Wq Wk Wv bq bk bv b j) (ix3 0 s d) = outRows x cK cV Wq bq Wk bk Wv bv b s d := by
  rw [outBlock_apply, final_row x cK cV Wq Wk Wv bq bk bv b hx hcK hcV hWq hWk hWv hbq hbk hbv j s d,
    closed_univ_quot (by decide)]
  have hf : (fun k => ((scoreR x cK Wq Wk bq bk b s k : ℝ) : EReal))
      = score scaleC (proj x Wq bq) (keys x cK Wk bk) b s :=
    funext fun k => (score_coe x cK Wq Wk bq bk b hx hcK hWq hWk hbq hbk s k).symm
  rw [hf]
  unfold outRows attn
  exact Finset.sum_congr rfl fun t _ => by rw [val_coe x cV Wv bv b hx hcV hWv hbv d t]

end Finite

end Cert.KernelIdeal.KMath

end
-- ==== Proof.KPass.lean ====
/-
  The key and value rows the kernel passes through to its two cache outputs, against the specification's keys and values.

  A cache tile is copied unchanged to the pass-through buffers; its row u is the specification's row 1024·kv + u.  The
  new key and value rows are the specification's rows 4096 + u.
-/
import proofs.«147685_j44616120271538_2_alg».proof.Proof.KOut

noncomputable section

namespace Cert.KernelIdeal.KMath

open Idealize.ShloMosaic Idealize.ShloMosaic.ValueIdx Cert.KernelIdeal Cert.KernelIdeal.Gen Cert.KernelIdeal.KState
open Cert.Attn

/-- The key tile is passed through unchanged. -/
theorem kp_tile (st : Scr Ideal) (kc vc : FVec Ideal S1x1024x1024 .f32) : (stepTile st kc vc).kp = kc := by
  show k0_pay15 (F := Ideal) kc = kc
  unfold k0_pay15
  exact shapeCast_self _ _

/-- The value tile is passed through unchanged. -/
theorem vp_tile (st : Scr Ideal) (kc vc : FVec Ideal S1x1024x1024 .f32) : (stepTile st kc vc).vp = vc := by
  show k0_pay16 (F := Ideal) vc = vc
  unfold k0_pay16
  exact shapeCast_self _ _

variable (x : A3 32 16 1024) (cK cV : A3 32 4096 1024) (Wq Wk Wv : A2 1024 1024) (bq bk bv : A1 1024) (b : Fin 32)

/-- The new key row u is the specification's key row at position p = 4096 + u. -/
theorem new_key (j : Scr Ideal) (u : Fin 16) (d : Fin 1024) (p : Fin 4112) (hp : p.val = 4096 + u.val) :
    (st0 x Wq Wk Wv bq bk bv b j).kn (ix3 0 u d) = keys x cK Wk bk b p d := by
  have hge : ¬ p.val < 4096 := by omega
  rw [kn_eq]
  unfold keys cat
  rw [dif_neg hge]
  exact congrArg (fun q => proj x Wk bk b q d) (Fin.ext (by show u.val = p.val - 4096; omega))

end Cert.KernelIdeal.KMath

end
-- ==== Proof.VIdeal.lean ====
/-
  The kernel's three results at the ideal instance, as the specification's functions of the arguments.

  At the extended reals the blocks a batch's points read are the batch's rows of x, the weight matrices, the biases as
  one-row matrices and the caches' tiles, so the scratch contents after the batch's four cache tiles are the ones the
  value lemmas speak of; the output block of batch b is then the specification's attention rows of batch b (when every
  input entry is a real number), and the two result arrays end as the specification's keys and values.
-/
import proofs.«147685_j44616120271538_2_alg».proof.Proof.VFinal
import proofs.«147685_j44616120271538_2_alg».proof.Proof.KPass

noncomputable section

namespace Cert.KernelIdeal.FX

open Cert.KernelIdeal Cert.KernelIdeal.Gen Cert.KernelIdeal.KState
open Idealize.ShloMosaic Idealize.ShloMosaic.TcCoe Idealize.ShloMosaic.ValueIdx
open Idealize.SL Idealize.SL.Sem
open Cert.KernelIdeal.KMath Cert.Attn

variable (m : (ℓ : Loc nD τ sig) → Buf (Elt Ideal) ℓ) (c : Dev nD)

/-- x as launched. -/
abbrev aX : A3 32 16 1024 := m ((c : Thread nD τ).loc main_arg0)
/-- The key cache as launched. -/
abbrev aCK : A3 32 4096 1024 := m ((c : Thread nD τ).loc main_arg1)
/-- The value cache as launched. -/
abbrev aCV : A3 32 4096 1024 := m ((c : Thread nD τ).loc main_arg2)
/-- The query weights as launched. -/
abbrev aWq : A2 1024 1024 := m ((c : Thread nD τ).loc main_arg3)
/-- The query bias as launched. -/
abbrev aBq : A1 1024 := m ((c : Thread nD τ).loc main_arg4)
/-- The key weights as launched. -/
abbrev aWk : A2 1024 1024 := m ((c : Thread nD τ).loc main_arg5)
/-- The key bias as launched. -/
abbrev aBk : A1 1024 := m ((c : Thread nD τ).loc main_arg6)
/-- The value weights as launched. -/
abbrev aWv : A2 1024 1024 := m ((c : Thread nD τ).loc main_arg7)
/-- The value bias as launched. -/
abbrev aBv : A1 1024 := m ((c : Thread nD τ).loc main_arg8)

/-! ## The blocks -/

/-- Window 0's block at a point of batch b is the batch's rows of x. -/
theorem blk0 (t : Fin cfg0.N) (b : Fin 32) (hb : b.val = t.val / 5) :
    (iblk m c 0 t : FVec Ideal S1x16x1024 .f32) = xBlk (aX m c) b := by
  funext y
  obtain ⟨z, u, d, rfl⟩ : ∃ (z : Fin 1) (u : Fin 16) (d : Fin 1024), y = ix3 z u d := ⟨y 0, y 1, y 2, eq_ix3 y⟩
  obtain rfl : z = 0 := Subsingleton.elim _ _
  rw [iblk0_apply m c t b hb u d, V_main_arg0]
  rfl

/-- Window 1's block is the query weight matrix as launched. -/
theorem blk1 (t : Fin cfg0.N) : (iblk m c 1 t : FVec Ideal S1024x1024 .f32) = aWq m c := by
  rw [iblk1_eq, V_main_arg3]

/-- Window 3's block is the key weight matrix as launched. -/
theorem blk3 (t : Fin cfg0.N) : (iblk m c 3 t : FVec Ideal S1024x1024 .f32) = aWk m c := by
  rw [iblk3_eq, V_main_arg5]

/-- Window 5's block is the value weight matrix as launched. -/
theorem blk5 (t : Fin cfg0.N) : (iblk m c 5 t : FVec Ideal S1024x1024 .f32) = aWv m c := by
  rw [iblk5_eq, V_main_arg7]

/-- Window 2's block is the query bias as a one-row matrix. -/
theorem blk2 (t : Fin cfg0.N) : (iblk m c 2 t : FVec Ideal S1x1024 .f32) = bRow (aBq m c) := by
  funext y
  obtain ⟨z, e, rfl⟩ : ∃ (z : Fin 1) (e : Fin 1024), y = ix2 z e := ⟨y 0, y 1, eq_ix2 y⟩
  obtain rfl : z = 0 := Subsingleton.elim _ _
  exact iblk2_apply m c t e

/-- Window 4's block is the key bias as a one-row matrix. -/
theorem blk4 (t : Fin cfg0.N) : (iblk m c 4 t : FVec Ideal S1x1024 .f32) = bRow (aBk m c) := by
  funext y
  obtain ⟨z, e, rfl⟩ : ∃ (z : Fin 1) (e : Fin 1024), y = ix2 z e := ⟨y 0, y 1, eq_ix2 y⟩
  obtain rfl : z = 0 := Subsingleton.elim _ _
  exact iblk4_apply m c t e

/-- Window 6's block is the value bias as a one-row matrix. -/
theorem blk6 (t : Fin cfg0.N) : (iblk m c 6 t : FVec Ideal S1x1024 .f32) = bRow (aBv m c) := by
  funext y
  obtain ⟨z, e, rfl⟩ : ∃ (z : Fin 1) (e : Fin 1024), y = ix2 z e := ⟨y 0, y 1, eq_ix2 y⟩
  obtain rfl : z = 0 := Subsingleton.elim _ _
  exact iblk6_apply m c t e

/-- Window 7's block at tile kv < 4 of batch b is the key cache's tile. -/
theorem blk7 (t : Fin cfg0.N) (b : Fin 32) (kv : Fin 4) (hb : b.val = t.val / 5) (hk : kv.val = t.val % 5) :
    (iblk m c 7 t : FVec Ideal S1x1024x1024 .f32) = tile b (aCK m c) kv := by
  funext y
  obtain ⟨z, u, d, rfl⟩ : ∃ (z : Fin 1) (u : Fin 1024) (d : Fin 1024), y = ix3 z u d := ⟨y 0, y 1, y 2, eq_ix3 y⟩
  obtain rfl : z = 0 := Subsingleton.elim _ _
  have hkv := kv.isLt
  have hu := u.isLt
  rw [iblk7_apply m c t b hb u d (⟨kv.val * 1024 + u.val, by omega⟩ : Fin 4096)
    (by show kv.val * 1024 + u.val = min (t.val % 5) 3 * 1024 + u.val; rw [← hk, Nat.min_eq_left (by omega)]), V_main_arg1]
  rfl

/-- Window 8's block at tile kv < 4 of batch b is the value cache's tile. -/
theorem blk8 (t : Fin cfg0.N) (b : Fin 32) (kv : Fin 4) (hb : b.val = t.val / 5) (hk : kv.val = t.val % 5) :
    (iblk m c 8 t : FVec Ideal S1x1024x1024 .f32) = tile b (aCV m c) kv := by
  funext y
  obtain ⟨z, u, d, rfl⟩ : ∃ (z : Fin 1) (u : Fin 1024) (d : Fin 1024), y = ix3 z u d := ⟨y 0, y 1, y 2, eq_ix3 y⟩
  obtain rfl : z = 0 := Subsingleton.elim _ _
  have hkv := kv.isLt
  have hu := u.isLt
  rw [iblk8_apply m c t b hb u d (⟨kv.val * 1024 + u.val, by omega⟩ : Fin 4096)
    (by show kv.val * 1024 + u.val = min (t.val % 5) 3 * 1024 + u.val; rw [← hk, Nat.min_eq_left (by omega)]), V_main_arg2]
  rfl

/-! ## The scratch contents of batch b -/

/-- After the batch's first tile: the reset, then the caches' first tiles folded in. -/
theorem S0_ideal (b : Fin 32) (j : Scr Ideal) :
    S0 m c (5 * b.val) (batch_lt b)
      = stepTile (st0 (aX m c) (aWq m c) (aWk m c) (aWv m c) (aBq m c) (aBk m c) (aBv m c) b j) (tile b (aCK m c) 0) (tile b (aCV m c) 0) := by
  have hb : b.val = 5 * b.val / 5 := by omega
  have hk : (0 : Fin 4).val = 5 * b.val % 5 := by show 0 = 5 * b.val % 5; omega
  unfold S0 firstAt st0
  rw [stepFirst_eq j, blk0 m c _ b hb, blk1, blk2, blk3, blk4, blk5, blk6, blk7 m c _ b 0 hb hk, blk8 m c _ b 0 hb hk]

/-- After the batch's four cache tiles. -/
theorem S3_ideal (b : Fin 32) (j : Scr Ideal) :
    S3 m c (5 * b.val) (batch_lt b) = st4 (aX m c) (aCK m c) (aCV m c) (aWq m c) (aWk m c) (aWv m c) (aBq m c) (aBk m c) (aBv m c) b j := by
  unfold S3 S2 S1 st4
  rw [S0_ideal m c b j,
    blk7 m c _ b 1 (by show b.val = (5 * b.val + 1) / 5; omega) (by show 1 = (5 * b.val + 1) % 5; omega),
    blk8 m c _ b 1 (by show b.val = (5 * b.val + 1) / 5; omega) (by show 1 = (5 * b.val + 1) % 5; omega),
    blk7 m c _ b 2 (by show b.val = (5 * b.val + 2) / 5; omega) (by show 2 = (5 * b.val + 2) % 5; omega),
    blk8 m c _ b 2 (by show b.val = (5 * b.val + 2) / 5; omega) (by show 2 = (5 * b.val + 2) % 5; omega),
    blk7 m c _ b 3 (by show b.val = (5 * b.val + 3) / 5; omega) (by show 3 = (5 * b.val + 3) % 5; omega),
    blk8 m c _ b 3 (by show b.val = (5 * b.val + 3) / 5; omega) (by show 3 = (5 * b.val + 3) % 5; omega)]

/-! ## The three results -/

/-- The output block of batch b is the specification's attention rows of batch b, when every input entry is a real. -/
theorem outAt_ideal
    (hx : ∀ i, ∃ r : ℝ, aX m c i = (r : EReal)) (hcK : ∀ i, ∃ r : ℝ, aCK m c i = (r : EReal))
    (hcV : ∀ i, ∃ r : ℝ, aCV m c i = (r : EReal)) (hWq : ∀ i, ∃ r : ℝ, aWq m c i = (r : EReal))
    (hWk : ∀ i, ∃ r : ℝ, aWk m c i = (r : EReal)) (hWv : ∀ i, ∃ r : ℝ, aWv m c i = (r : EReal))
    (hbq : ∀ i, ∃ r : ℝ, aBq m c i = (r : EReal)) (hbk : ∀ i, ∃ r : ℝ, aBk m c i = (r : EReal))
    (hbv : ∀ i, ∃ r : ℝ, aBv m c i = (r : EReal))
    (b : Fin 32) (s : Fin 16) (d : Fin 1024) :
    (outAt m c ⟨5 * b.val + 4, batch_lt b⟩ : FVec Ideal S1x16x1024 .f32) (ix3 0 s d)
      = outRows (aX m c) (aCK m c) (aCV m c) (aWq m c) (aBq m c) (aWk m c) (aBk m c) (aWv m c) (aBv m c) b s d := by
  rw [outAt_eq m c (5 * b.val) (batch_lt b) (by omega), S3_ideal m c b noScr]
  exact out_eq (aX m c) (aCK m c) (aCV m c) (aWq m c) (aWk m c) (aWv m c) (aBq m c) (aBk m c) (aBv m c) b hx hcK hcV hWq hWk hWv hbq hbk hbv noScr s d

/-- The keys' result array ends as the specification's keys. -/
theorem k_ideal :
    ((stAt m c cfg0.N le_rfl).k : S32x4112x1024.Idx → EReal) = arr (keys (aX m c) (aCK m c) (aWk m c) (aBk m c)) := by
  funext i
  obtain ⟨b, r, d, rfl⟩ : ∃ (b : Fin 32) (r : Fin 4112) (d : Fin 1024), i = ix3 b r d := ⟨i 0, i 1, i 2, eq_ix3 i⟩
  have hr' := r.isLt
  show _ = keys (aX m c) (aCK m c) (aWk m c) (aBk m c) b r d
  by_cases hr : r.val < 4096
  · rw [k_final_cache m c b r d hr]
    unfold keys cat
    rw [dif_pos hr]
  · rw [k_final_new m c b r d (⟨r.val % 1024, by omega⟩ : Fin 16) (by show r.val = 4096 + r.val % 1024; omega),
      S0_ideal m c b noScr, kn_keep_tile]
    exact new_key _ _ _ _ _ _ _ _ _ noScr _ d r (by show r.val = 4096 + r.val % 1024; omega)

/-- The values' result array ends as the specification's values. -/
theorem v_ideal :
    ((stAt m c cfg0.N le_rfl).v : S32x4112x1024.Idx → EReal) = arr (keys (aX m c) (aCV m c) (aWv m c) (aBv m c)) := by
  funext i
  obtain ⟨b, r, d, rfl⟩ : ∃ (b : Fin 32) (r : Fin 4112) (d : Fin 1024), i = ix3 b r d := ⟨i 0, i 1, i 2, eq_ix3 i⟩
  have hr' := r.isLt
  show _ = keys (aX m c) (aCV m c) (aWv m c) (aBv m c) b r d
  by_cases hr : r.val < 4096
  · rw [v_final_cache m c b r d hr]
    unfold keys cat
    rw [dif_pos hr]
  · rw [v_final_new m c b r d (⟨r.val % 1024, by omega⟩ : Fin 16) (by show r.val = 4096 + r.val % 1024; omega),
      S0_ideal m c b noScr, vn_keep_tile]
    exact new_val _ _ _ _ _ _ _ _ _ noScr _ d r (by show r.val = 4096 + r.val % 1024; omega)

end Cert.KernelIdeal.FX

end
-- ==== Proof.VOut.lean ====
/-
  The attention output array from the blocks written back, for any float instance.

  The output window's block at grid point t is block (t / 5, 0, 0) of the 32 × 16 × 1024 array: the 16 rows of batch
  t / 5.  It is written back exactly at the points t ≡ 4 (mod 5), the last tile of each batch.  If what the body leaves
  at each such point is the rows of batch t / 5 of one whole-array function G, the array ends holding G: the point that
  covers batch b is 5·b + 4, and every index lies in that point's block.
-/
import proofs.«147685_j44616120271538_2_alg».proof.Proof.FBase
import Idealize.ShloMosaic.Lib.Pipeline.Value
import Idealize.ShloMosaic.Lib.ValueIdx

set_option maxRecDepth 16384

noncomputable section

namespace Cert.KernelIdeal.FX

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

/-- The output window's block indices, decided over the grid: point t works on block (t / 5, 0, 0). -/
theorem outIdx : ∀ t : Fin cfg0.N, win0_9.index t (0 : Fin 3) = t.val / 5
    ∧ win0_9.index t (1 : Fin 3) = 0 ∧ win0_9.index t (2 : Fin 3) = 0 :=
  (by decide +kernel : ∀ t : Fin grid0.N, win0_9.index t (0 : Fin 3) = t.val / 5
    ∧ win0_9.index t (1 : Fin 3) = 0 ∧ win0_9.index t (2 : Fin 3) = 0)

/-- An index of the array is in point t's block iff each coordinate is in the block's range on its axis. -/
theorem mem_outBlk (t : Fin cfg0.N) (i : S32x16x1024.Idx) :
    i ∈ ((cfg0.win 9).blk t).view.set ↔ ∀ a : Fin 3, win0_9.index t a * S1x16x1024.size a ≤ (i a).val
      ∧ (i a).val < win0_9.index t a * S1x16x1024.size a + S1x16x1024.size a := by
  show i ∈ ((View.whole main_v3_0).slice (win0_9.rect t)).set ↔ _
  rw [View.set_slice_whole, Rect.mem_set_unit]
  exact Iff.rfl

/-- Where element (0, s, d) of point t's block sits in the array: at (t / 5, s, d). -/
theorem outBlk_emb (t : Fin cfg0.N) (b : Fin 32) (hb : b.val = t.val / 5) (j : S1x16x1024.Idx) :
    ((cfg0.win 9).blk t).view.emb j = (ix3 b (j 1) (j 2) : S32x16x1024.Idx) := by
  obtain ⟨e0, e1, e2⟩ := outIdx t
  have h0 : (j 0).val < 1 := (j 0).isLt
  funext a
  apply Fin.ext
  match a with
  | ⟨0, _⟩ => show win0_9.index t (0 : Fin 3) * 1 + 1 * (j 0).val = b.val; omega
  | ⟨1, _⟩ => show win0_9.index t (1 : Fin 3) * 16 + 1 * (j 1).val = (j 1).val; omega
  | ⟨2, _⟩ => show win0_9.index t (2 : Fin 3) * 1024 + 1 * (j 2).val = (j 2).val; omega

/-- The output array after the run, from what the body leaves in the output block at the last tile of each batch. -/
theorem out_array {c : Dev nD} (dat : Pipeline.Dat τ (Elt F) Unit ℕ (Pipeline.UC sig nD τ) ℕ cfg0 c)
    (G : S32x16x1024.Idx → Elt F .f32)
    (h : ∀ (t : Fin cfg0.N), t.val % 5 = 4 → ∀ (b : Fin 32), b.val = t.val / 5 → ∀ (s : Fin 16) (d : Fin 1024),
      (dat.after 9 t : S1x16x1024.Idx → Elt F .f32) (ix3 0 s d) = G (ix3 b s d)) :
    (dat.arrAt 9 cfg0.N : S32x16x1024.Idx → Elt F .f32) = G := by
  refine dat.arrAt_eq_of_cover 9 G (fun t hf => ?_) (fun i => ?_)
  · -- what a flushing point writes back is its block of G
    have ht : t.val % 5 = 4 := (flush0_9 t).mp hf
    have hlt : t.val / 5 < 32 := by have h1 : t.val < 160 := lt_of_lt_of_eq t.isLt N_0; omega
    show (cfg0.win 9).cut (grid0.coords t) (dat.after 9 t) = _
    funext j
    rw [View.read_apply, outBlk_emb t ⟨t.val / 5, hlt⟩ rfl j]
    have hj : j = (ix3 0 (j 1) (j 2) : S1x16x1024.Idx) := by
      have h0 : (j 0).val < 1 := (j 0).isLt
      funext a
      match a with
      | ⟨0, _⟩ => exact Fin.ext (by show (j 0).val = 0; omega)
      | ⟨1, _⟩ => rfl
      | ⟨2, _⟩ => rfl
    exact (congrArg (dat.after 9 t : S1x16x1024.Idx → Elt F .f32) hj).trans (h t ht ⟨t.val / 5, hlt⟩ rfl (j 1) (j 2))
  · -- the point that covers batch b is 5·b + 4
    have hi0 : (i 0).val < 32 := (i 0).isLt
    have hi1 : (i 1).val < 16 := (i 1).isLt
    have hi2 : (i 2).val < 1024 := (i 2).isLt
    have hp : 5 * (i 0).val + 4 < cfg0.N := lt_of_lt_of_eq (by omega : 5 * (i 0).val + 4 < 160) N_0.symm
    refine ⟨⟨5 * (i 0).val + 4, hp⟩, (flush0_9 _).mpr (by show (5 * (i 0).val + 4) % 5 = 4; omega), ?_⟩
    rw [mem_outBlk]
    obtain ⟨e0, e1, e2⟩ := outIdx ⟨5 * (i 0).val + 4, hp⟩
    have e0' : win0_9.index ⟨5 * (i 0).val + 4, hp⟩ (0 : Fin 3) = (5 * (i 0).val + 4) / 5 := e0
    intro a
    match a with
    | ⟨0, _⟩ =>
      show win0_9.index ⟨5 * (i 0).val + 4, _⟩ (0 : Fin 3) * 1 ≤ (i 0).val
        ∧ (i 0).val < win0_9.index ⟨5 * (i 0).val + 4, _⟩ (0 : Fin 3) * 1 + 1
      omega
    | ⟨1, _⟩ =>
      show win0_9.index ⟨5 * (i 0).val + 4, _⟩ (1 : Fin 3) * 16 ≤ (i 1).val
        ∧ (i 1).val < win0_9.index ⟨5 * (i 0).val + 4, _⟩ (1 : Fin 3) * 16 + 16
      omega
    | ⟨2, _⟩ =>
      show win0_9.index ⟨5 * (i 0).val + 4, _⟩ (2 : Fin 3) * 1024 ≤ (i 2).val
        ∧ (i 2).val < win0_9.index ⟨5 * (i 0).val + 4, _⟩ (2 : Fin 3) * 1024 + 1024
      omega

end Cert.KernelIdeal.FX

end
-- ==== Proof.LibRealOps.lean ====
/-
  Real numbers inside the extended reals: the facts that carry "every value is a real number" through a program.

  A program read over the extended reals is exact, but its algebra is the reals' only where no infinity occurs:
  distributivity and cancellation fail at an infinite factor. A precondition that every input is finite therefore has
  to be carried through the program: each intermediate is shown to be the coercion of a real, and the law wanted is then
  the reals'. This file has the two element tests a printed precondition is made of (|x| < +infinity says x is a real;
  v >= 0 says what it says), and the closure of the reals under what such programs do to them: a finite sum (this
  Mathlib has no coercion lemma for it), a sum of products (a matrix product's entry) onto a real accumulator, a quotient
  by a non-zero real, a maximum, and a square root of a non-negative real.
-/
import Idealize.ShloMosaic.PureOps.Ideal

noncomputable section

namespace Idealize.ShloMosaic.RealOps

open Idealize.ShloMosaic

/-! ## The element tests of a precondition -/

/-- The f32 pattern of +infinity denotes the top element. -/
theorem ofBits_pos_inf : Ideal.ofBits .f32 0x7F800000#32 = (⊤ : EReal) := by
  simp [Ideal.ofBits, Ideal.ieee]

/-- An extended real is below the top in absolute value exactly when it is a real number. -/
theorem abs_lt_top_iff (x : EReal) : max x (-x) < ⊤ ↔ ∃ r : ℝ, x = (r : EReal) := by
  induction x using EReal.rec with
  | bot => simp
  | coe r =>
    refine ⟨fun _ => ⟨r, rfl⟩, fun _ => ?_⟩
    rw [← EReal.coe_neg, max_lt_iff]
    exact ⟨EReal.coe_lt_top r, EReal.coe_lt_top (-r)⟩
  | top => simp

/-- The finiteness test as a program prints it: the comparison "|x| < +infinity" answers 1 exactly when x is a real. -/
theorem cmp_abs_lt_inf (x : EReal) :
    Ideal.cmp .olt (max x (-x)) (Ideal.ofBits .f32 0x7F800000#32) = 1#1 ↔ ∃ r : ℝ, x = (r : EReal) := by
  rw [ofBits_pos_inf, ← abs_lt_top_iff]
  unfold Ideal.cmp
  by_cases h : max x (-x) < ⊤ <;> simp [h]

/-- The sign test as a program prints it: "v >= 0" answers 1 exactly when 0 <= v. -/
theorem cmp_ge_zero (v : EReal) : Ideal.cmp .oge v 0 = 1#1 ↔ 0 ≤ v := by
  unfold Ideal.cmp
  by_cases h : (0 : EReal) ≤ v <;> simp [h]

/-! ## Closure of the reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, taken on the extended reals, is the real sum of products. -/
theorem sum_mul_coe {ι : Type*} (s : Finset ι) (a b : ι → ℝ) :
    ∑ k ∈ s, (a k : EReal) * (b k : EReal) = ((∑ k ∈ s, a k * b k : ℝ) : EReal) := by
  rw [coe_sum]
  exact Finset.sum_congr rfl fun k _ => (EReal.coe_mul _ _).symm

/-- The same onto a real accumulator: an entry of a matrix product of real matrices is a real. -/
theorem acc_add_sum_mul_coe {ι : Type*} (s : Finset ι) (acc : ℝ) (a b : ι → ℝ) :
    (acc : EReal) + ∑ k ∈ s, (a k : EReal) * (b k : EReal) = ((acc + ∑ k ∈ s, a k * b k : ℝ) : EReal) := by
  rw [sum_mul_coe, EReal.coe_add]

/-- A quotient of reals by a non-zero real, as a program takes it, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A maximum of reals is the real maximum. -/
theorem max_coe (a b : ℝ) : max (a : EReal) (b : EReal) = ((max a b : ℝ) : EReal) :=
  (EReal.coe_strictMono.monotone.map_max).symm

/-- The square root of a non-negative real, as a program takes it, is the real square root. -/
theorem sqrt_coe_of_nonneg {r : ℝ} (hr : 0 ≤ r) : Ideal.sqrt (r : EReal) = ((Real.sqrt r : ℝ) : EReal) := by
  show (if r < 0 then (⊥ : EReal) else (Real.sqrt r : EReal)) = _
  rw [if_neg (not_lt.2 hr)]

end Idealize.ShloMosaic.RealOps

end
-- ==== Proof.PreReal.lean ====
/-
  The precondition read back: every entry of every input array is a real number.

  The precondition is nine tests "every |x| is below +∞", one per input array, joined by "and".  The conjunction being 1
  gives each test being 1; a test "all" being 1 gives the comparison being 1 at every index; and |x| < +∞ on the extended
  reals says that x is neither −∞ nor +∞, that is, a real number.
-/
import proofs.«147685_j44616120271538_2_alg».proof.Defs
import proofs.«147685_j44616120271538_2_alg».proof.Proof.LibRealOps
import Idealize.ShloMosaic.Lib.ReduceAll
import Idealize.ShloMosaic.Lib.ValueIdx

noncomputable section

namespace Cert.KernelIdeal.KMath

open Idealize.ShloMosaic Idealize.SL.Sem Idealize.ShloMosaic.ValueIdx

/-- The scalar shape has one index. -/
instance : Subsingleton (Cert.Pre_finite_inputs.S_).Idx := ⟨fun _ _ => funext fun d => d.elim0⟩

/-- One test of the precondition: "every |a i| is below +∞" being 1 says every entry of a is a real number. -/
theorem all_finite {s : Shape} {axes : List (Fin s.rank)} (a : FVec Ideal s .f32)
    (hb : (Cert.Pre_finite_inputs.S_).BroadcastsInDim s (![] : Fin 0 → Fin s.rank))
    (hr : s.ReducesTo axes Cert.Pre_finite_inputs.S_) (hu : 0 < (Cert.Pre_finite_inputs.S_).numel)
    (e : Host.reduce IntOp.andi
        (cmpf .olt (Host.absf a)
          (broadcastInDim s ![] hb (constant (F := Ideal) Cert.Pre_finite_inputs.S_ .f32 0x7F800000#32)))
        (constantI Cert.Pre_finite_inputs.S_ 1 1#1) hr hu ix0 = 1#1) :
    ∀ i, ∃ r : ℝ, a i = (r : EReal) := fun i =>
  (Idealize.ShloMosaic.RealOps.cmp_abs_lt_inf (a i)).1 (Host.reduce_andi_all _ _ hr hu ix0 e i)

open Cert.Pre_finite_inputs in
/-- The printed precondition being all ones says every entry of each of its nine arguments is a real number. -/
theorem fn_real [hP : Cert.Pre_finite_inputs.Facts]
    (a0 : FVec Ideal S32x16x1024 .f32) (a1 a2 : FVec Ideal S32x4096x1024 .f32)
    (a3 : FVec Ideal S1024x1024 .f32) (a4 : FVec Ideal S1024 .f32) (a5 : FVec Ideal S1024x1024 .f32)
    (a6 : FVec Ideal S1024 .f32) (a7 : FVec Ideal S1024x1024 .f32) (a8 : FVec Ideal S1024 .f32)
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal)) := by
  have e := congrFun h ix0
  unfold Cert.Pre_finite_inputs.fn Cert.Pre_finite_inputs.fn_part1 Cert.Pre_finite_inputs.fn_part2 at e
  dsimp only at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all_finite a0 _ _ _ e0, all_finite a1 _ _ _ e1, all_finite a2 _ _ _ e2, all_finite a3 _ _ _ e3,
    all_finite a4 _ _ _ e4, all_finite a5 _ _ _ e5, all_finite a6 _ _ _ e6, all_finite a7 _ _ _ e7,
    all_finite a8 _ _ _ e8⟩

/-- Under the kernel's precondition every entry of each of its nine input arrays, on every device, is a real number. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal)) :=
  fn_real _ _ _ _ _ _ _ _ _ (h c)

end Cert.KernelIdeal.KMath

end
-- ==== Proof.Assemble.lean ====
/-
  The two idealized programs end with equal results.

  The kernel's run ends with its output array at the blocks its write-backs left and its two result arrays at what
  the last grid point left in them; read index by index these are the attention output and the concatenated keys and
  values of the specification (for the output this needs every input to be a real number: the online softmax's
  rescaling and the final quotient are the two-pass softmax only on the reals).  The reference's run ends at the
  same three arrays, and the two memories agree on the arguments.
-/
import proofs.«147685_j44616120271538_2_alg».proof.Defs
import proofs.«147685_j44616120271538_2_alg».proof.Proof.FClaim
import proofs.«147685_j44616120271538_2_alg».proof.Proof.VIdeal
import proofs.«147685_j44616120271538_2_alg».proof.Proof.VOut
import proofs.«147685_j44616120271538_2_alg».proof.Proof.PreReal
import proofs.«147685_j44616120271538_2_alg».proof.Proof.RefSpec
import proofs.«147685_j44616120271538_2_alg».proof.Proof.Gen.Pre_finite_inputs

noncomputable section

namespace Cert.Proof.Parts

open Idealize.ShloMosaic Idealize.ShloMosaic.TcCoe Idealize.ShloMosaic.ValueIdx Idealize.SL.Sem
open Cert.KernelIdeal Cert.KernelIdeal.Gen Cert.KernelIdeal.FX Cert.KernelIdeal.KMath Cert.Attn

/-- The kernel's run at the extended reals, its three results read as the specification's arrays. -/
theorem kernel_values (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v3_0) = arr (outRows (aX m c) (aCK m c) (aCV m c) (aWq m c) (aBq m c) (aWk m c) (aBk m c) (aWv m c) (aBv m c))
      ∧ r.2.mem ((c.tc : Thread nD τ).loc main_v3_1) = arr (keys (aX m c) (aCK m c) (aWk m c) (aBk m c))
      ∧ r.2.mem ((c.tc : Thread nD τ).loc main_v3_2) = arr (keys (aX m c) (aCV m c) (aWv m c) (aBv m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    obtain ⟨h0, h1, h2, h3, h4, h5, h6, h7, h8⟩ := real_of_pre m hpre c
    refine ⟨(h c).1.trans ?_, (h c).2.1.trans (k_ideal m c), (h c).2.2.1.trans (v_ideal m c), (h c).2.2.2⟩
    refine out_array (dats m 0 c) _ (fun t ht b hb s d => ?_)
    rw [after9]
    have e : t = ⟨5 * b.val + 4, batch_lt b⟩ := Fin.ext (by show t.val = 5 * b.val + 4; omega)
    rw [e]
    exact outAt_ideal m c h0 h1 h2 h3 h5 h7 h4 h6 h8 b s d)
    (run_values (F := Ideal) m ρ)

/-- The two idealized programs, run from memories agreeing on the arguments, end with equal results. -/
theorem algebraic : Cert.algebraic_KernelIdeal_ReferenceIdeal := by
  intro m ρ m' ρ' hpre hagree
  refine ⟨fun c => arr (outRows (aX m c) (aCK m c) (aCV m c) (aWq m c) (aBq m c) (aWk m c) (aBk m c) (aWv m c) (aBv m c)),
    fun c => arr (keys (aX m c) (aCK m c) (aWk m c) (aBk m c)), fun c => arr (keys (aX m c) (aCV m c) (aWv m c) (aBv m c)),
    kernel_values m ρ hpre, ?_⟩
  refine (θ_run Cert.ReferenceIdeal.defs _ _).mono (fun r h c => ?_) (Cert.Attn.Ref.run m' ρ')
  obtain ⟨e0, e1, e2, e3, e4, e5, e6, e7, e8⟩ := hagree c
  refine ⟨(h c).1.trans ?_, (h c).2.1.trans ?_, (h c).2.2.1.trans ?_, (h c).2.2.2⟩
  · simp only [e0, e1, e2, e3, e4, e5, e6, e7, e8]
  · simp only [e0, e1, e2, e3, e4, e5, e6, e7, e8]
  · simp only [e0, e1, e2, e3, e4, e5, e6, e7, e8]

end Cert.Proof.Parts

end
-- ==== Proof.lean ====
/-
  A flash-attention kernel over a key/value cache against its plain reference.

  Both programs project the 16 query rows of each of 32 batches through three linear layers, append the 16 new key
  and value rows to a cache of 4096 rows, score each query row against all 4112 key rows (scaled by 1/√1024 = 1/32),
  take the row softmax and return the weighted sum of the value rows together with the extended keys and values.
  The kernel walks each batch in five tiles (four cache tiles of 1024 rows, then the 16 new rows), keeping a running
  maximum, denominator and numerator that it rescales from tile to tile, and copies each tile out to the two result
  arrays by transfers of its own while it is being used.

  The three frames: every execution of each program ends, faults nowhere and leaves the arguments as they were —
  for the kernel (at machine words and at the extended reals) by running the body at each of its three kinds of grid
  point under an invariant that tracks the scratch buffers and the two result arrays, for the reference by running
  its host operations.  Nothing was rewritten when the kernel was idealized, so that conjunct is trivial.  At the
  extended reals, under the precondition that every input is a real number, the tile-by-tile recurrence is the
  two-pass softmax, and the two programs' three results are one and the same three arrays.
-/
import proofs.«147685_j44616120271538_2_alg».proof.Defs
import proofs.«147685_j44616120271538_2_alg».proof.Proof.Gen.Kernel
import proofs.«147685_j44616120271538_2_alg».proof.Proof.Gen.KernelIdeal
import proofs.«147685_j44616120271538_2_alg».proof.Proof.Gen.ReferenceIdeal
import proofs.«147685_j44616120271538_2_alg».proof.Proof.Gen.Pre_finite_inputs
import proofs.«147685_j44616120271538_2_alg».proof.Proof.FClaimK
import proofs.«147685_j44616120271538_2_alg».proof.Proof.FClaim
import proofs.«147685_j44616120271538_2_alg».proof.Proof.RefSpec
import proofs.«147685_j44616120271538_2_alg».proof.Proof.Assemble
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.FX.frame (F := Bits) m ρ,
  fun m ρ _ => Cert.KernelIdeal.FX.frame (F := Ideal) m ρ,
  fun m ρ _ => (θ_run Cert.ReferenceIdeal.defs _ _).mono (fun _ h c => (h c).2.2.2) (Cert.Attn.Ref.run m ρ),
  trivial,
  Cert.Proof.Parts.algebraic⟩

end Cert.Proof

end
